-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096x4096 : Shape := ⟨3, ![4, 4096, 4096]⟩
abbrev S1024x3072 : Shape := ⟨2, ![1024, 3072]⟩
abbrev S3072 : Shape := ⟨1, ![3072]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  main_v23

def fn {F : FTy → Type} [FloatOps F] (main_arg0 : FVec F S4x4096x1024 .f32) (main_arg1 : FVec F S4x4096x1024 .f32) (main_arg2 : FVec F S4x4096x4096 .f32) (main_arg3 : FVec F S1024x3072 .f32) (main_arg4 : FVec F S3072 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x4096 .f32 := Host.absf main_arg2
  let main_cst_2 : FVec F S_ .f32 := constant S_ .f32 0x7F800000#32
  let main_v10 : FVec F S4x4096x4096 .f32 := broadcastInDim S4x4096x4096 ![] bcast_S_S4x4096x4096 main_cst_2
  let main_v11 : IVec S4x4096x4096 1 := cmpf .olt main_v9 main_v10
  let main_c_3 : IVec S_ 1 := constantI S_ 1 1#1
  let main_v12 : IVec S_ 1 := (fun x v => Host.reduce IntOp.andi x v reducesTo_S4x4096x4096_S_d0_1_2 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_v13 main_v16
-- ==== Kernel.lean ====
abbrev S4x4096x1024 : Shape := ⟨3, ![4, 4096, 1024]⟩
abbrev S4x4096x4096 : Shape := ⟨3, ![4, 4096, 4096]⟩
abbrev S1024x3072 : Shape := ⟨2, ![1024, 3072]⟩
abbrev S3072 : Shape := ⟨1, ![3072]⟩
abbrev S16384x1024 : Shape := ⟨2, ![16384, 1024]⟩
abbrev S1x3072 : Shape := ⟨2, ![1, 3072]⟩
abbrev S1024x1024 : Shape := ⟨2, ![1024, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x1 : Shape := ⟨2, ![1024, 1]⟩
abbrev S512x1024 : Shape := ⟨2, ![512, 1024]⟩
abbrev S1024x512 : Shape := ⟨2, ![1024, 512]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x4096, .f32⟩
  | .hbm, ⟨3, _⟩ => ⟨S1024x3072, .f32⟩
  | .hbm, ⟨4, _⟩ => ⟨S3072, .f32⟩
  | .hbm, ⟨5, _⟩ => ⟨S16384x1024, .f32⟩
  | .hbm, ⟨6, _⟩ => ⟨S1024x3072, .bf16⟩
  | .hbm, ⟨7, _⟩ => ⟨S1x3072, .f32⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S4x4096x1024, .bf16⟩
  | .hbm, ⟨12, _⟩ => ⟨S4x4096x1024, .bf16⟩
  | .hbm, ⟨13, _⟩ => ⟨S4x4096x1024, .bf16⟩
  | .hbm, ⟨14, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x512, .f32⟩
  | .local _ .vmem, ⟨17, _⟩ => ⟨S1x1024x512, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1, .f32⟩
  | .local _ .vmem, ⟨21, _⟩ => ⟨S1024x1, .f32⟩
  | .local _ .vmem, ⟨22, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x4096x1024_S16384x1024 : S4x4096x1024.ShapeCasts S16384x1024
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  slices_S1024x3072_o0_0_S1024x1024 : S1024x3072.Slices ![0, 0] S1024x1024
  slices_S1024x3072_o0_1024_S1024x1024 : S1024x3072.Slices ![0, 1024] S1024x1024
  slices_S1024x3072_o0_2048_S1024x1024 : S1024x3072.Slices ![0, 2048] S1024x1024
  packedbf16_S1024x1024_S1024x1024_0_0 : (Rect.unit (s := S1024x1024) ![0, 0] S1024x1024.size inb_S1024x1024_S1024x1024_0_0).PackedRows (EltTy.packing .bf16)
  shapeCasts_S16384x1024_S4x4096x1024 : S16384x1024.ShapeCasts S4x4096x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S1024x1024_S1024x3072_S1024x3072_1_0_0_1_n_n_wf : DotDims.WF S1024x1024 S1024x3072 S1024x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x4096x4096.size a
  hwx1_3 : ∀ i : grid1.Coords, EltTy.bits .f32 = 32 ∨ (Rect.block (s := S4x4096x4096) S1x1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x4096x1024.size a
  hwx1_4 : ∀ i : grid1.Coords, EltTy.bits .f32 = 32 ∨ (Rect.block (s := S4x4096x1024) S1x1024x1024.size (cc1_transform_4 i) (hinb1_4 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4x4096x4096 : Shape := ⟨3, ![4, 4096, 4096]⟩
abbrev S1024x3072 : Shape := ⟨2, ![1024, 3072]⟩
abbrev S3072 : Shape := ⟨1, ![3072]⟩
abbrev S4x4096x3072 : Shape := ⟨3, ![4, 4096, 3072]⟩
abbrev S1x1x3072 : Shape := ⟨3, ![1, 1, 3072]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x4096, .f32⟩
  | .hbm, ⟨3, _⟩ => ⟨S1024x3072, .f32⟩
  | .hbm, ⟨4, _⟩ => ⟨S3072, .f32⟩
  | .hbm, ⟨5, _⟩ => ⟨S4x4096x3072, .f32⟩
  | .hbm, ⟨6, _⟩ => ⟨S1x1x3072, .f32⟩
  | .hbm, ⟨7, _⟩ => ⟨S4x4096x3072, .f32⟩
  | .hbm, ⟨8, _⟩ => ⟨S4x4096x3072, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  bcast_S_S4x4096x1024 : S_.BroadcastsInDim S4x4096x1024 (![] : Fin 0 → Fin S4x4096x1024.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x3072_S4x4096x3072_2_0_01_1_n_n_wf : DotDims.WF S4x4096x1024 S1024x3072 S4x4096x3072 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x3072_S4x4096x3072_2_0_01_1_n_n : DotDims S4x4096x1024 S1024x3072 S4x4096x3072 where
  lhsContracting := [2]
  rhsContracting := [0]
  lhsNonContracting := [0, 1]
  rhsNonContracting := [1]
  lhsBatch := []
  rhsBatch := []
  wf := dot_S4x4096x1024_S1024x3072_S4x4096x3072_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KProjFrame.lean ====
/-
  The projection region (the first of the two kernel regions): on a grid of 16 row tiles each point loads a 1024×1024 block of x,
  the whole bf16 weight and the bias row, and stores the three thirds of x·W + b — the first third scaled by 1/32 —
  into the q, k and v blocks. Here: the body's triple on whole staging buffers, the pipeline's proof data at the
  contents the region is entered with, and the body obligation at every point. Stated at any float instance.
-/
import proofs.«117829_j39676907888059_2_alg».proof.Proof.Gen.Kernel.Launch
import proofs.«117829_j39676907888059_2_alg».proof.Proof.Gen.Kernel.Skeleton
import proofs.«117829_j39676907888059_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The projection kernel's accesses: each of its six buffers is read or written whole. -/

abbrev rX : Rect S1024x1024 := Rect.unit (s := S1024x1024) ![0, 0] S1024x1024.size inb_S1024x1024_S1024x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- The q block a point leaves: the first third of x·W + b, scaled by 1/32. -/
def outQ (x : Vec F S1024x1024 .f32) (w : Vec F S1024x3072 .bf16) (b : Vec F S1x3072 .f32) : Vec F S1024x1024 .bf16 :=
  View.canon [⟨rX, k0_pay2 (View.ld x rX) (View.ld w rW) (View.ld b rB)⟩]
/-- The k block: the middle third of x·W + b. -/
def outK (x : Vec F S1024x1024 .f32) (w : Vec F S1024x3072 .bf16) (b : Vec F S1x3072 .f32) : Vec F S1024x1024 .bf16 :=
  View.canon [⟨rX, k0_pay3 (View.ld x rX) (View.ld w rW) (View.ld b rB)⟩]
/-- The v block: the last third of x·W + b. -/
def outV (x : Vec F S1024x1024 .f32) (w : Vec F S1024x3072 .bf16) (b : Vec F S1x3072 .f32) : Vec F S1024x1024 .bf16 :=
  View.canon [⟨rX, k0_pay4 (View.ld x rX) (View.ld w rW) (View.ld b rB)⟩]

theorem coverX (p : Vec F S1024x1024 .bf16) (y : S1024x1024.Idx) :
    ∃ pc ∈ ([⟨rX, p⟩] : List (View.Piece (Elt F) S1024x1024 .bf16)), y ∈ pc.1.set :=
  View.cover_of_tiled [⟨rX, p⟩] S1024x1024.size (by rfl) y

set_option maxHeartbeats 1000000 in
theorem sound_qkv (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x : Vec F S1024x1024 .f32) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (outQ x w b) ∗ owns (c : Thread nD τ) arg5 fullShare (outK x w b)
            ∗ owns (c : Thread nD τ) arg6 fullShare (outV x w b)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX _)
  isplitl [H5]
  · iexists _; isplitr
    swap; · iexact H5
    ipureintro
    exact View.read_writes_eq_canon _ _ _ (coverX _)
  iexists _; isplitr
  swap; · iexact H6
  ipureintro
  exact View.read_writes_eq_canon _ _ _ (coverX _)

section Region0
variable (V : (c : Dev nD) → (b : Ref sig .tc) → Buf (Elt F) ((c : Thread nD τ).loc b))

/-- Window `w`'s block at point `t` of the projection's grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The projection's proof data: the arrays as the region finds them; after the body each input's buffer at its block,
    the q, k, v buffers at the three thirds of x·W + b of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outQ (iblk0 V c 0 t) (iblk0 V c 1 t) (iblk0 V c 2 t)
    | ⟨4, _⟩ => outK (iblk0 V c 0 t) (iblk0 V c 1 t) (iblk0 V c 2 t)
    | ⟨5, _⟩ => outV (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outQ (iblk0 V c 0 t) (iblk0 V c 1 t) (iblk0 V c 2 t) := by dsimp only [dat0]
theorem after0_4 (c : Dev nD) (t : Fin cfg0.N) : (dat0 V c).after 4 t = outK (iblk0 V c 0 t) (iblk0 V c 1 t) (iblk0 V c 2 t) := by dsimp only [dat0]
theorem after0_5 (c : Dev nD) (t : Fin cfg0.N) : (dat0 V c).after 5 t = outV (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_qkv c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.Kernel.Proj

end
-- ==== Proof.KAttnRunA.lean ====
/-
  The attention region's body at the first key tile of a (batch, query tile) pair, and what every run of the body
  shares: its two conditionals over the grid, where its output window is idle, its staging and scratch buffers.
  The body's triple is run on whole buffers; what each store leaves is recorded as the pieces written.
-/
import proofs.«117829_j39676907888059_2_alg».proof.Proof.Gen.Kernel.Launch
import proofs.«117829_j39676907888059_2_alg».proof.Proof.Gen.Kernel.Skeleton
import proofs.«117829_j39676907888059_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The attention kernel's two conditionals over the grid (batch, query tile, key tile) -/

/-- The first key tile: the running maximum, the normaliser and the accumulator are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last key tile: the accumulator over the normaliser is stored into the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile nothing is stored into the output block: the window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging and scratch buffers -/

/-- One staging buffer of the output window, through which its contents are stated. -/
abbrev VO4 : View sig .tc .vmem S1x1024x1024 .f32 := (Memref.whole cc1_stg4_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The running maximum, the normaliser and the accumulator: whole scoped buffers carried between key tiles. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
abbrev VSM : View sig .tc .vmem S1024x1 .f32 := scM.view
abbrev VSL : View sig .tc .vmem S1024x1 .f32 := scL.view
abbrev VSA : View sig .tc .vmem S1024x1024 .f32 := scA.view

set_option maxHeartbeats 2000000 in
/-- The first key tile: the three scratch buffers are reset (whatever they held), then updated; the output block is untouched. -/
noncomputable def flashRun_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Attn

end
-- ==== Proof.KAttnRunB.lean ====
/-
  The attention region's body at a middle key tile: the running maximum, the normaliser and the accumulator are read
  at what the tile before left and stored whole.
-/
import proofs.«117829_j39676907888059_2_alg».proof.Proof.KAttnRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A middle key tile: the three scratch buffers are read at what the tile before left and stored whole; the output block is untouched. -/
noncomputable def flashRun_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Attn

end
-- ==== Proof.KAttnRunC.lean ====
/-
  The attention region's body at the last key tile: after the update of the three carried buffers the quotient of the
  accumulator by the normaliser is stored into the output block.
-/
import proofs.«117829_j39676907888059_2_alg».proof.Proof.KAttnRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last key tile: the scratch buffers are updated as at a middle tile, then the accumulator over the normaliser is stored into the output block. -/
noncomputable def flashRun_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Attn

end
-- ==== Proof.KAttnFrame.lean ====
/-
  The attention region as a whole: what its output block's buffer and its three carried scratch buffers (running
  maximum, normaliser, accumulator) hold after each of the 128 grid points, by recursion along the grid — a first key
  tile resets and updates, a middle tile updates, a last tile updates and stores the quotient —; the invariant that
  carries the three buffers from point to point; the pipeline's proof data; and the body obligation at every point.
-/
import proofs.«117829_j39676907888059_2_alg».proof.Proof.KAttnRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

def out4_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1x1024x1024 .f32 :=
  VO4.read (Elt F) (VO4.writes (Elt F) VO4.junk (flashRun_A c i arg3 harg3 arg4 harg4 arg5 harg5 arg6 harg6 arg7 harg7 arg8 harg8 arg9 harg9 arg10 harg10 hc0 hc1 x0 x1 x2 x3).1)

theorem scoverM_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (y : S1024x1.Idx) :
    ∃ pc ∈ (flashRun_A c i arg3 harg3 arg4 harg4 arg5 harg5 arg6 harg6 arg7 harg7 arg8 harg8 arg9 harg9 arg10 harg10 hc0 hc1 x0 x1 x2 x3).2.1, y ∈ pc.1.set :=
  View.cover_of_tiledL (flashRun_A c i arg3 harg3 arg4 harg4 arg5 harg5 arg6 harg6 arg7 harg7 arg8 harg8 arg9 harg9 arg10 harg10 hc0 hc1 x0 x1 x2 x3).2.1 S1024x1.size (by sl_kernel_rfl) y
def soutM_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1024x1 .f32 :=
  VSM.read (Elt F) (VSM.writes (Elt F) VSM.junk (flashRun_A c i arg3 harg3 arg4 harg4 arg5 harg5 arg6 harg6 arg7 harg7 arg8 harg8 arg9 harg9 arg10 harg10 hc0 hc1 x0 x1 x2 x3).2.1)

theorem scoverL_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (y : S1024x1.Idx) :
    ∃ pc ∈ (flashRun_A c i arg3 harg3 arg4 harg4 arg5 harg5 arg6 harg6 arg7 harg7 arg8 harg8 arg9 harg9 arg10 harg10 hc0 hc1 x0 x1 x2 x3).2.2.1, y ∈ pc.1.set :=
  View.cover_of_tiledL (flashRun_A c i arg3 harg3 arg4 harg4 arg5 harg5 arg6 harg6 arg7 harg7 arg8 harg8 arg9 harg9 arg10 harg10 hc0 hc1 x0 x1 x2 x3).2.2.1 S1024x1.size (by sl_kernel_rfl) y
def soutL_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1024x1 .f32 :=
  VSL.read (Elt F) (VSL.writes (Elt F) VSL.junk (flashRun_A c i arg3 harg3 arg4 harg4 arg5 harg5 arg6 harg6 arg7 harg7 arg8 harg8 arg9 harg9 arg10 harg10 hc0 hc1 x0 x1 x2 x3).2.2.1)

theorem scoverA_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (y : S1024x1024.Idx) :
    ∃ pc ∈ (flashRun_A c i arg3 harg3 arg4 harg4 arg5 harg5 arg6 harg6 arg7 harg7 arg8 harg8 arg9 harg9 arg10 harg10 hc0 hc1 x0 x1 x2 x3).2.2.2.1, y ∈ pc.1.set :=
  View.cover_of_tiledL (flashRun_A c i arg3 harg3 arg4 harg4 arg5 harg5 arg6 harg6 arg7 harg7 arg8 harg8 arg9 harg9 arg10 harg10 hc0 hc1 x0 x1 x2 x3).2.2.2.1 S1024x1024.size (by sl_kernel_rfl) y
def soutA_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1024x1024 .f32 :=
  VSA.read (Elt F) (VSA.writes (Elt F) VSA.junk (flashRun_A c i arg3 harg3 arg4 harg4 arg5 harg5 arg6 harg6 arg7 harg7 arg8 harg8 arg9 harg9 arg10 harg10 hc0 hc1 x0 x1 x2 x3).2.2.2.1)

def out4_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1x1024x1024 .f32 :=
  VO4.read (Elt F) (VO4.writes (Elt F) VO4.junk (flashRun_B c i arg3 harg3 arg4 harg4 arg5 harg5 arg6 harg6 arg7 harg7 arg8 harg8 arg9 harg9 arg10 harg10 hc0 hc1 x0 x1 x2 x3 xs0 xs1 xs2).1)

theorem scoverM_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRun_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y
def soutM_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSM.read (Elt F) (VSM.writes (Elt F) VSM.junk (flashRun_B c i arg3 harg3 arg4 harg4 arg5 harg5 arg6 harg6 arg7 harg7 arg8 harg8 arg9 harg9 arg10 harg10 hc0 hc1 x0 x1 x2 x3 xs0 xs1 xs2).2.1)

theorem scoverL_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRun_B c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y
def soutL_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSL.read (Elt F) (VSL.writes (Elt F) VSL.junk (flashRun_B c i arg3 harg3 arg4 harg4 arg5 harg5 arg6 harg6 arg7 harg7 arg8 harg8 arg9 harg9 arg10 harg10 hc0 hc1 x0 x1 x2 x3 xs0 xs1 xs2).2.2.1)

theorem scoverA_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1024.Idx) :
    ∃ pc ∈ (flashRun_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (flashRun_B c i arg3 harg3 arg4 harg4 arg5 harg5 arg6 harg6 arg7 harg7 arg8 harg8 arg9 harg9 arg10 harg10 hc0 hc1 x0 x1 x2 x3 xs0 xs1 xs2).2.2.2.1 S1024x1024.size (by sl_kernel_rfl) y
def soutA_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1024 .f32 :=
  VSA.read (Elt F) (VSA.writes (Elt F) VSA.junk (flashRun_B c i arg3 harg3 arg4 harg4 arg5 harg5 arg6 harg6 arg7 harg7 arg8 harg8 arg9 harg9 arg10 harg10 hc0 hc1 x0 x1 x2 x3 xs0 xs1 xs2).2.2.2.1)

theorem cover4_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1x1024x1024.Idx) :
    ∃ pc ∈ (flashRun_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).1 S1x1024x1024.size (by sl_kernel_rfl) y
def out4_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1x1024x1024 .f32 :=
  VO4.read (Elt F) (VO4.writes (Elt F) VO4.junk (flashRun_C c i arg3 harg3 arg4 harg4 arg5 harg5 arg6 harg6 arg7 harg7 arg8 harg8 arg9 harg9 arg10 harg10 hc0 hc1 x0 x1 x2 x3 xs0 xs1 xs2).1)

theorem scoverM_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).2.1 S1024x1.size (by sl_kernel_rfl) y
def soutM_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSM.read (Elt F) (VSM.writes (Elt F) VSM.junk (flashRun_C c i arg3 harg3 arg4 harg4 arg5 harg5 arg6 harg6 arg7 harg7 arg8 harg8 arg9 harg9 arg10 harg10 hc0 hc1 x0 x1 x2 x3 xs0 xs1 xs2).2.1)

theorem scoverL_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y
def soutL_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSL.read (Elt F) (VSL.writes (Elt F) VSL.junk (flashRun_C c i arg3 harg3 arg4 harg4 arg5 harg5 arg6 harg6 arg7 harg7 arg8 harg8 arg9 harg9 arg10 harg10 hc0 hc1 x0 x1 x2 x3 xs0 xs1 xs2).2.2.1)

theorem scoverA_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1024.Idx) :
    ∃ pc ∈ (flashRun_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).2.2.2.1 S1024x1024.size (by sl_kernel_rfl) y
def soutA_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1024 .f32 :=
  VSA.read (Elt F) (VSA.writes (Elt F) VSA.junk (flashRun_C c i arg3 harg3 arg4 harg4 arg5 harg5 arg6 harg6 arg7 harg7 arg8 harg8 arg9 harg9 arg10 harg10 hc0 hc1 x0 x1 x2 x3 xs0 xs1 xs2).2.2.2.1)

section Region1
variable (V : (c : Dev nD) → (b : Ref sig .tc) → Buf (Elt F) ((c : Thread nD τ).loc b))

/-- Window `w`'s block at point `t` of the attention grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the output block's buffer, the running maximum, the normaliser and the accumulator hold after the body at
    position `n` of the grid: the case the position selects (first, middle or last key tile), run at the point's buffers
    and input blocks, the three carried buffers read at what position `n - 1` left. -/
def outsAt1 (c : Dev nD) : (n : ℕ) → n < cfg1.N → Vec F S1x1024x1024 .f32 × Vec F S1024x1 .f32 × Vec F S1024x1 .f32 × Vec F S1024x1024 .f32
  | 0, hn => (out4_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutM_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutL_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutA_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out4_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutM_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutL_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutA_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out4_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutM_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutL_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutA_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out4_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutM_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutL_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutA_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out4_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t), soutM_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t), soutL_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t), soutA_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out4_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutM_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutL_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutA_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out4_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutM_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutL_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutA_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the three carried buffers named, the rest of the scoped buffers at anything -/

/-- The scoped buffers the attention region never touches (the projection region's staging buffers), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem PhiA1_open (c : Dev nD) :
    (Pipeline.ΦA spec1 c : sProp 𝕄) ⊢ iprop((∃ d, owns (c : Thread nD τ) scM fullShare d) ∗ (∃ d, owns (c : Thread nD τ) scL fullShare d) ∗ (∃ d, owns (c : Thread nD τ) scA fullShare d) ∗ others c ∗ (∃ r, prngReg c r)) := by
  unfold Pipeline.ΦA; rw [scopedRest1_eq]; unfold others
  simp only [scM, scL, scA, owns_whole]
  iintro ⟨⟨Hr0, Hr1, Hr2, Hr3, Hr4, Hr5, Hr6, Hr7, Hr8, Hr9, HS0, HS1, HS2⟩, Hg⟩
  isplitl [HS0]; · iexact HS0
  isplitl [HS1]; · iexact HS1
  isplitl [HS2]; · iexact HS2
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexact Hr9
  iexact Hg

theorem PhiA1_close (c : Dev nD) :
    iprop((∃ d, owns (c : Thread nD τ) scM fullShare d) ∗ (∃ d, owns (c : Thread nD τ) scL fullShare d) ∗ (∃ d, owns (c : Thread nD τ) scA fullShare d) ∗ others c ∗ (∃ r, prngReg c r)) ⊢ (Pipeline.ΦA spec1 c : sProp 𝕄) := by
  unfold Pipeline.ΦA; rw [scopedRest1_eq]; unfold others
  simp only [scM, scL, scA, owns_whole]
  iintro ⟨HS0, HS1, HS2, ⟨Hr0, Hr1, Hr2, Hr3, Hr4, Hr5, Hr6, Hr7, Hr8, Hr9⟩, Hg⟩
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [HS0]; · iexact HS0
    isplitl [HS1]; · iexact HS1
    iexact HS2
  iexact Hg

/-- The invariant before position `n`: before the first point every scoped buffer at anything; afterwards the running
    maximum, the normaliser and the accumulator at what the point before left, the rest at anything. -/
def PhiS (c : Dev nD) : (n : ℕ) → n ≤ cfg1.N → sProp 𝕄
  | 0, _ => Pipeline.ΦA spec1 c
  | n + 1, hn => iprop(owns (c : Thread nD τ) scM fullShare ((outsAt1 V c n hn).2.1) ∗ owns (c : Thread nD τ) scL fullShare ((outsAt1 V c n hn).2.2.1)
      ∗ owns (c : Thread nD τ) scA fullShare ((outsAt1 V c n hn).2.2.2) ∗ others c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((outsAt1 V c n hn).2.1) ∗ owns (c : Thread nD τ) scL fullShare ((outsAt1 V c n hn).2.2.1)
      ∗ owns (c : Thread nD τ) scA fullShare ((outsAt1 V c n hn).2.2.2) ∗ others c ∗ (∃ r, prngReg c r)) := rfl
theorem PhiS_pos (c : Dev nD) (n : ℕ) (h : n ≤ cfg1.N) (hz : n ≠ 0) :
    PhiS V c n h = iprop(owns (c : Thread nD τ) scM fullShare ((outsAt1 V c (n - 1) (by omega)).2.1) ∗ owns (c : Thread nD τ) scL fullShare ((outsAt1 V c (n - 1) (by omega)).2.2.1)
      ∗ owns (c : Thread nD τ) scA fullShare ((outsAt1 V c (n - 1) (by omega)).2.2.2) ∗ others c ∗ (∃ r, prngReg c r)) := by
  cases n with
  | zero => exact absurd rfl hz
  | succ n => rfl

/-- The attention region's proof data: the arrays as the region finds them; after the body each input's buffer at its
    block and the output block's at the recursion's first component; the invariant carries the three scratch buffers. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the position says which case the point is in; the
    invariant hands the body the three carried buffers at what the point before left (at anything at the first
    point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold soutM_A soutL_A soutA_A; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨HS0, HS1, HS2, Hoth, Hg⟩
        iapply ((flashRun_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hoth Hg]
        · isplitl [HS0]
          · unfold owns; iexists _; isplitr
            swap; · iexact HS0
            ipureintro; exact View.read_writes_of_cover _ _ _ _ _ (scoverM_A c _ _ _ _ _ _ _ _ _ _ _ _ _ _ _ _ _ _ _ _ _ _ _ )
          isplitl [HS1]
          · unfold owns; iexists _; isplitr
            swap; · iexact HS1
            ipureintro; exact View.read_writes_of_cover _ _ _ _ _ (scoverL_A c _ _ _ _ _ _ _ _ _ _ _ _ _ _ _ _ _ _ _ _ _ _ _ )
          isplitl [HS2]
          · unfold owns; iexists _; isplitr
            swap; · iexact HS2
            ipureintro; exact View.read_writes_of_cover _ _ _ _ _ (scoverA_A c _ _ _ _ _ _ _ _ _ _ _ _ _ _ _ _ _ _ _ _ _ _ _ )
          isplitl [Hoth]; · iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨HS0, HS1, HS2, Hoth, Hg⟩, Ho, ⟨%d0, H0⟩, ⟨%d1, H1⟩, ⟨%d2, H2⟩, ⟨%d3, H3⟩, ⟨%d4, H4⟩⟩
        iapply ((flashRun_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hoth Hg]
        · isplitl [HS0]
          · unfold owns; iexists _; isplitr
            swap; · iexact HS0
            ipureintro; exact View.read_writes_of_cover _ _ _ _ _ (scoverM_A c _ _ _ _ _ _ _ _ _ _ _ _ _ _ _ _ _ _ _ _ _ _ _ )
          isplitl [HS1]
          · unfold owns; iexists _; isplitr
            swap; · iexact HS1
            ipureintro; exact View.read_writes_of_cover _ _ _ _ _ (scoverL_A c _ _ _ _ _ _ _ _ _ _ _ _ _ _ _ _ _ _ _ _ _ _ _ )
          isplitl [HS2]
          · unfold owns; iexists _; isplitr
            swap; · iexact HS2
            ipureintro; exact View.read_writes_of_cover _ _ _ _ _ (scoverA_A c _ _ _ _ _ _ _ _ _ _ _ _ _ _ _ _ _ _ _ _ _ _ _ )
          isplitl [Hoth]; · iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out4_C soutM_C soutL_C soutA_C; (try dsimp only)
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, ⟨%d4, H4⟩⟩
      iapply ((flashRun_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverM_C c _ _ _ _ _ _ _ _ _ _ _ _ _ _ _ _ _ _ _ _ _ _ _ _ _ _ )
        isplitl [HS1]
        · unfold owns; iexists _; isplitr
          swap; · iexact HS1
          ipureintro; exact View.read_writes_of_cover _ _ _ _ _ (scoverL_C c _ _ _ _ _ _ _ _ _ _ _ _ _ _ _ _ _ _ _ _ _ _ _ _ _ _ )
        isplitl [HS2]
        · unfold owns; iexists _; isplitr
          swap; · iexact HS2
          ipureintro; exact View.read_writes_of_cover _ _ _ _ _ (scoverA_C c _ _ _ _ _ _ _ _ _ _ _ _ _ _ _ _ _ _ _ _ _ _ _ _ _ _ )
        isplitl [Hoth]; · iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4_C c _ _ _ _ _ _ _ _ _ _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold soutM_B soutL_B soutA_B; (try dsimp only)
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, ⟨%d4, H4⟩⟩
      iapply ((flashRun_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverM_B c _ _ _ _ _ _ _ _ _ _ _ _ _ _ _ _ _ _ _ _ _ _ _ _ _ _ )
        isplitl [HS1]
        · unfold owns; iexists _; isplitr
          swap; · iexact HS1
          ipureintro; exact View.read_writes_of_cover _ _ _ _ _ (scoverL_B c _ _ _ _ _ _ _ _ _ _ _ _ _ _ _ _ _ _ _ _ _ _ _ _ _ _ )
        isplitl [HS2]
        · unfold owns; iexists _; isplitr
          swap; · iexact HS2
          ipureintro; exact View.read_writes_of_cover _ _ _ _ _ (scoverA_B c _ _ _ _ _ _ _ _ _ _ _ _ _ _ _ _ _ _ _ _ _ _ _ _ _ _ )
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped buffers back at anything: the carried contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HS0, HS1, HS2, Hoth, Hg⟩
  iapply (PhiA1_close (F := F) c)
  isplitl [HS0]; · iexists _; iexact HS0
  isplitl [HS1]; · iexists _; iexact HS1
  isplitl [HS2]; · iexists _; iexact HS2
  isplitl [Hoth]; · iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

/-- The same two entailments with the class invariant spelt out: the scoped rest beside the generator register. -/
theorem hin1' (c : Dev nD) : (iprop(Pipeline.scopedRest spec1 c ∗ ∃ r, prngReg c r) : sProp 𝕄) ⊢ (dat1 V c).Φ 0 := by
  have h := hin1 V c
  unfold Pipeline.ΦA at h
  exact h
theorem hout1' (c : Dev nD) : (dat1 V c).Φ (Fin.last cfg1.N) ⊢ (iprop(Pipeline.scopedRest spec1 c ∗ ∃ r, prngReg c r) : sProp 𝕄) := by
  have h := hout1 V c
  unfold Pipeline.ΦA at h
  exact h

end Region1

end Cert.Kernel.Attn

end
-- ==== Proof.KWhole.lean ====
/-
  The whole program: two reshapes and a change of format, the projection region, three reshapes, the attention
  region. The contents of every unscoped buffer at each boundary between the four items, the two regions as
  segments over those contents, and the run: every weakly fair execution terminates without a fault, the result
  buffer ends at what the attention region's write-backs leave, and every argument array ends as launched.
-/
import proofs.«117829_j39676907888059_2_alg».proof.Proof.KProjFrame
import proofs.«117829_j39676907888059_2_alg».proof.Proof.KAttnFrame
import proofs.«117829_j39676907888059_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen Cert.Kernel.Proj Cert.Kernel.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between the four items of the program -/

/-- At launch. -/
abbrev W0 : Dev nD → Valuation τ sig (Elt F) := fun c b => (s₀ m ρ).mem ((c : Dev nD), b)
/-- After the reshapes and the weight's change of format: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: the q, k, v arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes to [4, 4096, 1024]: the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The mask is an input window of the attention region: its array is handed back as entered. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (V3 m ρ) c).arrAt_in 3 rfl _).trans (A_eq1 (V3 m ρ) c 3))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- The result buffer ends at what the attention region's write-backs leave. -/
theorem W4_main_v7 (c : Dev nD) : W4 m ρ c (Proc.devRef .tc main_v7) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

/-- Entering the attention region: the generator register and the scoped rest make its invariant before the first point. -/
theorem attn_in (c : Dev nD) (P : sProp 𝕄) :
    (iprop((∃ r, prngReg c r) ∗ P ∗ Pipeline.scopedRest spec1 c) : sProp 𝕄) ⊢ (dat1 (V3 m ρ) c).Φ 0 := by
  iintro ⟨Hp, -, Hr⟩
  iapply (hin1' (V3 m ρ) c)
  isplitl [Hr]; · iexact Hr
  iexact Hp
/-- Leaving it: the invariant after the last point gives them back. -/
theorem attn_out (c : Dev nD) :
    (dat1 (V3 m ρ) c).Φ (Fin.last cfg1.N) ⊢ (iprop((∃ r, prngReg c r) ∗ BI.emp ∗ Pipeline.scopedRest spec1 c) : sProp 𝕄) := by
  have h := hout1' (V3 m ρ) c
  refine h.trans ?_
  iintro ⟨Hr, Hp⟩
  isplitl [Hp]; · iexact Hp
  isplitr; · iempintro
  iexact Hr

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`; its invariant carries the three
    scratch buffers between points and forgets them at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := attn_in m ρ c _
  hout c := by
    rw [Pipeline.ownSems0_none]
    exact attn_out m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as four segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, and every final state has every unscoped
    buffer at the last boundary's contents: the result at what the attention region's write-backs leave, each argument
    as launched. -/
theorem run : θ_run defs (onTc (τ := τ) (main (F := F))) ⟨m, fun _ => 0, ρ⟩ (fun r => ∀ c : Dev nD,
      r.2.mem ((c.tc : Thread nD τ).loc main_v7) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.Kernel.Whole

end
-- ==== Proof.ProjFrame.lean ====
/-
  The projection region (the first of the two kernel regions): on a grid of 16 row tiles each point loads a 1024×1024 block of x,
  the whole bf16 weight and the bias row, and stores the three thirds of x·W + b — the first third scaled by 1/32 —
  into the q, k and v blocks. Here: the body's triple on whole staging buffers, the pipeline's proof data at the
  contents the region is entered with, and the body obligation at every point. Stated at any float instance.
-/
import proofs.«117829_j39676907888059_2_alg».proof.Proof.Gen.KernelIdeal.Launch
import proofs.«117829_j39676907888059_2_alg».proof.Proof.Gen.KernelIdeal.Skeleton
import proofs.«117829_j39676907888059_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The projection kernel's accesses: each of its six buffers is read or written whole. -/

abbrev rX : Rect S1024x1024 := Rect.unit (s := S1024x1024) ![0, 0] S1024x1024.size inb_S1024x1024_S1024x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- The q block a point leaves: the first third of x·W + b, scaled by 1/32. -/
def outQ (x : Vec F S1024x1024 .f32) (w : Vec F S1024x3072 .bf16) (b : Vec F S1x3072 .f32) : Vec F S1024x1024 .bf16 :=
  View.canon [⟨rX, k0_pay2 (View.ld x rX) (View.ld w rW) (View.ld b rB)⟩]
/-- The k block: the middle third of x·W + b. -/
def outK (x : Vec F S1024x1024 .f32) (w : Vec F S1024x3072 .bf16) (b : Vec F S1x3072 .f32) : Vec F S1024x1024 .bf16 :=
  View.canon [⟨rX, k0_pay3 (View.ld x rX) (View.ld w rW) (View.ld b rB)⟩]
/-- The v block: the last third of x·W + b. -/
def outV (x : Vec F S1024x1024 .f32) (w : Vec F S1024x3072 .bf16) (b : Vec F S1x3072 .f32) : Vec F S1024x1024 .bf16 :=
  View.canon [⟨rX, k0_pay4 (View.ld x rX) (View.ld w rW) (View.ld b rB)⟩]

theorem coverX (p : Vec F S1024x1024 .bf16) (y : S1024x1024.Idx) :
    ∃ pc ∈ ([⟨rX, p⟩] : List (View.Piece (Elt F) S1024x1024 .bf16)), y ∈ pc.1.set :=
  View.cover_of_tiled [⟨rX, p⟩] S1024x1024.size (by rfl) y

set_option maxHeartbeats 1000000 in
theorem sound_qkv (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x : Vec F S1024x1024 .f32) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (outQ x w b) ∗ owns (c : Thread nD τ) arg5 fullShare (outK x w b)
            ∗ owns (c : Thread nD τ) arg6 fullShare (outV x w b)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX _)
  isplitl [H5]
  · iexists _; isplitr
    swap; · iexact H5
    ipureintro
    exact View.read_writes_eq_canon _ _ _ (coverX _)
  iexists _; isplitr
  swap; · iexact H6
  ipureintro
  exact View.read_writes_eq_canon _ _ _ (coverX _)

section Region0
variable (V : (c : Dev nD) → (b : Ref sig .tc) → Buf (Elt F) ((c : Thread nD τ).loc b))

/-- Window `w`'s block at point `t` of the projection's grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The projection's proof data: the arrays as the region finds them; after the body each input's buffer at its block,
    the q, k, v buffers at the three thirds of x·W + b of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outQ (iblk0 V c 0 t) (iblk0 V c 1 t) (iblk0 V c 2 t)
    | ⟨4, _⟩ => outK (iblk0 V c 0 t) (iblk0 V c 1 t) (iblk0 V c 2 t)
    | ⟨5, _⟩ => outV (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outQ (iblk0 V c 0 t) (iblk0 V c 1 t) (iblk0 V c 2 t) := by dsimp only [dat0]
theorem after0_4 (c : Dev nD) (t : Fin cfg0.N) : (dat0 V c).after 4 t = outK (iblk0 V c 0 t) (iblk0 V c 1 t) (iblk0 V c 2 t) := by dsimp only [dat0]
theorem after0_5 (c : Dev nD) (t : Fin cfg0.N) : (dat0 V c).after 5 t = outV (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_qkv c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.KernelIdeal.Proj

end
-- ==== Proof.AttnRunA.lean ====
/-
  The attention region's body at the first key tile of a (batch, query tile) pair, and what every run of the body
  shares: its two conditionals over the grid, where its output window is idle, its staging and scratch buffers.
  The body's triple is run on whole buffers; what each store leaves is recorded as the pieces written.
-/
import proofs.«117829_j39676907888059_2_alg».proof.Proof.Gen.KernelIdeal.Launch
import proofs.«117829_j39676907888059_2_alg».proof.Proof.Gen.KernelIdeal.Skeleton
import proofs.«117829_j39676907888059_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The attention kernel's two conditionals over the grid (batch, query tile, key tile) -/

/-- The first key tile: the running maximum, the normaliser and the accumulator are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last key tile: the accumulator over the normaliser is stored into the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile nothing is stored into the output block: the window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging and scratch buffers -/

/-- One staging buffer of the output window, through which its contents are stated. -/
abbrev VO4 : View sig .tc .vmem S1x1024x1024 .f32 := (Memref.whole cc1_stg4_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The running maximum, the normaliser and the accumulator: whole scoped buffers carried between key tiles. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
abbrev VSM : View sig .tc .vmem S1024x1 .f32 := scM.view
abbrev VSL : View sig .tc .vmem S1024x1 .f32 := scL.view
abbrev VSA : View sig .tc .vmem S1024x1024 .f32 := scA.view

set_option maxHeartbeats 2000000 in
/-- The first key tile: the three scratch buffers are reset (whatever they held), then updated; the output block is untouched. -/
noncomputable def flashRun_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Attn

end
-- ==== Proof.AttnRunB.lean ====
/-
  The attention region's body at a middle key tile: the running maximum, the normaliser and the accumulator are read
  at what the tile before left and stored whole.
-/
import proofs.«117829_j39676907888059_2_alg».proof.Proof.AttnRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A middle key tile: the three scratch buffers are read at what the tile before left and stored whole; the output block is untouched. -/
noncomputable def flashRun_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Attn

end
-- ==== Proof.AttnRunC.lean ====
/-
  The attention region's body at the last key tile: after the update of the three carried buffers the quotient of the
  accumulator by the normaliser is stored into the output block.
-/
import proofs.«117829_j39676907888059_2_alg».proof.Proof.AttnRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last key tile: the scratch buffers are updated as at a middle tile, then the accumulator over the normaliser is stored into the output block. -/
noncomputable def flashRun_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Attn

end
-- ==== Proof.AttnFrame.lean ====
/-
  The attention region as a whole: what its output block's buffer and its three carried scratch buffers (running
  maximum, normaliser, accumulator) hold after each of the 128 grid points, by recursion along the grid — a first key
  tile resets and updates, a middle tile updates, a last tile updates and stores the quotient —; the invariant that
  carries the three buffers from point to point; the pipeline's proof data; and the body obligation at every point.
-/
import proofs.«117829_j39676907888059_2_alg».proof.Proof.AttnRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

def out4_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1x1024x1024 .f32 :=
  VO4.read (Elt F) (VO4.writes (Elt F) VO4.junk (flashRun_A c i arg3 harg3 arg4 harg4 arg5 harg5 arg6 harg6 arg7 harg7 arg8 harg8 arg9 harg9 arg10 harg10 hc0 hc1 x0 x1 x2 x3).1)

theorem scoverM_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (y : S1024x1.Idx) :
    ∃ pc ∈ (flashRun_A c i arg3 harg3 arg4 harg4 arg5 harg5 arg6 harg6 arg7 harg7 arg8 harg8 arg9 harg9 arg10 harg10 hc0 hc1 x0 x1 x2 x3).2.1, y ∈ pc.1.set :=
  View.cover_of_tiledL (flashRun_A c i arg3 harg3 arg4 harg4 arg5 harg5 arg6 harg6 arg7 harg7 arg8 harg8 arg9 harg9 arg10 harg10 hc0 hc1 x0 x1 x2 x3).2.1 S1024x1.size (by sl_kernel_rfl) y
def soutM_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1024x1 .f32 :=
  VSM.read (Elt F) (VSM.writes (Elt F) VSM.junk (flashRun_A c i arg3 harg3 arg4 harg4 arg5 harg5 arg6 harg6 arg7 harg7 arg8 harg8 arg9 harg9 arg10 harg10 hc0 hc1 x0 x1 x2 x3).2.1)

theorem scoverL_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (y : S1024x1.Idx) :
    ∃ pc ∈ (flashRun_A c i arg3 harg3 arg4 harg4 arg5 harg5 arg6 harg6 arg7 harg7 arg8 harg8 arg9 harg9 arg10 harg10 hc0 hc1 x0 x1 x2 x3).2.2.1, y ∈ pc.1.set :=
  View.cover_of_tiledL (flashRun_A c i arg3 harg3 arg4 harg4 arg5 harg5 arg6 harg6 arg7 harg7 arg8 harg8 arg9 harg9 arg10 harg10 hc0 hc1 x0 x1 x2 x3).2.2.1 S1024x1.size (by sl_kernel_rfl) y
def soutL_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1024x1 .f32 :=
  VSL.read (Elt F) (VSL.writes (Elt F) VSL.junk (flashRun_A c i arg3 harg3 arg4 harg4 arg5 harg5 arg6 harg6 arg7 harg7 arg8 harg8 arg9 harg9 arg10 harg10 hc0 hc1 x0 x1 x2 x3).2.2.1)

theorem scoverA_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (y : S1024x1024.Idx) :
    ∃ pc ∈ (flashRun_A c i arg3 harg3 arg4 harg4 arg5 harg5 arg6 harg6 arg7 harg7 arg8 harg8 arg9 harg9 arg10 harg10 hc0 hc1 x0 x1 x2 x3).2.2.2.1, y ∈ pc.1.set :=
  View.cover_of_tiledL (flashRun_A c i arg3 harg3 arg4 harg4 arg5 harg5 arg6 harg6 arg7 harg7 arg8 harg8 arg9 harg9 arg10 harg10 hc0 hc1 x0 x1 x2 x3).2.2.2.1 S1024x1024.size (by sl_kernel_rfl) y
def soutA_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) : Vec F S1024x1024 .f32 :=
  VSA.read (Elt F) (VSA.writes (Elt F) VSA.junk (flashRun_A c i arg3 harg3 arg4 harg4 arg5 harg5 arg6 harg6 arg7 harg7 arg8 harg8 arg9 harg9 arg10 harg10 hc0 hc1 x0 x1 x2 x3).2.2.2.1)

def out4_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1x1024x1024 .f32 :=
  VO4.read (Elt F) (VO4.writes (Elt F) VO4.junk (flashRun_B c i arg3 harg3 arg4 harg4 arg5 harg5 arg6 harg6 arg7 harg7 arg8 harg8 arg9 harg9 arg10 harg10 hc0 hc1 x0 x1 x2 x3 xs0 xs1 xs2).1)

theorem scoverM_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRun_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y
def soutM_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSM.read (Elt F) (VSM.writes (Elt F) VSM.junk (flashRun_B c i arg3 harg3 arg4 harg4 arg5 harg5 arg6 harg6 arg7 harg7 arg8 harg8 arg9 harg9 arg10 harg10 hc0 hc1 x0 x1 x2 x3 xs0 xs1 xs2).2.1)

theorem scoverL_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRun_B c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y
def soutL_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSL.read (Elt F) (VSL.writes (Elt F) VSL.junk (flashRun_B c i arg3 harg3 arg4 harg4 arg5 harg5 arg6 harg6 arg7 harg7 arg8 harg8 arg9 harg9 arg10 harg10 hc0 hc1 x0 x1 x2 x3 xs0 xs1 xs2).2.2.1)

theorem scoverA_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1024.Idx) :
    ∃ pc ∈ (flashRun_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (flashRun_B c i arg3 harg3 arg4 harg4 arg5 harg5 arg6 harg6 arg7 harg7 arg8 harg8 arg9 harg9 arg10 harg10 hc0 hc1 x0 x1 x2 x3 xs0 xs1 xs2).2.2.2.1 S1024x1024.size (by sl_kernel_rfl) y
def soutA_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1024 .f32 :=
  VSA.read (Elt F) (VSA.writes (Elt F) VSA.junk (flashRun_B c i arg3 harg3 arg4 harg4 arg5 harg5 arg6 harg6 arg7 harg7 arg8 harg8 arg9 harg9 arg10 harg10 hc0 hc1 x0 x1 x2 x3 xs0 xs1 xs2).2.2.2.1)

theorem cover4_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1x1024x1024.Idx) :
    ∃ pc ∈ (flashRun_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).1 S1x1024x1024.size (by sl_kernel_rfl) y
def out4_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1x1024x1024 .f32 :=
  VO4.read (Elt F) (VO4.writes (Elt F) VO4.junk (flashRun_C c i arg3 harg3 arg4 harg4 arg5 harg5 arg6 harg6 arg7 harg7 arg8 harg8 arg9 harg9 arg10 harg10 hc0 hc1 x0 x1 x2 x3 xs0 xs1 xs2).1)

theorem scoverM_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).2.1 S1024x1.size (by sl_kernel_rfl) y
def soutM_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSM.read (Elt F) (VSM.writes (Elt F) VSM.junk (flashRun_C c i arg3 harg3 arg4 harg4 arg5 harg5 arg6 harg6 arg7 harg7 arg8 harg8 arg9 harg9 arg10 harg10 hc0 hc1 x0 x1 x2 x3 xs0 xs1 xs2).2.1)

theorem scoverL_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1.Idx) :
    ∃ pc ∈ (flashRun_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y
def soutL_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1 .f32 :=
  VSL.read (Elt F) (VSL.writes (Elt F) VSL.junk (flashRun_C c i arg3 harg3 arg4 harg4 arg5 harg5 arg6 harg6 arg7 harg7 arg8 harg8 arg9 harg9 arg10 harg10 hc0 hc1 x0 x1 x2 x3 xs0 xs1 xs2).2.2.1)

theorem scoverA_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) (y : S1024x1024.Idx) :
    ∃ pc ∈ (flashRun_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (flashRun_C c i arg3 harg3 arg4 harg4 arg5 harg5 arg6 harg6 arg7 harg7 arg8 harg8 arg9 harg9 arg10 harg10 hc0 hc1 x0 x1 x2 x3 xs0 xs1 xs2).2.2.2.1 S1024x1024.size (by sl_kernel_rfl) y
def soutA_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) : Vec F S1024x1024 .f32 :=
  VSA.read (Elt F) (VSA.writes (Elt F) VSA.junk (flashRun_C c i arg3 harg3 arg4 harg4 arg5 harg5 arg6 harg6 arg7 harg7 arg8 harg8 arg9 harg9 arg10 harg10 hc0 hc1 x0 x1 x2 x3 xs0 xs1 xs2).2.2.2.1)

section Region1
variable (V : (c : Dev nD) → (b : Ref sig .tc) → Buf (Elt F) ((c : Thread nD τ).loc b))

/-- Window `w`'s block at point `t` of the attention grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the output block's buffer, the running maximum, the normaliser and the accumulator hold after the body at
    position `n` of the grid: the case the position selects (first, middle or last key tile), run at the point's buffers
    and input blocks, the three carried buffers read at what position `n - 1` left. -/
def outsAt1 (c : Dev nD) : (n : ℕ) → n < cfg1.N → Vec F S1x1024x1024 .f32 × Vec F S1024x1 .f32 × Vec F S1024x1 .f32 × Vec F S1024x1024 .f32
  | 0, hn => (out4_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutM_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutL_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutA_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out4_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutM_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutL_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutA_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out4_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutM_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutL_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutA_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out4_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutM_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutL_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutA_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out4_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t), soutM_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t), soutL_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t), soutA_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out4_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutM_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutL_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutA_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out4_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutM_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutL_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutA_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the three carried buffers named, the rest of the scoped buffers at anything -/

/-- The scoped buffers the attention region never touches (the projection region's staging buffers), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem PhiA1_open (c : Dev nD) :
    (Pipeline.ΦA spec1 c : sProp 𝕄) ⊢ iprop((∃ d, owns (c : Thread nD τ) scM fullShare d) ∗ (∃ d, owns (c : Thread nD τ) scL fullShare d) ∗ (∃ d, owns (c : Thread nD τ) scA fullShare d) ∗ others c ∗ (∃ r, prngReg c r)) := by
  unfold Pipeline.ΦA; rw [scopedRest1_eq]; unfold others
  simp only [scM, scL, scA, owns_whole]
  iintro ⟨⟨Hr0, Hr1, Hr2, Hr3, Hr4, Hr5, Hr6, Hr7, Hr8, Hr9, HS0, HS1, HS2⟩, Hg⟩
  isplitl [HS0]; · iexact HS0
  isplitl [HS1]; · iexact HS1
  isplitl [HS2]; · iexact HS2
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexact Hr9
  iexact Hg

theorem PhiA1_close (c : Dev nD) :
    iprop((∃ d, owns (c : Thread nD τ) scM fullShare d) ∗ (∃ d, owns (c : Thread nD τ) scL fullShare d) ∗ (∃ d, owns (c : Thread nD τ) scA fullShare d) ∗ others c ∗ (∃ r, prngReg c r)) ⊢ (Pipeline.ΦA spec1 c : sProp 𝕄) := by
  unfold Pipeline.ΦA; rw [scopedRest1_eq]; unfold others
  simp only [scM, scL, scA, owns_whole]
  iintro ⟨HS0, HS1, HS2, ⟨Hr0, Hr1, Hr2, Hr3, Hr4, Hr5, Hr6, Hr7, Hr8, Hr9⟩, Hg⟩
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [HS0]; · iexact HS0
    isplitl [HS1]; · iexact HS1
    iexact HS2
  iexact Hg

/-- The invariant before position `n`: before the first point every scoped buffer at anything; afterwards the running
    maximum, the normaliser and the accumulator at what the point before left, the rest at anything. -/
def PhiS (c : Dev nD) : (n : ℕ) → n ≤ cfg1.N → sProp 𝕄
  | 0, _ => Pipeline.ΦA spec1 c
  | n + 1, hn => iprop(owns (c : Thread nD τ) scM fullShare ((outsAt1 V c n hn).2.1) ∗ owns (c : Thread nD τ) scL fullShare ((outsAt1 V c n hn).2.2.1)
      ∗ owns (c : Thread nD τ) scA fullShare ((outsAt1 V c n hn).2.2.2) ∗ others c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((outsAt1 V c n hn).2.1) ∗ owns (c : Thread nD τ) scL fullShare ((outsAt1 V c n hn).2.2.1)
      ∗ owns (c : Thread nD τ) scA fullShare ((outsAt1 V c n hn).2.2.2) ∗ others c ∗ (∃ r, prngReg c r)) := rfl
theorem PhiS_pos (c : Dev nD) (n : ℕ) (h : n ≤ cfg1.N) (hz : n ≠ 0) :
    PhiS V c n h = iprop(owns (c : Thread nD τ) scM fullShare ((outsAt1 V c (n - 1) (by omega)).2.1) ∗ owns (c : Thread nD τ) scL fullShare ((outsAt1 V c (n - 1) (by omega)).2.2.1)
      ∗ owns (c : Thread nD τ) scA fullShare ((outsAt1 V c (n - 1) (by omega)).2.2.2) ∗ others c ∗ (∃ r, prngReg c r)) := by
  cases n with
  | zero => exact absurd rfl hz
  | succ n => rfl

/-- The attention region's proof data: the arrays as the region finds them; after the body each input's buffer at its
    block and the output block's at the recursion's first component; the invariant carries the three scratch buffers. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the position says which case the point is in; the
    invariant hands the body the three carried buffers at what the point before left (at anything at the first
    point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold soutM_A soutL_A soutA_A; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨HS0, HS1, HS2, Hoth, Hg⟩
        iapply ((flashRun_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hoth Hg]
        · isplitl [HS0]
          · unfold owns; iexists _; isplitr
            swap; · iexact HS0
            ipureintro; exact View.read_writes_of_cover _ _ _ _ _ (scoverM_A c _ _ _ _ _ _ _ _ _ _ _ _ _ _ _ _ _ _ _ _ _ _ _ )
          isplitl [HS1]
          · unfold owns; iexists _; isplitr
            swap; · iexact HS1
            ipureintro; exact View.read_writes_of_cover _ _ _ _ _ (scoverL_A c _ _ _ _ _ _ _ _ _ _ _ _ _ _ _ _ _ _ _ _ _ _ _ )
          isplitl [HS2]
          · unfold owns; iexists _; isplitr
            swap; · iexact HS2
            ipureintro; exact View.read_writes_of_cover _ _ _ _ _ (scoverA_A c _ _ _ _ _ _ _ _ _ _ _ _ _ _ _ _ _ _ _ _ _ _ _ )
          isplitl [Hoth]; · iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨HS0, HS1, HS2, Hoth, Hg⟩, Ho, ⟨%d0, H0⟩, ⟨%d1, H1⟩, ⟨%d2, H2⟩, ⟨%d3, H3⟩, ⟨%d4, H4⟩⟩
        iapply ((flashRun_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hoth Hg]
        · isplitl [HS0]
          · unfold owns; iexists _; isplitr
            swap; · iexact HS0
            ipureintro; exact View.read_writes_of_cover _ _ _ _ _ (scoverM_A c _ _ _ _ _ _ _ _ _ _ _ _ _ _ _ _ _ _ _ _ _ _ _ )
          isplitl [HS1]
          · unfold owns; iexists _; isplitr
            swap; · iexact HS1
            ipureintro; exact View.read_writes_of_cover _ _ _ _ _ (scoverL_A c _ _ _ _ _ _ _ _ _ _ _ _ _ _ _ _ _ _ _ _ _ _ _ )
          isplitl [HS2]
          · unfold owns; iexists _; isplitr
            swap; · iexact HS2
            ipureintro; exact View.read_writes_of_cover _ _ _ _ _ (scoverA_A c _ _ _ _ _ _ _ _ _ _ _ _ _ _ _ _ _ _ _ _ _ _ _ )
          isplitl [Hoth]; · iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out4_C soutM_C soutL_C soutA_C; (try dsimp only)
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, ⟨%d4, H4⟩⟩
      iapply ((flashRun_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverM_C c _ _ _ _ _ _ _ _ _ _ _ _ _ _ _ _ _ _ _ _ _ _ _ _ _ _ )
        isplitl [HS1]
        · unfold owns; iexists _; isplitr
          swap; · iexact HS1
          ipureintro; exact View.read_writes_of_cover _ _ _ _ _ (scoverL_C c _ _ _ _ _ _ _ _ _ _ _ _ _ _ _ _ _ _ _ _ _ _ _ _ _ _ )
        isplitl [HS2]
        · unfold owns; iexists _; isplitr
          swap; · iexact HS2
          ipureintro; exact View.read_writes_of_cover _ _ _ _ _ (scoverA_C c _ _ _ _ _ _ _ _ _ _ _ _ _ _ _ _ _ _ _ _ _ _ _ _ _ _ )
        isplitl [Hoth]; · iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4_C c _ _ _ _ _ _ _ _ _ _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold soutM_B soutL_B soutA_B; (try dsimp only)
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, ⟨%d4, H4⟩⟩
      iapply ((flashRun_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverM_B c _ _ _ _ _ _ _ _ _ _ _ _ _ _ _ _ _ _ _ _ _ _ _ _ _ _ )
        isplitl [HS1]
        · unfold owns; iexists _; isplitr
          swap; · iexact HS1
          ipureintro; exact View.read_writes_of_cover _ _ _ _ _ (scoverL_B c _ _ _ _ _ _ _ _ _ _ _ _ _ _ _ _ _ _ _ _ _ _ _ _ _ _ )
        isplitl [HS2]
        · unfold owns; iexists _; isplitr
          swap; · iexact HS2
          ipureintro; exact View.read_writes_of_cover _ _ _ _ _ (scoverA_B c _ _ _ _ _ _ _ _ _ _ _ _ _ _ _ _ _ _ _ _ _ _ _ _ _ _ )
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped buffers back at anything: the carried contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HS0, HS1, HS2, Hoth, Hg⟩
  iapply (PhiA1_close (F := F) c)
  isplitl [HS0]; · iexists _; iexact HS0
  isplitl [HS1]; · iexists _; iexact HS1
  isplitl [HS2]; · iexists _; iexact HS2
  isplitl [Hoth]; · iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

/-- The same two entailments with the class invariant spelt out: the scoped rest beside the generator register. -/
theorem hin1' (c : Dev nD) : (iprop(Pipeline.scopedRest spec1 c ∗ ∃ r, prngReg c r) : sProp 𝕄) ⊢ (dat1 V c).Φ 0 := by
  have h := hin1 V c
  unfold Pipeline.ΦA at h
  exact h
theorem hout1' (c : Dev nD) : (dat1 V c).Φ (Fin.last cfg1.N) ⊢ (iprop(Pipeline.scopedRest spec1 c ∗ ∃ r, prngReg c r) : sProp 𝕄) := by
  have h := hout1 V c
  unfold Pipeline.ΦA at h
  exact h

end Region1

end Cert.KernelIdeal.Attn

end
-- ==== Proof.Whole.lean ====
/-
  The whole program: two reshapes and a change of format, the projection region, three reshapes, the attention
  region. The contents of every unscoped buffer at each boundary between the four items, the two regions as
  segments over those contents, and the run: every weakly fair execution terminates without a fault, the result
  buffer ends at what the attention region's write-backs leave, and every argument array ends as launched.
-/
import proofs.«117829_j39676907888059_2_alg».proof.Proof.ProjFrame
import proofs.«117829_j39676907888059_2_alg».proof.Proof.AttnFrame
import proofs.«117829_j39676907888059_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen Cert.KernelIdeal.Proj Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between the four items of the program -/

/-- At launch. -/
abbrev W0 : Dev nD → Valuation τ sig (Elt F) := fun c b => (s₀ m ρ).mem ((c : Dev nD), b)
/-- After the reshapes and the weight's change of format: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: the q, k, v arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes to [4, 4096, 1024]: the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The mask is an input window of the attention region: its array is handed back as entered. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (V3 m ρ) c).arrAt_in 3 rfl _).trans (A_eq1 (V3 m ρ) c 3))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- The result buffer ends at what the attention region's write-backs leave. -/
theorem W4_main_v7 (c : Dev nD) : W4 m ρ c (Proc.devRef .tc main_v7) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

/-- Entering the attention region: the generator register and the scoped rest make its invariant before the first point. -/
theorem attn_in (c : Dev nD) (P : sProp 𝕄) :
    (iprop((∃ r, prngReg c r) ∗ P ∗ Pipeline.scopedRest spec1 c) : sProp 𝕄) ⊢ (dat1 (V3 m ρ) c).Φ 0 := by
  iintro ⟨Hp, -, Hr⟩
  iapply (hin1' (V3 m ρ) c)
  isplitl [Hr]; · iexact Hr
  iexact Hp
/-- Leaving it: the invariant after the last point gives them back. -/
theorem attn_out (c : Dev nD) :
    (dat1 (V3 m ρ) c).Φ (Fin.last cfg1.N) ⊢ (iprop((∃ r, prngReg c r) ∗ BI.emp ∗ Pipeline.scopedRest spec1 c) : sProp 𝕄) := by
  have h := hout1' (V3 m ρ) c
  refine h.trans ?_
  iintro ⟨Hr, Hp⟩
  isplitl [Hp]; · iexact Hp
  isplitr; · iempintro
  iexact Hr

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`; its invariant carries the three
    scratch buffers between points and forgets them at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := attn_in m ρ c _
  hout c := by
    rw [Pipeline.ownSems0_none]
    exact attn_out m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as four segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, and every final state has every unscoped
    buffer at the last boundary's contents: the result at what the attention region's write-backs leave, each argument
    as launched. -/
theorem run : θ_run defs (onTc (τ := τ) (main (F := F))) ⟨m, fun _ => 0, ρ⟩ (fun r => ∀ c : Dev nD,
      r.2.mem ((c.tc : Thread nD τ).loc main_v7) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.KernelIdeal.Whole

end
-- ==== Proof.AttnPieces.lean ====
/-
  What each case of the attention body leaves in the running maximum, the normaliser, the accumulator and the output
  block, as the body's own arithmetic of the input blocks and of what the three carried buffers held: every load and
  every store goes through the whole buffer, so a read is the contents and a store's canon is the value stored.
-/
import proofs.«117829_j39676907888059_2_alg».proof.Proof.AttnFrame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext d; fin_cases d <;> rfl
theorem hz3 : (![0, 0, 0] : Fin 3 → Nat) = fun _ => 0 := by funext d; fin_cases d <;> rfl

/-! ## What each case leaves, as the body's arithmetic

At a first key tile the running maximum, the normaliser and the accumulator are read back at the reset values
(the finite sentinel, zero, zero); at a later tile at what the tile before left. -/

theorem soutM_A_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) :
    soutM_A c i arg3 harg3 arg4 harg4 arg5 harg5 arg6 harg6 arg7 harg7 arg8 harg8 arg9 harg9 arg10 harg10 hc0 hc1 x0 x1 x2 x3 = k1_pay2 (k1_pay9 x0 x1 x3 k1_pay4) := by
  unfold soutM_A
  rw [View.read_writes_eq_canon _ _ _ (scoverM_A c i arg3 harg3 arg4 harg4 arg5 harg5 arg6 harg6 arg7 harg7 arg8 harg8 arg9 harg9 arg10 harg10 hc0 hc1 x0 x1 x2 x3)]
  unfold flashRun_A
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutL_A_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) :
    soutL_A c i arg3 harg3 arg4 harg4 arg5 harg5 arg6 harg6 arg7 harg7 arg8 harg8 arg9 harg9 arg10 harg10 hc0 hc1 x0 x1 x2 x3 = k1_pay12 x0 x1 x3 k1_pay4 k1_pay5 := by
  unfold soutL_A
  rw [View.read_writes_eq_canon _ _ _ (scoverL_A c i arg3 harg3 arg4 harg4 arg5 harg5 arg6 harg6 arg7 harg7 arg8 harg8 arg9 harg9 arg10 harg10 hc0 hc1 x0 x1 x2 x3)]
  unfold flashRun_A
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutA_A_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) :
    soutA_A c i arg3 harg3 arg4 harg4 arg5 harg5 arg6 harg6 arg7 harg7 arg8 harg8 arg9 harg9 arg10 harg10 hc0 hc1 x0 x1 x2 x3 = k1_pay1 (k1_pay7 x2) (k1_pay10 x0 x1 x3 k1_pay4) (k1_pay11 x0 x1 x3 k1_pay4) k1_pay6 := by
  unfold soutA_A
  rw [View.read_writes_eq_canon _ _ _ (scoverA_A c i arg3 harg3 arg4 harg4 arg5 harg5 arg6 harg6 arg7 harg7 arg8 harg8 arg9 harg9 arg10 harg10 hc0 hc1 x0 x1 x2 x3)]
  unfold flashRun_A
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutM_B_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    soutM_B c i arg3 harg3 arg4 harg4 arg5 harg5 arg6 harg6 arg7 harg7 arg8 harg8 arg9 harg9 arg10 harg10 hc0 hc1 x0 x1 x2 x3 xs0 xs1 xs2 = k1_pay2 (k1_pay9 x0 x1 x3 xs0) := by
  unfold soutM_B
  rw [View.read_writes_eq_canon _ _ _ (scoverM_B c i arg3 harg3 arg4 harg4 arg5 harg5 arg6 harg6 arg7 harg7 arg8 harg8 arg9 harg9 arg10 harg10 hc0 hc1 x0 x1 x2 x3 xs0 xs1 xs2)]
  unfold flashRun_B
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutL_B_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    soutL_B c i arg3 harg3 arg4 harg4 arg5 harg5 arg6 harg6 arg7 harg7 arg8 harg8 arg9 harg9 arg10 harg10 hc0 hc1 x0 x1 x2 x3 xs0 xs1 xs2 = k1_pay12 x0 x1 x3 xs0 xs1 := by
  unfold soutL_B
  rw [View.read_writes_eq_canon _ _ _ (scoverL_B c i arg3 harg3 arg4 harg4 arg5 harg5 arg6 harg6 arg7 harg7 arg8 harg8 arg9 harg9 arg10 harg10 hc0 hc1 x0 x1 x2 x3 xs0 xs1 xs2)]
  unfold flashRun_B
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutA_B_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    soutA_B c i arg3 harg3 arg4 harg4 arg5 harg5 arg6 harg6 arg7 harg7 arg8 harg8 arg9 harg9 arg10 harg10 hc0 hc1 x0 x1 x2 x3 xs0 xs1 xs2 = k1_pay1 (k1_pay7 x2) (k1_pay10 x0 x1 x3 xs0) (k1_pay11 x0 x1 x3 xs0) xs2 := by
  unfold soutA_B
  rw [View.read_writes_eq_canon _ _ _ (scoverA_B c i arg3 harg3 arg4 harg4 arg5 harg5 arg6 harg6 arg7 harg7 arg8 harg8 arg9 harg9 arg10 harg10 hc0 hc1 x0 x1 x2 x3 xs0 xs1 xs2)]
  unfold flashRun_B
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutM_C_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    soutM_C c i arg3 harg3 arg4 harg4 arg5 harg5 arg6 harg6 arg7 harg7 arg8 harg8 arg9 harg9 arg10 harg10 hc0 hc1 x0 x1 x2 x3 xs0 xs1 xs2 = k1_pay2 (k1_pay9 x0 x1 x3 xs0) := by
  unfold soutM_C
  rw [View.read_writes_eq_canon _ _ _ (scoverM_C c i arg3 harg3 arg4 harg4 arg5 harg5 arg6 harg6 arg7 harg7 arg8 harg8 arg9 harg9 arg10 harg10 hc0 hc1 x0 x1 x2 x3 xs0 xs1 xs2)]
  unfold flashRun_C
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutL_C_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    soutL_C c i arg3 harg3 arg4 harg4 arg5 harg5 arg6 harg6 arg7 harg7 arg8 harg8 arg9 harg9 arg10 harg10 hc0 hc1 x0 x1 x2 x3 xs0 xs1 xs2 = k1_pay12 x0 x1 x3 xs0 xs1 := by
  unfold soutL_C
  rw [View.read_writes_eq_canon _ _ _ (scoverL_C c i arg3 harg3 arg4 harg4 arg5 harg5 arg6 harg6 arg7 harg7 arg8 harg8 arg9 harg9 arg10 harg10 hc0 hc1 x0 x1 x2 x3 xs0 xs1 xs2)]
  unfold flashRun_C
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem soutA_C_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    soutA_C c i arg3 harg3 arg4 harg4 arg5 harg5 arg6 harg6 arg7 harg7 arg8 harg8 arg9 harg9 arg10 harg10 hc0 hc1 x0 x1 x2 x3 xs0 xs1 xs2 = k1_pay1 (k1_pay7 x2) (k1_pay10 x0 x1 x3 xs0) (k1_pay11 x0 x1 x3 xs0) xs2 := by
  unfold soutA_C
  rw [View.read_writes_eq_canon _ _ _ (scoverA_C c i arg3 harg3 arg4 harg4 arg5 harg5 arg6 harg6 arg7 harg7 arg8 harg8 arg9 harg9 arg10 harg10 hc0 hc1 x0 x1 x2 x3 xs0 xs1 xs2)]
  unfold flashRun_C
  dsimp only
  sl_unfold_words
  rw [View.canon_cons_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

theorem out4_C_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (xs0 : Vec F S1024x1 .f32) (xs1 : Vec F S1024x1 .f32) (xs2 : Vec F S1024x1024 .f32) :
    out4_C c i arg3 harg3 arg4 harg4 arg5 harg5 arg6 harg6 arg7 harg7 arg8 harg8 arg9 harg9 arg10 harg10 hc0 hc1 x0 x1 x2 x3 xs0 xs1 xs2 = k1_pay3 (k1_pay1 (k1_pay7 x2) (k1_pay10 x0 x1 x3 xs0) (k1_pay11 x0 x1 x3 xs0) xs2) (k1_pay12 x0 x1 x3 xs0 xs1) := by
  unfold out4_C
  rw [View.read_writes_eq_canon _ _ _ (cover4_C c i arg3 harg3 arg4 harg4 arg5 harg5 arg6 harg6 arg7 harg7 arg8 harg8 arg9 harg9 arg10 harg10 hc0 hc1 x0 x1 x2 x3 xs0 xs1 xs2)]
  unfold flashRun_C
  dsimp only
  sl_unfold_words
  rw [View.canon_cons_unit_zero hz3]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x512x1024) hz3, View.ld_unit_zero (S := S1x1024x512) hz3, View.ld_unit_zero (S := S1024x1) hz2, View.ld_unit_zero (S := S1024x1024) hz2]

end Cert.KernelIdeal.Attn

end
-- ==== Proof.AttnStep.lean ====
/-
  The attention body's arithmetic as three pure operations on blocks: the values the three carried buffers are reset to
  at a first key tile, one key tile's update of (running maximum, normaliser, accumulator) from the query, key, value
  and mask blocks, and the quotient stored at the last key tile.
-/
import proofs.«117829_j39676907888059_2_alg».proof.Proof.Gen.KernelIdeal.Skeleton

noncomputable section

namespace Cert.KernelIdeal.Attn

open Cert.KernelIdeal Cert.KernelIdeal.Gen
open Idealize.ShloMosaic

variable {F : FTy → Type} [FloatOps F]

/-- The running maximum (one per query row), the normaliser (one per query row) and the accumulator (a row per query row). -/
abbrev Carry (F : FTy → Type) [FloatOps F] : Type := Vec F S1024x1 .f32 × Vec F S1024x1 .f32 × Vec F S1024x1024 .f32

/-- What a first key tile starts from: the finite sentinel, zero, zero. -/
def reset : Carry F := (k1_pay4, k1_pay5, k1_pay6)

/-- One key tile: the new maximum; the normaliser rescaled by exp (old − new) plus the tile's exponentials; the
    accumulator rescaled the same way plus the tile's exponentials times the value block. -/
def step (q : Vec F S1x1024x1024 .bf16) (kk vv : Vec F S1x512x1024 .bf16) (mk : Vec F S1x1024x512 .f32) (s : Carry F) : Carry F :=
  (k1_pay2 (k1_pay9 q kk mk s.1), k1_pay12 q kk mk s.1 s.2.1,
    k1_pay1 (k1_pay7 vv) (k1_pay10 q kk mk s.1) (k1_pay11 q kk mk s.1) s.2.2)

/-- The block stored at the last key tile: the accumulator over the normaliser. -/
def finish (s : Carry F) : Vec F S1x1024x1024 .f32 := k1_pay3 s.2.2 s.2.1

end Cert.KernelIdeal.Attn

end
-- ==== Proof.AttnCarry.lean ====
/-
  The grid recursion of the attention region in the body's own terms: along the 128 grid points the three carried
  buffers follow reset-then-update at a first key tile and update at every later one, and at a last key tile the
  output block is the quotient of the updated accumulator by the updated normaliser.
-/
import proofs.«117829_j39676907888059_2_alg».proof.Proof.AttnPieces
import proofs.«117829_j39676907888059_2_alg».proof.Proof.AttnStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The running maximum, the normaliser and the accumulator after grid point `t`. -/
def carried (c : Dev nD) (t : Fin cfg1.N) : Carry F := (outsAt1 V c t.val t.isLt).2

set_option maxHeartbeats 1000000 in
/-- At a first key tile the three buffers are one update of the reset values by the point's blocks. -/
theorem carried_first (c : Dev nD) (t : Fin cfg1.N) (h0 : t.val % 8 = 0) :
    carried V c t = step (iblk1 V c 0 t) (iblk1 V c 1 t) (iblk1 V c 2 t) (iblk1 V c 3 t) reset := by
  have h1 : ¬t.val % 8 = 7 := by omega
  unfold carried
  rw [outsAt1_A V c t h0 h1]
  unfold step reset
  dsimp only
  rw [soutM_A_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t),
    soutL_A_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t),
    soutA_A_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t)]

set_option maxHeartbeats 1000000 in
/-- At a later key tile they are one update, by the point's blocks, of what the point before left. -/
theorem carried_next (c : Dev nD) (t : Fin cfg1.N) (h0 : ¬t.val % 8 = 0) :
    carried V c t = step (iblk1 V c 0 t) (iblk1 V c 1 t) (iblk1 V c 2 t) (iblk1 V c 3 t)
      (carried V c ⟨t.val - 1, Nat.lt_of_le_of_lt (Nat.sub_le _ _) t.isLt⟩) := by
  unfold carried
  by_cases h1 : t.val % 8 = 7
  · rw [outsAt1_C V c t h0 h1]
    unfold step
    dsimp only
    rw [soutM_C_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      soutL_C_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      soutA_C_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  · rw [outsAt1_B V c t h0 h1]
    unfold step
    dsimp only
    rw [soutM_B_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      soutL_B_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      soutA_B_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

set_option maxHeartbeats 1000000 in
/-- At a last key tile the output block's buffer holds the accumulator over the normaliser, as just updated. -/
theorem out_last (c : Dev nD) (t : Fin cfg1.N) (h1 : t.val % 8 = 7) :
    (outsAt1 V c t.val t.isLt).1 = finish (carried V c t) := by
  have h0 : ¬t.val % 8 = 0 := by omega
  unfold carried finish
  rw [outsAt1_C V c t h0 h1]
  dsimp only
  rw [soutA_C_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutL_C_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  exact out4_C_eq c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end

end Cert.KernelIdeal.Attn

end
-- ==== Proof.AttnPayload.lean ====
import proofs.«117829_j39676907888059_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPayload

open Cert.KernelIdeal Cert.KernelIdeal.Gen
open Idealize.ShloMosaic Idealize.ShloMosaic.ValueIdx

/-!
# The attention body's payloads read at an index, at the ideal values

Each payload of the flash-attention body is a pure term over the blocks the body loads.  This file
reads every one of them at a single index, with floats the extended reals: the scores of a query row
against the keys of one tile, the running maximum, the two rescaling exponentials, the running
normaliser, the running accumulator, and the final division.  Indices are written by coordinates:
`p` a query row of the block, `j` a key of the tile, `d` an output column, `e` a feature.
-/

/-! ## Two layout readings the column-shaped carries need -/

section Layout
variable {α : Type}

/-- An `[a]` array cast to a column `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products' operand indices -/

/-- The dimension numbers of the score product: a query row against a key row, over the features. -/
abbrev dotQK := dot_S1024x1024_S1024x512_S1024x512_1_0_0_1_n_n

/-- The dimension numbers of the value product: a row of weights against a value column, over the
tile's keys. -/
abbrev dotPV := dot_S1024x512_S512x1024_S1024x1024_1_0_0_1_n_n

theorem dotQK_lhs (p : Fin 1024) (j : Fin 512) (e : Fin 1024) :
    dotQK.lhsIdx (ix2 p j) ((contrEquiv1 dotQK 1024 rfl rfl).symm e) = ix2 p e := by
  have he := contrEquiv1_symm_val dotQK 1024 rfl rfl e
  funext a
  apply Fin.ext
  match a with
  | ⟨0, _⟩ =>
    show (dotQK.lhsIdx (ix2 p j) _ 0).val = p.val
    unfold DotDims.lhsIdx
    rw [dif_neg (show ¬(0 : Fin S1024x1024.rank) ∈ dotQK.lhsBatch by decide),
      dif_pos (show (0 : Fin S1024x1024.rank) ∈ dotQK.lhsNonContracting by decide)]
    rfl
  | ⟨1, _⟩ => exact (dotQK.lhsIdx_val_of_single rfl (ix2 p j) _).trans he

theorem dotQK_rhs (p : Fin 1024) (j : Fin 512) (e : Fin 1024) :
    dotQK.rhsIdx (ix2 p j) ((contrEquiv1 dotQK 1024 rfl rfl).symm e) = ix2 e j := by
  have he := contrEquiv1_symm_val dotQK 1024 rfl rfl e
  funext a
  apply Fin.ext
  match a with
  | ⟨0, _⟩ => exact (dotQK.rhsIdx_val_of_single rfl (ix2 p j) _).trans he
  | ⟨1, _⟩ =>
    show (dotQK.rhsIdx (ix2 p j) _ 1).val = j.val
    unfold DotDims.rhsIdx
    rw [dif_neg (show ¬(1 : Fin S1024x512.rank) ∈ dotQK.rhsBatch by decide),
      dif_pos (show (1 : Fin S1024x512.rank) ∈ dotQK.rhsNonContracting by decide)]
    rfl

theorem dotPV_lhs (p : Fin 1024) (d : Fin 1024) (j : Fin 512) :
    dotPV.lhsIdx (ix2 p d) ((contrEquiv1 dotPV 512 rfl rfl).symm j) = ix2 p j := by
  have hj := contrEquiv1_symm_val dotPV 512 rfl rfl j
  funext a
  apply Fin.ext
  match a with
  | ⟨0, _⟩ =>
    show (dotPV.lhsIdx (ix2 p d) _ 0).val = p.val
    unfold DotDims.lhsIdx
    rw [dif_neg (show ¬(0 : Fin S1024x512.rank) ∈ dotPV.lhsBatch by decide),
      dif_pos (show (0 : Fin S1024x512.rank) ∈ dotPV.lhsNonContracting by decide)]
    rfl
  | ⟨1, _⟩ => exact (dotPV.lhsIdx_val_of_single rfl (ix2 p d) _).trans hj

theorem dotPV_rhs (p : Fin 1024) (d : Fin 1024) (j : Fin 512) :
    dotPV.rhsIdx (ix2 p d) ((contrEquiv1 dotPV 512 rfl rfl).symm j) = ix2 j d := by
  have hj := contrEquiv1_symm_val dotPV 512 rfl rfl j
  funext a
  apply Fin.ext
  match a with
  | ⟨0, _⟩ => exact (dotPV.rhsIdx_val_of_single rfl (ix2 p d) _).trans hj
  | ⟨1, _⟩ =>
    show (dotPV.rhsIdx (ix2 p d) _ 1).val = d.val
    unfold DotDims.rhsIdx
    rw [dif_neg (show ¬(1 : Fin S512x1024.rank) ∈ dotPV.rhsBatch by decide),
      dif_pos (show (1 : Fin S512x1024.rank) ∈ dotPV.rhsNonContracting by decide)]
    rfl

/-! ## The lane reductions' source index -/

/-- The source index of a reduction along the lanes of a `[1024, 512]` block, over row `p`, at
lane `j`, is `(p, j)`. -/
theorem lift_lane (h : S1024x512.Reduces [1] S1024) (p : Fin 1024) (j : Fin 512) :
    h.lift (ix1 p) j = ix2 p j := by
  funext a
  apply Fin.ext
  match a with
  | ⟨0, _⟩ => rfl
  | ⟨1, _⟩ => rfl

/-- The pattern of `-∞` is the least extended real. -/
theorem ofBits_neg_inf_f32 : Ideal.ofBits .f32 0xFF800000#32 = ⊥ := by simp [Ideal.ofBits, Ideal.ieee]

/-- A fold of `max` from the least element is the finite supremum. -/
theorem fold_max_bot_eq_sup {ι : Type} (S : Finset ι) (f : ι → EReal) : S.fold max ⊥ f = S.sup f := rfl

/-! ## The payloads -/

section Payloads

variable (v3 : Vec Ideal S1x1024x1024 .bf16) (v5 : Vec Ideal S1x512x1024 .bf16)
  (v11 : Vec Ideal S1x1024x512 .f32) (v14 : Vec Ideal S1024x1 .f32) (v23 : Vec Ideal S1024x1 .f32)

/-- The scores of one tile: query row `p` against key `j` over the features, plus the mask. -/
theorem pay8_apply (p : Fin 1024) (j : Fin 512) :
    k1_pay8 (F := Ideal) v3 v5 v11 (ix2 p j)
      = (∑ e : Fin 1024, v3 (ix3 0 p e) * v5 (ix3 0 j e)) + v11 (ix3 0 p j) := by
  unfold k1_pay8
  rw [addf_apply, shapeCast_1ab_ab_apply]
  refine congrArg (· + v11 (ix3 0 p j)) ?_
  refine (Ideal.matmul_constant_zero_apply dotQK none _ _ (ix2 p j)).trans ?_
  rw [← Equiv.sum_comp (contrEquiv1 dotQK 1024 rfl rfl).symm]
  refine Finset.sum_congr rfl fun e _ => ?_
  rw [dotQK_lhs, dotQK_rhs, shapeCast_1ab_ab_apply, transpose_ix2_apply, shapeCast_1ab_ab_apply]

/-- The new running maximum of row `p`: the carried one against the tile's lane maximum, the
latter the fold of `max` over the lanes from the value of the `-∞` pattern. -/
theorem pay9_apply_fold (p : Fin 1024) :
    k1_pay9 (F := Ideal) v3 v5 v11 v14 (ix2 p 0)
      = max (v14 (ix2 p 0))
          ((Finset.univ : Finset (Fin 512)).fold max (Ideal.ofBits .f32 0xFF800000#32)
            fun j => k1_pay8 (F := Ideal) v3 v5 v11 (ix2 p j)) := by
  unfold k1_pay9
  rw [maximumf_apply, shapeCast_a_a1_apply]
  refine congrArg (max (v14 (ix2 p 0))) ?_
  refine (Ideal.multiReduction_maximumf_single (k1_pay8 (F := Ideal) v3 v5 v11) 0xFF800000#32
    reduces_S1024x512_S1024 (.inl rfl) rfl (ix1 p)).trans ?_
  refine congrArg (fun f : Fin 512 → EReal =>
    (Finset.univ : Finset (Fin 512)).fold max (Ideal.ofBits .f32 0xFF800000#32) f) (funext fun j => ?_)
  exact congrArg (k1_pay8 (F := Ideal) v3 v5 v11) (lift_lane _ p j)

/-- The same with the lane maximum as a finite supremum (the fold starts at `⊥`). -/
theorem pay9_apply (p : Fin 1024) :
    k1_pay9 (F := Ideal) v3 v5 v11 v14 (ix2 p 0)
      = max (v14 (ix2 p 0))
          (Finset.univ.sup fun j : Fin 512 => k1_pay8 (F := Ideal) v3 v5 v11 (ix2 p j)) := by
  rw [pay9_apply_fold, ofBits_neg_inf_f32, fold_max_bot_eq_sup]

/-- The rescaling factor of the carried state: `exp (old maximum - new maximum)`. -/
theorem pay10_apply (p : Fin 1024) :
    k1_pay10 (F := Ideal) v3 v5 v11 v14 (ix2 p 0)
      = Ideal.exp (v14 (ix2 p 0) - k1_pay9 (F := Ideal) v3 v5 v11 v14 (ix2 p 0)) := rfl

/-- The tile's weights: `exp (score - new maximum)`. -/
theorem pay11_apply (p : Fin 1024) (j : Fin 512) :
    k1_pay11 (F := Ideal) v3 v5 v11 v14 (ix2 p j)
      = Ideal.exp (k1_pay8 (F := Ideal) v3 v5 v11 (ix2 p j)
          - k1_pay9 (F := Ideal) v3 v5 v11 v14 (ix2 p 0)) := by
  unfold k1_pay11
  show Ideal.exp (k1_pay8 (F := Ideal) v3 v5 v11 (ix2 p j)
      - broadcastTo S1024x512 (k1_pay9 (F := Ideal) v3 v5 v11 v14) broadcasts_S1024x1_S1024x512 (ix2 p j)) = _
  rw [broadcastTo_a1_ab_apply]

/-- The new running normaliser: the carried one rescaled, plus the sum of the tile's weights. -/
theorem pay12_apply (p : Fin 1024) :
    k1_pay12 (F := Ideal) v3 v5 v11 v14 v23 (ix2 p 0)
      = k1_pay10 (F := Ideal) v3 v5 v11 v14 (ix2 p 0) * v23 (ix2 p 0)
          + ∑ j : Fin 512, k1_pay11 (F := Ideal) v3 v5 v11 v14 (ix2 p j) := by
  unfold k1_pay12
  rw [shapeCast_self, addf_apply, mulf_apply, shapeCast_a_a1_apply]
  refine congrArg (k1_pay10 (F := Ideal) v3 v5 v11 v14 (ix2 p 0) * v23 (ix2 p 0) + ·) ?_
  refine (Ideal.multiReduction_add_single (k1_pay11 (F := Ideal) v3 v5 v11 v14) 0x00000000#32
    reduces_S1024x512_S1024 (.inl rfl) rfl (ix1 p)).trans ?_
  refine Finset.sum_congr rfl fun j _ => ?_
  exact congrArg (k1_pay11 (F := Ideal) v3 v5 v11 v14) (lift_lane _ p j)

end Payloads

/-- The new accumulator: the carried one rescaled, plus the tile's weights against its values. -/
theorem pay1_apply (v8 : FVec Ideal S512x1024 .bf16) (v19 : FVec Ideal S1024x1 .f32)
    (v22 : FVec Ideal S1024x512 .f32) (v31 : Vec Ideal S1024x1024 .f32) (p d : Fin 1024) :
    k1_pay1 (F := Ideal) v8 v19 v22 v31 (ix2 p d)
      = v19 (ix2 p 0) * v31 (ix2 p d) + ∑ j : Fin 512, v22 (ix2 p j) * v8 (ix2 j d) := by
  unfold k1_pay1
  rw [shapeCast_self, addf_apply, mulf_apply, broadcastTo_a1_ab_apply]
  refine congrArg (v19 (ix2 p 0) * v31 (ix2 p d) + ·) ?_
  refine (Ideal.matmul_constant_zero_apply dotPV none _ _ (ix2 p d)).trans ?_
  rw [← Equiv.sum_comp (contrEquiv1 dotPV 512 rfl rfl).symm]
  refine Finset.sum_congr rfl fun j _ => ?_
  rw [dotPV_lhs, dotPV_rhs, truncf_apply]

/-- The stored maximum is the new maximum itself. -/
theorem pay2_eq (v17 : FVec Ideal S1024x1 .f32) : k1_pay2 (F := Ideal) v17 = v17 := by
  unfold k1_pay2
  exact shapeCast_self _ _

/-- The value block of a tile with its unit leading axis dropped. -/
theorem pay7_apply (v7 : Vec Ideal S1x512x1024 .bf16) (j : Fin 512) (d : Fin 1024) :
    k1_pay7 (F := Ideal) v7 (ix2 j d) = v7 (ix3 0 j d) := by
  unfold k1_pay7
  exact shapeCast_1ab_ab_apply _ _ _ _

/-- The output block: the accumulator divided by the normaliser of its row. -/
theorem pay3_apply (v46 : Vec Ideal S1024x1024 .f32) (v47 : Vec Ideal S1024x1 .f32) (p d : Fin 1024) :
    k1_pay3 (F := Ideal) v46 v47 (ix3 0 p d) = Ideal.div (v46 (ix2 p d)) (v47 (ix2 p 0)) := by
  unfold k1_pay3
  rw [shapeCast_ab_1ab_apply, divf_apply, broadcastTo_a1_ab_apply]

/-- … which is the real quotient when both are reals and the normaliser is not zero. -/
theorem pay3_apply_coe (v46 : Vec Ideal S1024x1024 .f32) (v47 : Vec Ideal S1024x1 .f32) (p d : Fin 1024)
    (a r : ℝ) (ha : v46 (ix2 p d) = (a : EReal)) (hr : v47 (ix2 p 0) = (r : EReal)) (hr0 : r ≠ 0) :
    k1_pay3 (F := Ideal) v46 v47 (ix3 0 p d) = ((a / r : ℝ) : EReal) := by
  rw [pay3_apply, ha, hr, Ideal.div_coe hr0, ← EReal.coe_mul, mul_one_div]

/-- The sentinel the running maximum starts from. -/
theorem pay4_apply (p : Fin 1024) :
    k1_pay4 (F := Ideal) (ix2 p 0) = Ideal.ofBits .f32 0xFF333332#32 := by
  unfold k1_pay4
  rw [shapeCast_self]
  rfl

/-- The real number the sentinel pattern denotes: `-(2^23 + 0x333332) · 2^104`. -/
def sentinel : ℝ := -(11744050 : ℝ) * (2 : ℝ) ^ (104 : ℤ)

theorem ofBits_sentinel : Ideal.ofBits .f32 0xFF333332#32 = ((sentinel : ℝ) : EReal) := by
  simp [sentinel, Ideal.ofBits, Ideal.ieee, -EReal.coe_mul]

/-- So the running maximum starts from a real number. -/
theorem pay4_apply_coe (p : Fin 1024) : k1_pay4 (F := Ideal) (ix2 p 0) = ((sentinel : ℝ) : EReal) :=
  (pay4_apply p).trans ofBits_sentinel

/-- The running normaliser starts from zero. -/
theorem pay5_apply (p : Fin 1024) : k1_pay5 (F := Ideal) (ix2 p 0) = 0 := by
  unfold k1_pay5
  rw [shapeCast_self]
  exact Ideal.ofBits_zero_f32

/-- The running accumulator starts from zero. -/
theorem pay6_apply (p d : Fin 1024) : k1_pay6 (F := Ideal) (ix2 p d) = 0 := by
  unfold k1_pay6
  rw [shapeCast_self]
  exact Ideal.ofBits_zero_f32

end Cert.KernelIdeal.AttnPayload
-- ==== Proof.LibOnlineSoftmax.lean ====
import Mathlib.Analysis.SpecialFunctions.Exp
import Mathlib.Algebra.BigOperators.Field
import Mathlib.Algebra.BigOperators.Fin
import Mathlib.Data.Real.Basic

/-!
# Online softmax: the streaming recurrence equals the one-shot softmax average

A softmax-weighted average  `∑ j, (exp (x j) / ∑ j', exp (x j')) * y j`  can be computed in one
pass over the keys, tile by tile, keeping a running shift `μ n`, a running denominator `L n` and a
running numerator `A n`:

* `L 0 = 0`,  `L (n+1) = exp (μ n - μ (n+1)) * L n + ∑ k, exp (s n k - μ (n+1))`,
* `A 0 = 0`,  `A (n+1) = exp (μ n - μ (n+1)) * A n + ∑ k, exp (s n k - μ (n+1)) * v n k`,

where `s n k`, `v n k` are the score and the value of lane `k` of tile `n`.  The shift sequence `μ` is
ARBITRARY here: in practice it is a running maximum, but the algebra below never uses that.

Everything is over `ℝ`.  Main results (namespace `OnlineSoftmax`):

* `L_closed`, `A_closed`: after `n` tiles, `L n = ∑ j < n, ∑ k, exp (s j k - μ n)` and the same for
  `A` with the factor `v j k`.
* `L_pos`: `0 < L n` as soon as one lane of one tile has been seen.
* `quotient`: for EVERY shift `M`, `A n / L n` is the softmax average of the first `n` tiles written
  with the shift `M`; in particular it does not depend on `μ`.
* `quotient_flat`, `quotient_flat_cast`: the same with the `T` tiles of `Lk` lanes re-indexed by one
  flat key index `j = n * Lk + k` in `Fin (T * Lk)`, resp. in `Fin N` with `T * Lk = N`.
-/

namespace OnlineSoftmax

open Finset

section Recurrence

variable {κ : Type*} [Fintype κ]

/-- The running denominator of the online softmax after `n` tiles. -/
noncomputable def L (s : ℕ → κ → ℝ) (μ : ℕ → ℝ) : ℕ → ℝ
  | 0 => 0
  | n + 1 => Real.exp (μ n - μ (n + 1)) * L s μ n + ∑ k, Real.exp (s n k - μ (n + 1))

/-- The running numerator of the online softmax after `n` tiles. -/
noncomputable def A (s v : ℕ → κ → ℝ) (μ : ℕ → ℝ) : ℕ → ℝ
  | 0 => 0
  | n + 1 => Real.exp (μ n - μ (n + 1)) * A s v μ n + ∑ k, Real.exp (s n k - μ (n + 1)) * v n k

variable (s v : ℕ → κ → ℝ) (μ : ℕ → ℝ)

@[simp] theorem L_zero : L s μ 0 = 0 := rfl

theorem L_succ (n : ℕ) :
    L s μ (n + 1) = Real.exp (μ n - μ (n + 1)) * L s μ n + ∑ k, Real.exp (s n k - μ (n + 1)) := rfl

@[simp] theorem A_zero : A s v μ 0 = 0 := rfl

theorem A_succ (n : ℕ) :
    A s v μ (n + 1)
      = Real.exp (μ n - μ (n + 1)) * A s v μ n + ∑ k, Real.exp (s n k - μ (n + 1)) * v n k := rfl

/-- Rescaling by `exp (a - b)` moves a term from the shift `a` to the shift `b`. -/
theorem exp_rescale (x a b : ℝ) : Real.exp (a - b) * Real.exp (x - a) = Real.exp (x - b) := by
  rw [← Real.exp_add]; congr 1; ring

/-- Closed form of the running denominator: every term seen so far, at the current shift. -/
theorem L_closed (n : ℕ) : L s μ n = ∑ j ∈ range n, ∑ k, Real.exp (s j k - μ n) := by
  induction n with
  | zero => simp
  | succ n ih =>
    rw [L_succ, ih, mul_sum, sum_range_succ]
    congr 1
    refine sum_congr rfl fun j _ => ?_
    rw [mul_sum]
    exact sum_congr rfl fun k _ => exp_rescale _ _ _

/-- Closed form of the running numerator. -/
theorem A_closed (n : ℕ) :
    A s v μ n = ∑ j ∈ range n, ∑ k, Real.exp (s j k - μ n) * v j k := by
  induction n with
  | zero => simp
  | succ n ih =>
    rw [A_succ, ih, mul_sum, sum_range_succ]
    congr 1
    refine sum_congr rfl fun j _ => ?_
    rw [mul_sum]
    refine sum_congr rfl fun k _ => ?_
    rw [← mul_assoc, exp_rescale]

/-- The running denominator is positive once one lane of one tile has been seen. -/
theorem L_pos {n : ℕ} (hn : 0 < n) [Nonempty κ] : 0 < L s μ n := by
  rw [L_closed]
  refine sum_pos (fun j _ => sum_pos (fun k _ => Real.exp_pos _) univ_nonempty) ?_
  exact nonempty_range_iff.mpr (Nat.pos_iff_ne_zero.mp hn)

theorem L_ne_zero {n : ℕ} (hn : 0 < n) [Nonempty κ] : L s μ n ≠ 0 :=
  (L_pos s μ hn).ne'

/-- The closed forms with an arbitrary shift `M` factored out. -/
theorem L_eq_mul (M : ℝ) (n : ℕ) :
    L s μ n = Real.exp (M - μ n) * ∑ j ∈ range n, ∑ k, Real.exp (s j k - M) := by
  rw [L_closed, mul_sum]
  refine sum_congr rfl fun j _ => ?_
  rw [mul_sum]
  exact sum_congr rfl fun k _ => (exp_rescale _ _ _).symm

theorem A_eq_mul (M : ℝ) (n : ℕ) :
    A s v μ n = Real.exp (M - μ n) * ∑ j ∈ range n, ∑ k, Real.exp (s j k - M) * v j k := by
  rw [A_closed, mul_sum]
  refine sum_congr rfl fun j _ => ?_
  rw [mul_sum]
  refine sum_congr rfl fun k _ => ?_
  rw [← mul_assoc, exp_rescale]

/-- **Online softmax is softmax.**  For every shift `M`, the quotient of the running numerator by
the running denominator after `n` tiles is the softmax-weighted average of the values of those
tiles, the weights written with the shift `M`.  (No positivity hypothesis is needed: when no lane
has been seen both sides are `0`.) -/
theorem quotient (M : ℝ) (n : ℕ) :
    A s v μ n / L s μ n
      = ∑ j ∈ range n, ∑ k,
          (Real.exp (s j k - M) / ∑ j' ∈ range n, ∑ k', Real.exp (s j' k' - M)) * v j k := by
  rw [A_eq_mul s v μ M, L_eq_mul s μ M, mul_div_mul_left _ _ (Real.exp_pos _).ne', sum_div]
  refine sum_congr rfl fun j _ => ?_
  rw [sum_div]
  exact sum_congr rfl fun k _ => (div_mul_eq_mul_div _ _ _).symm

end Recurrence

section Flat

variable {T Lk : ℕ}

/-- The flat key index `n * Lk + k` of lane `k` of tile `n`, among `T` tiles of `Lk` lanes. -/
def flat (n : Fin T) (k : Fin Lk) : Fin (T * Lk) :=
  ⟨n * Lk + k, by
    calc (n : ℕ) * Lk + k < n * Lk + Lk := Nat.add_lt_add_left k.2 _
      _ = (n + 1) * Lk := (Nat.succ_mul _ _).symm
      _ ≤ T * Lk := Nat.mul_le_mul_right _ n.2⟩

@[simp] theorem flat_val (n : Fin T) (k : Fin Lk) : (flat n k).val = n * Lk + k := rfl

theorem flat_eq_finProdFinEquiv (n : Fin T) (k : Fin Lk) : flat n k = finProdFinEquiv (n, k) := by
  apply Fin.ext
  simp only [flat_val, finProdFinEquiv_apply_val]
  rw [Nat.mul_comm, Nat.add_comm]

/-- A sum over tiles and lanes is a sum over the flat index. -/
theorem sum_flat {β : Type*} [AddCommMonoid β] (f : Fin (T * Lk) → β) :
    ∑ n : Fin T, ∑ k : Fin Lk, f (flat n k) = ∑ j, f j := by
  rw [← Equiv.sum_comp finProdFinEquiv f, Fintype.sum_prod_type]
  exact sum_congr rfl fun n _ => sum_congr rfl fun k _ => by rw [flat_eq_finProdFinEquiv]

/-- A sum over the first `T` tiles and their lanes is a sum over the flat index. -/
theorem sum_range_flat {β : Type*} [AddCommMonoid β] (g : ℕ → Fin Lk → β) (f : Fin (T * Lk) → β)
    (h : ∀ (n : Fin T) (k : Fin Lk), g n k = f (flat n k)) :
    ∑ n ∈ range T, ∑ k, g n k = ∑ j, f j := by
  rw [Finset.sum_range, ← sum_flat f]
  exact sum_congr rfl fun n _ => sum_congr rfl fun k _ => h n k

/-- **Online softmax is softmax, flat key index.**  If tile `n`, lane `k` holds the score and the
value of the key `n * Lk + k`, then after all `T` tiles the quotient of the running numerator by
the running denominator is the softmax-weighted average over all `T * Lk` keys, the weights
written with an arbitrary shift `M`. -/
theorem quotient_flat (s v : ℕ → Fin Lk → ℝ) (μ : ℕ → ℝ) (sc vv : Fin (T * Lk) → ℝ)
    (hs : ∀ (n : Fin T) (k : Fin Lk), s n k = sc (flat n k))
    (hv : ∀ (n : Fin T) (k : Fin Lk), v n k = vv (flat n k)) (M : ℝ) :
    A s v μ T / L s μ T
      = ∑ j, (Real.exp (sc j - M) / ∑ j', Real.exp (sc j' - M)) * vv j := by
  have hZ : ∑ j' ∈ range T, ∑ k', Real.exp (s j' k' - M) = ∑ j', Real.exp (sc j' - M) :=
    sum_range_flat _ (fun j => Real.exp (sc j - M)) fun n k => by rw [hs]
  rw [quotient s v μ M T, hZ]
  exact sum_range_flat _ (fun j => (Real.exp (sc j - M) / ∑ j', Real.exp (sc j' - M)) * vv j)
    fun n k => by rw [hs, hv]

/-- The same over `Fin N` with `T * Lk = N`: the form to instantiate at literal sizes. -/
theorem quotient_flat_cast {N : ℕ} (hN : T * Lk = N) (s v : ℕ → Fin Lk → ℝ) (μ : ℕ → ℝ)
    (sc vv : Fin N → ℝ)
    (hs : ∀ (n : Fin T) (k : Fin Lk), s n k = sc (Fin.cast hN (flat n k)))
    (hv : ∀ (n : Fin T) (k : Fin Lk), v n k = vv (Fin.cast hN (flat n k))) (M : ℝ) :
    A s v μ T / L s μ T
      = ∑ j : Fin N, (Real.exp (sc j - M) / ∑ j' : Fin N, Real.exp (sc j' - M)) * vv j := by
  subst hN
  exact quotient_flat s v μ sc vv hs hv M

/-- The same with the tiling hypotheses stated on the VALUE of the flat index, so that any way of
writing the key `n * Lk + k` as an element of `Fin N` can be used. -/
theorem quotient_flat_of_val {N : ℕ} (hN : T * Lk = N) (s v : ℕ → Fin Lk → ℝ) (μ : ℕ → ℝ)
    (sc vv : Fin N → ℝ)
    (hs : ∀ (n : Fin T) (k : Fin Lk) (j : Fin N), j.val = n * Lk + k → s n k = sc j)
    (hv : ∀ (n : Fin T) (k : Fin Lk) (j : Fin N), j.val = n * Lk + k → v n k = vv j) (M : ℝ) :
    A s v μ T / L s μ T
      = ∑ j : Fin N, (Real.exp (sc j - M) / ∑ j' : Fin N, Real.exp (sc j' - M)) * vv j :=
  quotient_flat_cast hN s v μ sc vv (fun n k => hs n k _ rfl) (fun n k => hv n k _ rfl) M

/-- The tiles of a flat array: tile `n`, lane `k` is the entry `n * Lk + k` (and `0` past the last
tile, where it is never read). -/
def tiles {N : ℕ} (hN : T * Lk = N) (f : Fin N → ℝ) (n : ℕ) (k : Fin Lk) : ℝ :=
  if h : n < T then f (Fin.cast hN (flat ⟨n, h⟩ k)) else 0

theorem tiles_apply {N : ℕ} (hN : T * Lk = N) (f : Fin N → ℝ) (n : Fin T) (k : Fin Lk) :
    tiles hN f n k = f (Fin.cast hN (flat n k)) := by
  simp [tiles, n.2]

/-- `quotient_flat_cast` for the tiles of two flat arrays. -/
theorem quotient_tiles {N : ℕ} (hN : T * Lk = N) (sc vv : Fin N → ℝ) (μ : ℕ → ℝ) (M : ℝ) :
    A (tiles hN sc) (tiles hN vv) μ T / L (tiles hN sc) μ T
      = ∑ j : Fin N, (Real.exp (sc j - M) / ∑ j' : Fin N, Real.exp (sc j' - M)) * vv j :=
  quotient_flat_cast hN _ _ μ sc vv (tiles_apply hN sc) (tiles_apply hN vv) M

end Flat

end OnlineSoftmax
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.AttnStepReal.lean ====
import proofs.«117829_j39676907888059_2_alg».proof.Proof.AttnPayload
import proofs.«117829_j39676907888059_2_alg».proof.Proof.LibOnlineSoftmax
import proofs.«117829_j39676907888059_2_alg».proof.Proof.LibERealCoe

/-!
# One tile of the attention body on the reals

When the blocks a tile's step reads and the state it carries are real numbers, every payload of the
step is a real number too, given by the same formula with the real exponential, the real `max` and
real sums.  Read for one query row `p` and one output column `d`, a tile's step is then exactly one
step of the online-softmax recurrence: the running maximum `μ`, the running denominator
`OnlineSoftmax.L` and the running numerator `OnlineSoftmax.A`, with the tile's scores and values as
the lanes.
-/

noncomputable section

namespace Cert.KernelIdeal.AttnStepReal

open Cert.KernelIdeal Cert.KernelIdeal.Gen Cert.KernelIdeal.AttnPayload
open Idealize.ShloMosaic Idealize.ShloMosaic.ValueIdx

/-- The lane maximum of finitely many reals, as extended reals: the supremum from `⊥` is the
coercion of the real maximum. -/
theorem sup_coe (f : Fin 512 → ℝ) :
    (Finset.univ.sup fun j : Fin 512 => ((f j : ℝ) : EReal))
      = ((Finset.univ.sup' Finset.univ_nonempty f : ℝ) : EReal) := by
  rw [ERealCoe.coe_sup', Finset.sup'_eq_sup]

/-- The running maximum of the scores seen so far: `μ₀` before the first tile, then the maximum of
the carried one and the tile's lane maximum. -/
def runMax (μ₀ : ℝ) (s : ℕ → Fin 512 → ℝ) : ℕ → ℝ
  | 0 => μ₀
  | n + 1 => max (runMax μ₀ s n) (Finset.univ.sup' Finset.univ_nonempty (s n))

@[simp] theorem runMax_zero (μ₀ : ℝ) (s : ℕ → Fin 512 → ℝ) : runMax μ₀ s 0 = μ₀ := rfl

theorem runMax_succ (μ₀ : ℝ) (s : ℕ → Fin 512 → ℝ) (n : ℕ) :
    runMax μ₀ s (n + 1) = max (runMax μ₀ s n) (Finset.univ.sup' Finset.univ_nonempty (s n)) := rfl

section Row

variable (v3 : Vec Ideal S1x1024x1024 .bf16) (v5 : Vec Ideal S1x512x1024 .bf16)
  (v11 : Vec Ideal S1x1024x512 .f32) (v14 : Vec Ideal S1024x1 .f32) (v23 : Vec Ideal S1024x1 .f32)
  (p : Fin 1024)

/-- A real score: the query row against the key over the features, plus the mask. -/
theorem pay8_coe (j : Fin 512) (q k : Fin 1024 → ℝ) (m : ℝ)
    (hq : ∀ e, v3 (ix3 0 p e) = ((q e : ℝ) : EReal)) (hk : ∀ e, v5 (ix3 0 j e) = ((k e : ℝ) : EReal))
    (hm : v11 (ix3 0 p j) = ((m : ℝ) : EReal)) :
    k1_pay8 (F := Ideal) v3 v5 v11 (ix2 p j) = (((∑ e, q e * k e) + m : ℝ) : EReal) := by
  rw [pay8_apply, hm, EReal.coe_add, ERealCoe.coe_sum]
  refine congrArg (· + ((m : ℝ) : EReal)) (Finset.sum_congr rfl fun e _ => ?_)
  rw [hq, hk, EReal.coe_mul]

variable (s : Fin 512 → ℝ) (hs : ∀ j, k1_pay8 (F := Ideal) v3 v5 v11 (ix2 p j) = ((s j : ℝ) : EReal))
  (μ : ℝ) (hμ : v14 (ix2 p 0) = ((μ : ℝ) : EReal))

include hs hμ

/-- The new running maximum is real: the carried one against the tile's real lane maximum. -/
theorem pay9_coe :
    k1_pay9 (F := Ideal) v3 v5 v11 v14 (ix2 p 0)
      = ((max μ (Finset.univ.sup' Finset.univ_nonempty s) : ℝ) : EReal) := by
  rw [pay9_apply, hμ, ERealCoe.coe_max, ← sup_coe]
  exact congrArg (max ((μ : ℝ) : EReal)) (congrArg Finset.univ.sup (funext hs))

/-- The rescaling factor of the carried state is the real exponential. -/
theorem pay10_coe :
    k1_pay10 (F := Ideal) v3 v5 v11 v14 (ix2 p 0)
      = ((Real.exp (μ - max μ (Finset.univ.sup' Finset.univ_nonempty s)) : ℝ) : EReal) := by
  rw [pay10_apply, pay9_coe v3 v5 v11 v14 p s hs μ hμ, hμ, ← EReal.coe_sub, Ideal.exp_coe]

/-- The tile's weights are real exponentials. -/
theorem pay11_coe (j : Fin 512) :
    k1_pay11 (F := Ideal) v3 v5 v11 v14 (ix2 p j)
      = ((Real.exp (s j - max μ (Finset.univ.sup' Finset.univ_nonempty s)) : ℝ) : EReal) := by
  rw [pay11_apply, pay9_coe v3 v5 v11 v14 p s hs μ hμ, hs, ← EReal.coe_sub, Ideal.exp_coe]

/-- The new running normaliser is real. -/
theorem pay12_coe (l : ℝ) (hl : v23 (ix2 p 0) = ((l : ℝ) : EReal)) :
    k1_pay12 (F := Ideal) v3 v5 v11 v14 v23 (ix2 p 0)
      = ((Real.exp (μ - max μ (Finset.univ.sup' Finset.univ_nonempty s)) * l
          + ∑ j, Real.exp (s j - max μ (Finset.univ.sup' Finset.univ_nonempty s)) : ℝ) : EReal) := by
  rw [pay12_apply, pay10_coe v3 v5 v11 v14 p s hs μ hμ, hl, EReal.coe_add, EReal.coe_mul,
    ERealCoe.coe_sum]
  exact congrArg _ (Finset.sum_congr rfl fun j _ => pay11_coe v3 v5 v11 v14 p s hs μ hμ j)

/-- The new accumulator is real, when the carried one and the tile's values are. -/
theorem pay1_coe (v8 : FVec Ideal S512x1024 .bf16) (v31 : Vec Ideal S1024x1024 .f32) (d : Fin 1024)
    (a : ℝ) (ha : v31 (ix2 p d) = ((a : ℝ) : EReal)) (w : Fin 512 → ℝ)
    (hw : ∀ j, v8 (ix2 j d) = ((w j : ℝ) : EReal)) :
    k1_pay1 (F := Ideal) v8 (k1_pay10 (F := Ideal) v3 v5 v11 v14) (k1_pay11 (F := Ideal) v3 v5 v11 v14)
        v31 (ix2 p d)
      = ((Real.exp (μ - max μ (Finset.univ.sup' Finset.univ_nonempty s)) * a
          + ∑ j, Real.exp (s j - max μ (Finset.univ.sup' Finset.univ_nonempty s)) * w j : ℝ) : EReal) := by
  rw [pay1_apply, pay10_coe v3 v5 v11 v14 p s hs μ hμ, ha, EReal.coe_add, EReal.coe_mul,
    ERealCoe.coe_sum]
  refine congrArg _ (Finset.sum_congr rfl fun j _ => ?_)
  rw [pay11_coe v3 v5 v11 v14 p s hs μ hμ j, hw, EReal.coe_mul]

end Row

/-! ## A tile's step is one step of the online-softmax recurrence -/

section Step

open OnlineSoftmax

variable (v3 : Vec Ideal S1x1024x1024 .bf16) (v5 : Vec Ideal S1x512x1024 .bf16)
  (v11 : Vec Ideal S1x1024x512 .f32) (v14 : Vec Ideal S1024x1 .f32) (v23 : Vec Ideal S1024x1 .f32)
  (p : Fin 1024) (μ₀ : ℝ) (s : ℕ → Fin 512 → ℝ) (n : ℕ)
  (hs : ∀ j, k1_pay8 (F := Ideal) v3 v5 v11 (ix2 p j) = ((s n j : ℝ) : EReal))
  (hμ : v14 (ix2 p 0) = ((runMax μ₀ s n : ℝ) : EReal))

include hs hμ

/-- Tile `n` takes the running maximum after `n` tiles to the one after `n + 1`. -/
theorem step_max :
    k1_pay9 (F := Ideal) v3 v5 v11 v14 (ix2 p 0) = ((runMax μ₀ s (n + 1) : ℝ) : EReal) :=
  pay9_coe v3 v5 v11 v14 p (s n) hs _ hμ

/-- Tile `n` takes the running denominator after `n` tiles to the one after `n + 1`. -/
theorem step_L (hl : v23 (ix2 p 0) = ((L s (runMax μ₀ s) n : ℝ) : EReal)) :
    k1_pay12 (F := Ideal) v3 v5 v11 v14 v23 (ix2 p 0) = ((L s (runMax μ₀ s) (n + 1) : ℝ) : EReal) :=
  pay12_coe v3 v5 v11 v14 v23 p (s n) hs _ hμ _ hl

/-- Tile `n` takes the running numerator of column `d` after `n` tiles to the one after `n + 1`. -/
theorem step_A (v8 : FVec Ideal S512x1024 .bf16) (v31 : Vec Ideal S1024x1024 .f32) (d : Fin 1024)
    (v : ℕ → Fin 512 → ℝ) (hv : ∀ j, v8 (ix2 j d) = ((v n j : ℝ) : EReal))
    (ha : v31 (ix2 p d) = ((A s v (runMax μ₀ s) n : ℝ) : EReal)) :
    k1_pay1 (F := Ideal) v8 (k1_pay10 (F := Ideal) v3 v5 v11 v14) (k1_pay11 (F := Ideal) v3 v5 v11 v14)
        v31 (ix2 p d)
      = ((A s v (runMax μ₀ s) (n + 1) : ℝ) : EReal) :=
  pay1_coe v3 v5 v11 v14 p (s n) hs _ hμ v8 v31 d _ ha (v n) hv

end Step

end Cert.KernelIdeal.AttnStepReal
-- ==== Proof.AttnSpec.lean ====
/-
  The attention specification over the reals, index by index: the fused projection qkv, its three column
  blocks (queries scaled by 1/32, keys, values), the masked scores, and the softmax-weighted values with an
  arbitrary shift M inside the exponentials.  The shift does not change the value (O_shift).
-/
import Idealize.ShloMosaic.PureOps.Ideal
import Idealize.ShloMosaic.Lib.ValueIdx
import Mathlib.Analysis.SpecialFunctions.Exp

noncomputable section

open scoped BigOperators

namespace AttnSpec

/-- Column of the fused projection holding query feature d. -/
def colQ (d : Fin 1024) : Fin 3072 := ⟨d.val, by have := d.isLt; omega⟩
/-- Column of the fused projection holding key feature d. -/
def colK (d : Fin 1024) : Fin 3072 := ⟨1024 + d.val, by have := d.isLt; omega⟩
/-- Column of the fused projection holding value feature d. -/
def colV (d : Fin 1024) : Fin 3072 := ⟨2048 + d.val, by have := d.isLt; omega⟩

variable (X : Fin 4 → Fin 4096 → Fin 1024 → ℝ) (Wt : Fin 1024 → Fin 3072 → ℝ) (Bs : Fin 3072 → ℝ)
  (Mk : Fin 4 → Fin 4096 → Fin 4096 → ℝ)

/-- The fused projection: x · W + b. -/
def qkv (b : Fin 4) (s : Fin 4096) (e : Fin 3072) : ℝ := (∑ d : Fin 1024, X b s d * Wt d e) + Bs e

/-- Queries, scaled by 1/32. -/
def Q (b : Fin 4) (s : Fin 4096) (d : Fin 1024) : ℝ := qkv X Wt Bs b s (colQ d) * (1 / 32)
/-- Keys. -/
def K (b : Fin 4) (s : Fin 4096) (d : Fin 1024) : ℝ := qkv X Wt Bs b s (colK d)
/-- Values. -/
def V (b : Fin 4) (s : Fin 4096) (d : Fin 1024) : ℝ := qkv X Wt Bs b s (colV d)

/-- Masked scores. -/
def S (b : Fin 4) (i j : Fin 4096) : ℝ := (∑ d : Fin 1024, Q X Wt Bs b i d * K X Wt Bs b j d) + Mk b i j

/-- Softmax-weighted values, the exponentials shifted by M. -/
def O (M : ℝ) (b : Fin 4) (i : Fin 4096) (d : Fin 1024) : ℝ :=
  ∑ j : Fin 4096, (Real.exp (S X Wt Bs Mk b i j - M) / ∑ j' : Fin 4096, Real.exp (S X Wt Bs Mk b i j' - M)) * V X Wt Bs b j d

/-- A quotient of shifted exponentials does not depend on the shift: exp (s - M) = exp (s - M') * exp (M' - M),
    and the common factor cancels. -/
theorem softmax_shift {ι : Type*} [Fintype ι] (s : ι → ℝ) (M M' : ℝ) (j : ι) :
    Real.exp (s j - M) / ∑ j', Real.exp (s j' - M) = Real.exp (s j - M') / ∑ j', Real.exp (s j' - M') := by
  have h : ∀ k, Real.exp (s k - M) = Real.exp (s k - M') * Real.exp (M' - M) := fun k => by
    rw [← Real.exp_add]; congr 1; ring
  simp only [h, ← Finset.sum_mul]
  exact mul_div_mul_right _ _ (Real.exp_ne_zero _)

/-- The softmax-weighted values do not depend on the shift. -/
theorem O_shift (M M' : ℝ) (b : Fin 4) (i : Fin 4096) (d : Fin 1024) :
    O X Wt Bs Mk M b i d = O X Wt Bs Mk M' b i d := by
  unfold O
  exact Finset.sum_congr rfl fun j _ => by rw [softmax_shift (fun j => S X Wt Bs Mk b i j) M M' j]

end AttnSpec
-- ==== Proof.AttnRowReal.lean ====
import proofs.«117829_j39676907888059_2_alg».proof.Proof.AttnStepReal
import proofs.«117829_j39676907888059_2_alg».proof.Proof.AttnStep
import proofs.«117829_j39676907888059_2_alg».proof.Proof.AttnSpec

/-!
# A whole query row over the eight key tiles, on the reals

The attention body visits the eight key tiles of a query block in order (the query block is
re-read at every tile; it holds the same row each time), carrying the running
maximum, the running normaliser and the running accumulator, and divides at the end.  When the query
row, the keys, the values and the mask it reads are real numbers, the entry it stores for query row
`p` and output column `d` is the softmax-weighted average of the values over all `4096` keys,
whatever shift `M` the exponentials are written with: the carried state after `n` tiles is the
state of the online-softmax recurrence, and the recurrence's quotient is the softmax average.
-/

noncomputable section

namespace Cert.KernelIdeal.AttnRowReal

open Cert.KernelIdeal Cert.KernelIdeal.Gen Cert.KernelIdeal.Attn
open Cert.KernelIdeal.AttnPayload Cert.KernelIdeal.AttnStepReal
open Idealize.ShloMosaic Idealize.ShloMosaic.ValueIdx
open OnlineSoftmax

/-- The carried state after key tile `n`, from the reset state, over the tiles `0, …, n`. -/
def run (qB : ℕ → Vec Ideal S1x1024x1024 .bf16) (kB vB : ℕ → Vec Ideal S1x512x1024 .bf16)
    (mB : ℕ → Vec Ideal S1x1024x512 .f32) : ℕ → Carry Ideal
  | 0 => step (qB 0) (kB 0) (vB 0) (mB 0) reset
  | n + 1 => step (qB (n + 1)) (kB (n + 1)) (vB (n + 1)) (mB (n + 1)) (run qB kB vB mB n)

/-- The carried state of row `p`, column `d`, is the online-softmax state after `n` tiles. -/
def Inv (p d : Fin 1024) (s v : ℕ → Fin 512 → ℝ) (c : Carry Ideal) (n : ℕ) : Prop :=
  c.1 (ix2 p 0) = ((runMax sentinel s n : ℝ) : EReal)
    ∧ c.2.1 (ix2 p 0) = ((L s (runMax sentinel s) n : ℝ) : EReal)
    ∧ c.2.2 (ix2 p d) = ((A s v (runMax sentinel s) n : ℝ) : EReal)

/-- The reset state is the state before any tile. -/
theorem inv_reset (p d : Fin 1024) (s v : ℕ → Fin 512 → ℝ) : Inv p d s v (reset (F := Ideal)) 0 :=
  ⟨pay4_apply_coe p, (pay5_apply p).trans EReal.coe_zero.symm, (pay6_apply p d).trans EReal.coe_zero.symm⟩

/-- One key tile takes the state after `n` tiles to the state after `n + 1`. -/
theorem inv_step (p d : Fin 1024) (s v : ℕ → Fin 512 → ℝ) (n : ℕ)
    (q : Vec Ideal S1x1024x1024 .bf16) (kk vv : Vec Ideal S1x512x1024 .bf16)
    (mk : Vec Ideal S1x1024x512 .f32) (c : Carry Ideal)
    (hs : ∀ j, k1_pay8 (F := Ideal) q kk mk (ix2 p j) = ((s n j : ℝ) : EReal))
    (hv : ∀ j, vv (ix3 0 j d) = ((v n j : ℝ) : EReal))
    (hc : Inv p d s v c n) : Inv p d s v (step q kk vv mk c) (n + 1) := by
  obtain ⟨hμ, hl, ha⟩ := hc
  refine ⟨?_, ?_, ?_⟩
  · show k1_pay2 (F := Ideal) (k1_pay9 (F := Ideal) q kk mk c.1) (ix2 p 0) = _
    rw [pay2_eq]
    exact step_max q kk mk c.1 p sentinel s n hs hμ
  · exact step_L q kk mk c.1 c.2.1 p sentinel s n hs hμ hl
  · exact step_A q kk mk c.1 p sentinel s n hs hμ (k1_pay7 (F := Ideal) vv) c.2.2 d v
      (fun j => (pay7_apply vv j d).trans (hv j)) ha

section Row

variable (qB : ℕ → Vec Ideal S1x1024x1024 .bf16) (kB vB : ℕ → Vec Ideal S1x512x1024 .bf16)
  (mB : ℕ → Vec Ideal S1x1024x512 .f32) (p d : Fin 1024)
  (qr : Fin 1024 → ℝ) (kr : Fin 4096 → Fin 1024 → ℝ) (vr mr : Fin 4096 → ℝ)
  (hq : ∀ (n : ℕ), n < 8 → ∀ e, qB n (ix3 0 p e) = ((qr e : ℝ) : EReal))
  (hk : ∀ (n : ℕ) (j : Fin 512) (J : Fin 4096), n < 8 → J.val = n * 512 + j.val →
    ∀ e, kB n (ix3 0 j e) = ((kr J e : ℝ) : EReal))
  (hv : ∀ (n : ℕ) (j : Fin 512) (J : Fin 4096), n < 8 → J.val = n * 512 + j.val →
    vB n (ix3 0 j d) = ((vr J : ℝ) : EReal))
  (hm : ∀ (n : ℕ) (j : Fin 512) (J : Fin 4096), n < 8 → J.val = n * 512 + j.val →
    mB n (ix3 0 p j) = ((mr J : ℝ) : EReal))

/-- The real score of the row against key `J`. -/
def score (qr : Fin 1024 → ℝ) (kr : Fin 4096 → Fin 1024 → ℝ) (mr : Fin 4096 → ℝ) (J : Fin 4096) : ℝ :=
  (∑ e, qr e * kr J e) + mr J

theorem h8 : 8 * 512 = 4096 := by norm_num

include hq hk hv hm

/-- After key tile `n` the carried state is the online-softmax state after `n + 1` tiles. -/
theorem inv_run (n : ℕ) (hn : n < 8) :
    Inv p d (tiles h8 (score qr kr mr)) (tiles h8 vr) (run qB kB vB mB n) (n + 1) := by
  have tile : ∀ (m : ℕ) (hm8 : m < 8) (c : Carry Ideal),
      Inv p d (tiles h8 (score qr kr mr)) (tiles h8 vr) c m →
      Inv p d (tiles h8 (score qr kr mr)) (tiles h8 vr) (step (qB m) (kB m) (vB m) (mB m) c) (m + 1) := by
    intro m hm8 c hc
    refine inv_step p d _ _ m (qB m) (kB m) (vB m) (mB m) c (fun j => ?_) (fun j => ?_) hc
    · rw [tiles_apply h8 (score qr kr mr) ⟨m, hm8⟩ j]
      exact pay8_coe (qB m) (kB m) (mB m) p j qr (kr _) (mr _) (hq m hm8) (hk m j _ hm8 rfl)
        (hm m j _ hm8 rfl)
    · rw [tiles_apply h8 vr ⟨m, hm8⟩ j]
      exact hv m j _ hm8 rfl
  induction n with
  | zero => exact tile 0 hn _ (inv_reset p d _ _)
  | succ n ih => exact tile (n + 1) hn _ (ih (by omega))

/-- **The stored entry is the softmax-weighted average over all keys**, for every shift `M`. -/
theorem finish_run (M : ℝ) :
    finish (run qB kB vB mB 7) (ix3 0 p d)
      = ((∑ J : Fin 4096, (Real.exp (score qr kr mr J - M)
            / ∑ J' : Fin 4096, Real.exp (score qr kr mr J' - M)) * vr J : ℝ) : EReal) := by
  obtain ⟨-, hl, ha⟩ := inv_run qB kB vB mB p d qr kr vr mr hq hk hv hm 7 (by norm_num)
  show k1_pay3 (F := Ideal) (run qB kB vB mB 7).2.2 (run qB kB vB mB 7).2.1 (ix3 0 p d) = _
  rw [pay3_apply_coe _ _ p d _ _ ha hl (L_ne_zero _ _ (by norm_num)),
    quotient_tiles h8 (score qr kr mr) vr _ M]

end Row

/-- The same against the attention specification: when the blocks hold the specification's
queries, keys, values and mask for batch `b` and query `i`, the stored entry is the specification's
output. -/
theorem finish_run_spec (X : Fin 4 → Fin 4096 → Fin 1024 → ℝ) (Wt : Fin 1024 → Fin 3072 → ℝ)
    (Bs : Fin 3072 → ℝ) (Mk : Fin 4 → Fin 4096 → Fin 4096 → ℝ) (b : Fin 4) (i : Fin 4096)
    (qB : ℕ → Vec Ideal S1x1024x1024 .bf16) (kB vB : ℕ → Vec Ideal S1x512x1024 .bf16)
    (mB : ℕ → Vec Ideal S1x1024x512 .f32) (p d : Fin 1024)
    (hq : ∀ (n : ℕ), n < 8 → ∀ e, qB n (ix3 0 p e) = ((AttnSpec.Q X Wt Bs b i e : ℝ) : EReal))
    (hk : ∀ (n : ℕ) (j : Fin 512) (J : Fin 4096), n < 8 → J.val = n * 512 + j.val →
      ∀ e, kB n (ix3 0 j e) = ((AttnSpec.K X Wt Bs b J e : ℝ) : EReal))
    (hv : ∀ (n : ℕ) (j : Fin 512) (J : Fin 4096), n < 8 → J.val = n * 512 + j.val →
      vB n (ix3 0 j d) = ((AttnSpec.V X Wt Bs b J d : ℝ) : EReal))
    (hm : ∀ (n : ℕ) (j : Fin 512) (J : Fin 4096), n < 8 → J.val = n * 512 + j.val →
      mB n (ix3 0 p j) = ((Mk b i J : ℝ) : EReal))
    (M : ℝ) :
    finish (run qB kB vB mB 7) (ix3 0 p d) = ((AttnSpec.O X Wt Bs Mk M b i d : ℝ) : EReal) :=
  finish_run qB kB vB mB p d (fun e => AttnSpec.Q X Wt Bs b i e) (fun J e => AttnSpec.K X Wt Bs b J e)
    (fun J => AttnSpec.V X Wt Bs b J d) (fun J => Mk b i J) hq hk hv hm M

end Cert.KernelIdeal.AttnRowReal
-- ==== Proof.AttnBlocks.lean ====
/-
  The attention region's windows read by coordinates.  The grid is (batch, query tile, key tile) = 4 × 4 × 8, walked in
  row-major order, so point t has batch t / 32, query tile t / 8 % 4 and key tile t % 8.  Each input window's block at a
  point is a box of its array: 1024 query rows, 512 key (or value) rows, the 1024 × 512 box of the mask.  The output
  window's block is the box of 1024 query rows; it is written back at the last key tile of each query tile, and those
  boxes cover the whole output array.
-/
import proofs.«117829_j39676907888059_2_alg».proof.Proof.AttnFrame
import Idealize.ShloMosaic.Lib.Pipeline.Value
import Idealize.ShloMosaic.Lib.ValueIdx

noncomputable section

namespace Cert.KernelIdeal.Attn

open Cert.KernelIdeal Cert.KernelIdeal.Gen
open Idealize.ShloMosaic Idealize.ShloMosaic.TcCoe Idealize.ShloMosaic.ValueIdx Idealize.SL.Sem

variable {F : FTy → Type} [FloatOps F]

/-- The printed index maps, decided over the grid: the block index of each window on each axis, as a function of the
    point's position. -/
theorem idx_facts1 : ∀ t : Fin cfg1.N,
    win1_0.index t (0 : Fin 3) = t.val / 32 ∧ win1_0.index t (1 : Fin 3) = t.val / 8 % 4 ∧ win1_0.index t (2 : Fin 3) = 0
    ∧ win1_1.index t (0 : Fin 3) = t.val / 32 ∧ win1_1.index t (1 : Fin 3) = t.val % 8 ∧ win1_1.index t (2 : Fin 3) = 0
    ∧ win1_2.index t (0 : Fin 3) = t.val / 32 ∧ win1_2.index t (1 : Fin 3) = t.val % 8 ∧ win1_2.index t (2 : Fin 3) = 0
    ∧ win1_3.index t (0 : Fin 3) = t.val / 32 ∧ win1_3.index t (1 : Fin 3) = t.val / 8 % 4 ∧ win1_3.index t (2 : Fin 3) = t.val % 8
    ∧ win1_4.index t (0 : Fin 3) = t.val / 32 ∧ win1_4.index t (1 : Fin 3) = t.val / 8 % 4 ∧ win1_4.index t (2 : Fin 3) = 0 :=
  (by decide +kernel : ∀ t : Fin grid1.N, _)

/-- The grid has 128 points. -/
theorem N1_eq : cfg1.N = 128 := by decide

section Region1
variable (V : (c : Dev nD) → (b : Ref sig .tc) → Buf (Elt F) ((c : Thread nD τ).loc b))

/-- The query block at point `t`: row `p`, feature `e` is the query array at batch `t / 32`, row
    `1024 · (t / 8 % 4) + p`, feature `e`. -/
theorem qblk_apply (c : Dev nD) (t : Fin cfg1.N) (p e : Fin 1024) (i : S4x4096x1024.Idx)
    (h0 : (i 0).val = t.val / 32) (h1 : (i 1).val = 1024 * (t.val / 8 % 4) + p.val) (h2 : (i 2).val = e.val) :
    iblk1 V c 0 t (ix3 0 p e) = V c main_v4 i := by
  obtain ⟨e0, e1, e2, -⟩ := idx_facts1 t
  show V c main_v4 (((cfg1.win 0).blk t).view.emb (ix3 0 p e)) = V c main_v4 i
  refine congrArg (V c main_v4) ?_
  funext a; apply Fin.ext
  match a with
  | ⟨0, _⟩ => show win1_0.index t (0 : Fin 3) * 1 + 1 * 0 = (i 0).val; omega
  | ⟨1, _⟩ => show win1_0.index t (1 : Fin 3) * 1024 + 1 * p.val = (i 1).val; omega
  | ⟨2, _⟩ => show win1_0.index t (2 : Fin 3) * 1024 + 1 * e.val = (i 2).val; omega

/-- The key block at point `t`: key `j`, feature `e` is the key array at batch `t / 32`, row `512 · (t % 8) + j`,
    feature `e`. -/
theorem kblk_apply (c : Dev nD) (t : Fin cfg1.N) (j : Fin 512) (e : Fin 1024) (i : S4x4096x1024.Idx)
    (h0 : (i 0).val = t.val / 32) (h1 : (i 1).val = 512 * (t.val % 8) + j.val) (h2 : (i 2).val = e.val) :
    iblk1 V c 1 t (ix3 0 j e) = V c main_v5 i := by
  obtain ⟨-, -, -, e0, e1, e2, -⟩ := idx_facts1 t
  show V c main_v5 (((cfg1.win 1).blk t).view.emb (ix3 0 j e)) = V c main_v5 i
  refine congrArg (V c main_v5) ?_
  funext a; apply Fin.ext
  match a with
  | ⟨0, _⟩ => show win1_1.index t (0 : Fin 3) * 1 + 1 * 0 = (i 0).val; omega
  | ⟨1, _⟩ => show win1_1.index t (1 : Fin 3) * 512 + 1 * j.val = (i 1).val; omega
  | ⟨2, _⟩ => show win1_1.index t (2 : Fin 3) * 1024 + 1 * e.val = (i 2).val; omega

/-- The value block at point `t`: key `j`, column `d` is the value array at batch `t / 32`, row `512 · (t % 8) + j`,
    column `d`. -/
theorem vblk_apply (c : Dev nD) (t : Fin cfg1.N) (j : Fin 512) (d : Fin 1024) (i : S4x4096x1024.Idx)
    (h0 : (i 0).val = t.val / 32) (h1 : (i 1).val = 512 * (t.val % 8) + j.val) (h2 : (i 2).val = d.val) :
    iblk1 V c 2 t (ix3 0 j d) = V c main_v6 i := by
  obtain ⟨-, -, -, -, -, -, e0, e1, e2, -⟩ := idx_facts1 t
  show V c main_v6 (((cfg1.win 2).blk t).view.emb (ix3 0 j d)) = V c main_v6 i
  refine congrArg (V c main_v6) ?_
  funext a; apply Fin.ext
  match a with
  | ⟨0, _⟩ => show win1_2.index t (0 : Fin 3) * 1 + 1 * 0 = (i 0).val; omega
  | ⟨1, _⟩ => show win1_2.index t (1 : Fin 3) * 512 + 1 * j.val = (i 1).val; omega
  | ⟨2, _⟩ => show win1_2.index t (2 : Fin 3) * 1024 + 1 * d.val = (i 2).val; omega

/-- The mask block at point `t`: row `p`, key `j` is the mask at batch `t / 32`, row `1024 · (t / 8 % 4) + p`, key
    `512 · (t % 8) + j`. -/
theorem mblk_apply (c : Dev nD) (t : Fin cfg1.N) (p : Fin 1024) (j : Fin 512) (i : S4x4096x4096.Idx)
    (h0 : (i 0).val = t.val / 32) (h1 : (i 1).val = 1024 * (t.val / 8 % 4) + p.val)
    (h2 : (i 2).val = 512 * (t.val % 8) + j.val) :
    iblk1 V c 3 t (ix3 0 p j) = V c main_arg2 i := by
  obtain ⟨-, -, -, -, -, -, -, -, -, e0, e1, e2, -⟩ := idx_facts1 t
  show V c main_arg2 (((cfg1.win 3).blk t).view.emb (ix3 0 p j)) = V c main_arg2 i
  refine congrArg (V c main_arg2) ?_
  funext a; apply Fin.ext
  match a with
  | ⟨0, _⟩ => show win1_3.index t (0 : Fin 3) * 1 + 1 * 0 = (i 0).val; omega
  | ⟨1, _⟩ => show win1_3.index t (1 : Fin 3) * 1024 + 1 * p.val = (i 1).val; omega
  | ⟨2, _⟩ => show win1_3.index t (2 : Fin 3) * 512 + 1 * j.val = (i 2).val; omega

end Region1

/-- Where the output block of point `t` sits in the output array: entry `y` of the block is batch `t / 32`, row
    `1024 · (t / 8 % 4) + y 1`, column `y 2`. -/
theorem oblk_emb (t : Fin cfg1.N) (y : S1x1024x1024.Idx) :
    ((((cfg1.win 4).blk t).view.emb y) 0).val = t.val / 32
      ∧ ((((cfg1.win 4).blk t).view.emb y) 1).val = 1024 * (t.val / 8 % 4) + (y 1).val
      ∧ ((((cfg1.win 4).blk t).view.emb y) 2).val = (y 2).val := by
  obtain ⟨-, -, -, -, -, -, -, -, -, -, -, -, e0, e1, e2⟩ := idx_facts1 t
  have hy0 : (y 0).val < 1 := (y 0).isLt
  refine ⟨?_, ?_, ?_⟩
  · show win1_4.index t (0 : Fin 3) * 1 + 1 * (y 0).val = _; omega
  · show win1_4.index t (1 : Fin 3) * 1024 + 1 * (y 1).val = _; omega
  · show win1_4.index t (2 : Fin 3) * 1024 + 1 * (y 2).val = _; omega

/-- An index of the output array is in point `t`'s block iff each coordinate is in the block's range on its axis. -/
theorem mem_blk4 (t : Fin cfg1.N) (i : S4x4096x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v7).slice (win1_4.rect t)).set ↔ _
  rw [View.set_slice_whole, Rect.mem_set_unit]
  exact Iff.rfl

/-- Every index of the output array is in the block some point writes back: the last key tile of the index's batch
    and query tile. -/
theorem cover4 (i : S4x4096x1024.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 1024 := (i 2).isLt
  let t : Fin cfg1.N := ⟨32 * (i 0).val + 8 * ((i 1).val / 1024) + 7, by rw [N1_eq]; omega⟩
  have hv : t.val = 32 * (i 0).val + 8 * ((i 1).val / 1024) + 7 := rfl
  obtain ⟨-, -, -, -, -, -, -, -, -, -, -, -, e0, e1, e2⟩ := idx_facts1 t
  refine ⟨t, (flush1_4 t).mpr (by omega), ?_⟩
  rw [mem_blk4]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 1024 ≤ (i 1).val ∧ (i 1).val < win1_4.index t (1 : Fin 3) * 1024 + 1024
    omega
  | ⟨2, _⟩ =>
    show win1_4.index t (2 : Fin 3) * 1024 ≤ (i 2).val ∧ (i 2).val < win1_4.index t (2 : Fin 3) * 1024 + 1024
    omega

end Cert.KernelIdeal.Attn
-- ==== Proof.AttnArray.lean ====
/-
  The attention region's result array. Along each (batch, query tile) pair's eight grid points the carried buffers are
  the eight-tile online update over the points' blocks; the blocks are rows of the query, key, value and mask arrays;
  the block stored at the last key tile is the accumulator over the normaliser; and those blocks tile the result.
  With real-valued entry arrays the result is therefore the specification's softmax-weighted sum, entry by entry.
-/
import proofs.«117829_j39676907888059_2_alg».proof.Proof.AttnCarry
import proofs.«117829_j39676907888059_2_alg».proof.Proof.AttnRowReal
import proofs.«117829_j39676907888059_2_alg».proof.Proof.AttnBlocks
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.KernelIdeal.AttnRowReal

section
variable (V : (c : Dev nD) → (b : Ref sig .tc) → Buf (Elt Ideal) ((c : Thread nD τ).loc b))

/-- Grid point `n` of group `g`: the groups are the (batch, query tile) pairs, a group's eight points its key tiles. -/
def pt (g n : ℕ) : Fin cfg1.N := ⟨(8 * g + n) % 128, lt_of_lt_of_eq (Nat.mod_lt _ (by norm_num)) (show (128 : ℕ) = cfg1.N from N_1.symm)⟩

theorem pt_val {g n : ℕ} (hg : g < 16) (hn : n < 8) : (pt g n).val = 8 * g + n := by
  show (8 * g + n) % 128 = 8 * g + n
  exact Nat.mod_eq_of_lt (by omega)

/-- Along a group's eight points the three carried buffers are the eight-tile run over the points' blocks. -/
theorem carried_run (c : Dev nD) (g : ℕ) (hg : g < 16) : ∀ n, n < 8 →
    carried V c (pt g n) = run (fun n => iblk1 V c 0 (pt g n)) (fun n => iblk1 V c 1 (pt g n))
      (fun n => iblk1 V c 2 (pt g n)) (fun n => iblk1 V c 3 (pt g n)) n
  | 0, _ => by
    rw [carried_first V c (pt g 0) (by rw [pt_val hg (by norm_num)]; omega)]
    rfl
  | n + 1, hn => by
    rw [carried_next V c (pt g (n + 1)) (by rw [pt_val hg hn]; omega)]
    have hp : (⟨(pt g (n + 1)).val - 1, Nat.lt_of_le_of_lt (Nat.sub_le _ _) (pt g (n + 1)).isLt⟩ : Fin cfg1.N) = pt g n :=
      Fin.ext (by show (pt g (n + 1)).val - 1 = (pt g n).val; rw [pt_val hg hn, pt_val hg (by omega)]; omega)
    rw [hp, carried_run c g hg n (by omega)]
    rfl

/-- THE RESULT ARRAY. When the attention region is entered with the query, key, value and mask arrays holding real
    numbers — the scaled queries Q, the keys K, the values V of the specification and the mask —, the array its
    write-backs leave is, entry by entry, the softmax-weighted sum of the specification: the eight key tiles' online
    update is the whole row's softmax, and the finite sentinel the running maximum starts from only shifts the exponent. -/
theorem attn_array (c : Dev nD) (X : Fin 4 → Fin 4096 → Fin 1024 → ℝ) (Wt : Fin 1024 → Fin 3072 → ℝ) (Bs : Fin 3072 → ℝ)
    (Mk : Fin 4 → Fin 4096 → Fin 4096 → ℝ) (M : ℝ)
    (hQ : ∀ i : S4x4096x1024.Idx, (V c main_v4 i : EReal) = ((AttnSpec.Q X Wt Bs (i 0) (i 1) (i 2) : ℝ) : EReal))
    (hK : ∀ i : S4x4096x1024.Idx, (V c main_v5 i : EReal) = ((AttnSpec.K X Wt Bs (i 0) (i 1) (i 2) : ℝ) : EReal))
    (hV : ∀ i : S4x4096x1024.Idx, (V c main_v6 i : EReal) = ((AttnSpec.V X Wt Bs (i 0) (i 1) (i 2) : ℝ) : EReal))
    (hM : ∀ i : S4x4096x4096.Idx, (V c main_arg2 i : EReal) = ((Mk (i 0) (i 1) (i 2) : ℝ) : EReal)) :
    (dat1 (F := Ideal) V c).arrAt 4 cfg1.N = fun i : S4x4096x1024.Idx => ((AttnSpec.O X Wt Bs Mk M (i 0) (i 1) (i 2) : ℝ) : EReal) := by
  refine (dat1 (F := Ideal) V c).arrAt_eq_of_cover 4 _ (fun t hf => ?_) cover4
  have h7 : t.val % 8 = 7 := (flush1_4 t).mp hf
  have hN : t.val < 128 := lt_of_lt_of_eq t.isLt (show cfg1.N = 128 from N_1)
  obtain ⟨g, hg, rfl⟩ : ∃ g, g < 16 ∧ t = pt g 7 :=
    ⟨t.val / 8, by omega, Fin.ext (by rw [pt_val (by omega) (by norm_num)]; omega)⟩
  show (cfg1.win 4).cut (grid1.coords (pt g 7)) ((dat1 (F := Ideal) V c).after 4 (pt g 7)) = _
  rw [after1_4, out_last V c (pt g 7) h7, carried_run V c g hg 7 (by norm_num)]
  refine funext fun (y : S1x1024x1024.Idx) => ?_
  obtain ⟨e0, e1, e2⟩ := oblk_emb (pt g 7) y
  rw [pt_val hg (by norm_num)] at e0 e1
  have hy : y = ix3 (0 : Fin 1) (y 1) (y 2) :=
    (eq_ix3 y).trans (congrArg (fun a : Fin 1 => ix3 a (y 1) (y 2)) (show (y 0 : Fin 1) = (0 : Fin 1) from Fin.ext (Nat.lt_one_iff.mp (show (y 0 : Fin 1).val < 1 from (y 0 : Fin 1).isLt))))
  have hd : ((cfg1.win 4).blk (pt g 7)).view.emb y 2 = y 2 := Fin.ext e2
  have key := finish_run_spec X Wt Bs Mk (((cfg1.win 4).blk (pt g 7)).view.emb y 0) (((cfg1.win 4).blk (pt g 7)).view.emb y 1)
    (fun n => iblk1 V c 0 (pt g n)) (fun n => iblk1 V c 1 (pt g n)) (fun n => iblk1 V c 2 (pt g n)) (fun n => iblk1 V c 3 (pt g n))
    (y 1) (y 2)
    (fun n hn e => (qblk_apply V c (pt g n) (y 1) e (ix3 (((cfg1.win 4).blk (pt g 7)).view.emb y 0) (((cfg1.win 4).blk (pt g 7)).view.emb y 1) e)
        (by show (((cfg1.win 4).blk (pt g 7)).view.emb y 0).val = _; rw [pt_val hg hn]; omega)
        (by show (((cfg1.win 4).blk (pt g 7)).view.emb y 1).val = _; rw [pt_val hg hn]; omega) rfl).trans (hQ _))
    (fun n j J hn hJ e => (kblk_apply V c (pt g n) j e (ix3 (((cfg1.win 4).blk (pt g 7)).view.emb y 0) J e)
        (by show (((cfg1.win 4).blk (pt g 7)).view.emb y 0).val = _; rw [pt_val hg hn]; omega)
        (by show J.val = _; rw [pt_val hg hn]; omega) rfl).trans (hK _))
    (fun n j J hn hJ => (vblk_apply V c (pt g n) j (y 2) (ix3 (((cfg1.win 4).blk (pt g 7)).view.emb y 0) J (y 2))
        (by show (((cfg1.win 4).blk (pt g 7)).view.emb y 0).val = _; rw [pt_val hg hn]; omega)
        (by show J.val = _; rw [pt_val hg hn]; omega) rfl).trans (hV _))
    (fun n j J hn hJ => (mblk_apply V c (pt g n) (y 1) j (ix3 (((cfg1.win 4).blk (pt g 7)).view.emb y 0) (((cfg1.win 4).blk (pt g 7)).view.emb y 1) J)
        (by show (((cfg1.win 4).blk (pt g 7)).view.emb y 0).val = _; rw [pt_val hg hn]; omega)
        (by show (((cfg1.win 4).blk (pt g 7)).view.emb y 1).val = _; rw [pt_val hg hn]; omega)
        (by show J.val = _; rw [pt_val hg hn]; omega)).trans (hM _))
    M
  calc finish (run (fun n => iblk1 V c 0 (pt g n)) (fun n => iblk1 V c 1 (pt g n)) (fun n => iblk1 V c 2 (pt g n)) (fun n => iblk1 V c 3 (pt g n)) 7) y
      = finish (run (fun n => iblk1 V c 0 (pt g n)) (fun n => iblk1 V c 1 (pt g n)) (fun n => iblk1 V c 2 (pt g n)) (fun n => iblk1 V c 3 (pt g n)) 7) (ix3 (0 : Fin 1) (y 1) (y 2)) :=
        congrArg _ hy
    _ = ((AttnSpec.O X Wt Bs Mk M (((cfg1.win 4).blk (pt g 7)).view.emb y 0) (((cfg1.win 4).blk (pt g 7)).view.emb y 1) (y 2) : ℝ) : EReal) := key
    _ = ((AttnSpec.O X Wt Bs Mk M (((cfg1.win 4).blk (pt g 7)).view.emb y 0) (((cfg1.win 4).blk (pt g 7)).view.emb y 1) (((cfg1.win 4).blk (pt g 7)).view.emb y 2) : ℝ) : EReal) := by rw [hd]

end

end Cert.KernelIdeal.Attn

end
-- ==== Proof.ProjPay.lean ====
/-
  The projection body's arithmetic read at one element, at the ideal instance (a float is an extended real):
  x·W + b at (p, q) is the sum over the contraction index e of x(p, e)·W(e, q), plus the bias b(0, q);
  the q, k and v payloads are its three column thirds, the first one scaled by the literal 1/32.
-/
import proofs.«117829_j39676907888059_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjValue

open Cert.KernelIdeal Cert.KernelIdeal.Gen
open Idealize.ShloMosaic Idealize.ShloMosaic.ValueIdx
open scoped BigOperators

/-! ## The contraction's index maps: the left operand is read at (row, e), the right at (e, column) -/

theorem lhs_row (i : S1024x3072.Idx) (k : dot_S1024x1024_S1024x3072_S1024x3072_1_0_0_1_n_n.contr.Idx) :
    (dot_S1024x1024_S1024x3072_S1024x3072_1_0_0_1_n_n.lhsIdx i k 0).val = (i 0).val := by
  unfold DotDims.lhsIdx
  rw [dif_neg (show ¬(0 : Fin S1024x1024.rank) ∈ dot_S1024x1024_S1024x3072_S1024x3072_1_0_0_1_n_n.lhsBatch by decide),
    dif_pos (show (0 : Fin S1024x1024.rank) ∈ dot_S1024x1024_S1024x3072_S1024x3072_1_0_0_1_n_n.lhsNonContracting by decide)]
  rfl
theorem lhs_contr (i : S1024x3072.Idx) (k : dot_S1024x1024_S1024x3072_S1024x3072_1_0_0_1_n_n.contr.Idx) :
    (dot_S1024x1024_S1024x3072_S1024x3072_1_0_0_1_n_n.lhsIdx i k 1).val = (k ⟨0, by decide⟩).val :=
  dot_S1024x1024_S1024x3072_S1024x3072_1_0_0_1_n_n.lhsIdx_val_of_single rfl i k
theorem rhs_contr (i : S1024x3072.Idx) (k : dot_S1024x1024_S1024x3072_S1024x3072_1_0_0_1_n_n.contr.Idx) :
    (dot_S1024x1024_S1024x3072_S1024x3072_1_0_0_1_n_n.rhsIdx i k 0).val = (k ⟨0, by decide⟩).val :=
  dot_S1024x1024_S1024x3072_S1024x3072_1_0_0_1_n_n.rhsIdx_val_of_single rfl i k
theorem rhs_col (i : S1024x3072.Idx) (k : dot_S1024x1024_S1024x3072_S1024x3072_1_0_0_1_n_n.contr.Idx) :
    (dot_S1024x1024_S1024x3072_S1024x3072_1_0_0_1_n_n.rhsIdx i k 1).val = (i 1).val := by
  unfold DotDims.rhsIdx
  rw [dif_neg (show ¬(1 : Fin S1024x3072.rank) ∈ dot_S1024x1024_S1024x3072_S1024x3072_1_0_0_1_n_n.rhsBatch by decide),
    dif_pos (show (1 : Fin S1024x3072.rank) ∈ dot_S1024x1024_S1024x3072_S1024x3072_1_0_0_1_n_n.rhsNonContracting by decide)]
  rfl

/-- The product into a zero accumulator, at (p, q): the sum over e of x(p, e)·w(e, q). -/
theorem matmul_apply (x : FVec Ideal S1024x1024 .bf16) (w : FVec Ideal S1024x3072 .bf16) (p : Fin 1024) (q : Fin 3072) :
    matmul (F := Ideal) dot_S1024x1024_S1024x3072_S1024x3072_1_0_0_1_n_n none x w (constant S1024x3072 .f32 0x00000000#32) (ix2 p q)
      = ∑ e : Fin 1024, x (ix2 p e) * w (ix2 e q) := by
  refine (Ideal.matmul_constant_zero_apply dot_S1024x1024_S1024x3072_S1024x3072_1_0_0_1_n_n none x w (ix2 p q)).trans ?_
  rw [← Equiv.sum_comp (contrEquiv1 dot_S1024x1024_S1024x3072_S1024x3072_1_0_0_1_n_n 1024 rfl rfl).symm]
  refine Finset.sum_congr rfl fun e _ => ?_
  have he := contrEquiv1_symm_val dot_S1024x1024_S1024x3072_S1024x3072_1_0_0_1_n_n 1024 rfl rfl e
  have el : dot_S1024x1024_S1024x3072_S1024x3072_1_0_0_1_n_n.lhsIdx (ix2 p q)
      ((contrEquiv1 dot_S1024x1024_S1024x3072_S1024x3072_1_0_0_1_n_n 1024 rfl rfl).symm e) = ix2 p e :=
    funext fun a => Fin.ext (by
      match a with
      | ⟨0, _⟩ => exact lhs_row _ _
      | ⟨1, _⟩ => exact (lhs_contr _ _).trans he)
  have er : dot_S1024x1024_S1024x3072_S1024x3072_1_0_0_1_n_n.rhsIdx (ix2 p q)
      ((contrEquiv1 dot_S1024x1024_S1024x3072_S1024x3072_1_0_0_1_n_n 1024 rfl rfl).symm e) = ix2 e q :=
    funext fun a => Fin.ext (by
      match a with
      | ⟨0, _⟩ => exact (rhs_contr _ _).trans he
      | ⟨1, _⟩ => exact rhs_col _ _)
  rw [el, er]

/-! ## The payloads at an index -/

/-- x·W + b at (p, q). -/
theorem pay1_apply (x : S1024x1024.Idx → EReal) (w : S1024x3072.Idx → EReal) (b : S1x3072.Idx → EReal)
    (p : Fin 1024) (q : Fin 3072) :
    k0_pay1 (F := Ideal) x w b (ix2 p q) = (∑ e : Fin 1024, x (ix2 p e) * w (ix2 e q)) + b (ix2 (0 : Fin 1) q) := by
  unfold k0_pay1
  simp only [shapeCast_self]
  refine (addf_apply _ _ _).trans ?_
  rw [matmul_apply, broadcastTo_1b_ab_apply]
  rfl

/-- The q payload at (p, q): the first column third of x·W + b, scaled by the literal 1/32. -/
theorem pay2_apply (x : S1024x1024.Idx → EReal) (w : S1024x3072.Idx → EReal) (b : S1x3072.Idx → EReal)
    (p q : Fin 1024) (k : Fin 3072) (hk : k.val = q.val) :
    k0_pay2 (F := Ideal) x w b (ix2 p q)
      = ((∑ e : Fin 1024, x (ix2 p e) * w (ix2 e k)) + b (ix2 (0 : Fin 1) k)) * Ideal.ofBits .f32 0x3D000000#32 := by
  unfold k0_pay2
  show extractStridedSlice S1024x1024 ![0, 0] (k0_pay1 (F := Ideal) x w b) slices_S1024x3072_o0_0_S1024x1024 (ix2 p q)
    * Ideal.ofBits .f32 0x3D000000#32 = _
  rw [slice2_axis1_apply 0 (k0_pay1 (F := Ideal) x w b) slices_S1024x3072_o0_0_S1024x1024 p q k (by omega), pay1_apply]

/-- The k payload at (p, q): the middle column third of x·W + b. -/
theorem pay3_apply (x : S1024x1024.Idx → EReal) (w : S1024x3072.Idx → EReal) (b : S1x3072.Idx → EReal)
    (p q : Fin 1024) (k : Fin 3072) (hk : k.val = 1024 + q.val) :
    k0_pay3 (F := Ideal) x w b (ix2 p q) = (∑ e : Fin 1024, x (ix2 p e) * w (ix2 e k)) + b (ix2 (0 : Fin 1) k) := by
  unfold k0_pay3
  show extractStridedSlice S1024x1024 ![0, 1024] (k0_pay1 (F := Ideal) x w b) slices_S1024x3072_o0_1024_S1024x1024 (ix2 p q) = _
  rw [slice2_axis1_apply 1024 (k0_pay1 (F := Ideal) x w b) slices_S1024x3072_o0_1024_S1024x1024 p q k hk, pay1_apply]

/-- The v payload at (p, q): the last column third of x·W + b. -/
theorem pay4_apply (x : S1024x1024.Idx → EReal) (w : S1024x3072.Idx → EReal) (b : S1x3072.Idx → EReal)
    (p q : Fin 1024) (k : Fin 3072) (hk : k.val = 2048 + q.val) :
    k0_pay4 (F := Ideal) x w b (ix2 p q) = (∑ e : Fin 1024, x (ix2 p e) * w (ix2 e k)) + b (ix2 (0 : Fin 1) k) := by
  unfold k0_pay4
  show extractStridedSlice S1024x1024 ![0, 2048] (k0_pay1 (F := Ideal) x w b) slices_S1024x3072_o0_2048_S1024x1024 (ix2 p q) = _
  rw [slice2_axis1_apply 2048 (k0_pay1 (F := Ideal) x w b) slices_S1024x3072_o0_2048_S1024x1024 p q k hk, pay1_apply]

end Cert.KernelIdeal.ProjValue

end
-- ==== Proof.ProjValue.lean ====
/-
  The projection region's three result arrays, as functions of its three argument arrays, at the ideal instance:
  row r of q, k, v is the row r of x times the weight, plus the bias, cut into column thirds, the first third scaled by 1/32.
  The grid's point t writes rows 1024 t … 1024 t + 1023; the 16 points cover all 16384 rows.
-/
import proofs.«117829_j39676907888059_2_alg».proof.Proof.ProjFrame
import proofs.«117829_j39676907888059_2_alg».proof.Proof.ProjPay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjValue

open Cert.KernelIdeal Cert.KernelIdeal.Gen Cert.KernelIdeal.Proj
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-! ## The three results as functions of x, W and b -/

/-- q: the first column third of x·W + b, scaled by 1/32. -/
abbrev specQ (X : S16384x1024.Idx → EReal) (Wb : S1024x3072.Idx → EReal) (Bv : S1x3072.Idx → EReal) : S16384x1024.Idx → EReal :=
  fun i => ((∑ e : Fin 1024, X (ix2 (i 0) e) * Wb (ix2 e ⟨(i 1).val, by have := idx2_lt1 i; omega⟩))
    + Bv (ix2 0 ⟨(i 1).val, by have := idx2_lt1 i; omega⟩)) * Ideal.ofBits .f32 0x3D000000#32
/-- k: the middle column third of x·W + b. -/
abbrev specK (X : S16384x1024.Idx → EReal) (Wb : S1024x3072.Idx → EReal) (Bv : S1x3072.Idx → EReal) : S16384x1024.Idx → EReal :=
  fun i => (∑ e : Fin 1024, X (ix2 (i 0) e) * Wb (ix2 e ⟨1024 + (i 1).val, by have := idx2_lt1 i; omega⟩))
    + Bv (ix2 0 ⟨1024 + (i 1).val, by have := idx2_lt1 i; omega⟩)
/-- v: the last column third of x·W + b. -/
abbrev specV (X : S16384x1024.Idx → EReal) (Wb : S1024x3072.Idx → EReal) (Bv : S1x3072.Idx → EReal) : S16384x1024.Idx → EReal :=
  fun i => (∑ e : Fin 1024, X (ix2 (i 0) e) * Wb (ix2 e ⟨2048 + (i 1).val, by have := idx2_lt1 i; omega⟩))
    + Bv (ix2 0 ⟨2048 + (i 1).val, by have := idx2_lt1 i; omega⟩)

/-! ## One point's payloads against the specification, over any block contents -/

theorem q_point (x : S1024x1024.Idx → EReal) (w : S1024x3072.Idx → EReal) (b : S1x3072.Idx → EReal)
    (X : S16384x1024.Idx → EReal) (Wb : S1024x3072.Idx → EReal) (Bv : S1x3072.Idx → EReal) (t : Nat)
    (hx : ∀ (p e : Fin 1024) (r : Fin 16384), r.val = 1024 * t + p.val → x (ix2 p e) = X (ix2 r e)) (hw : w = Wb) (hb : b = Bv)
    (p q : Fin 1024) (r : Fin 16384) (hr : r.val = 1024 * t + p.val) :
    k0_pay2 (F := Ideal) x w b (ix2 p q) = specQ X Wb Bv (ix2 r q) := by
  subst hw hb
  refine (pay2_apply x w b p q ⟨q.val, by omega⟩ rfl).trans ?_
  simp only [hx p _ r hr]

theorem k_point (x : S1024x1024.Idx → EReal) (w : S1024x3072.Idx → EReal) (b : S1x3072.Idx → EReal)
    (X : S16384x1024.Idx → EReal) (Wb : S1024x3072.Idx → EReal) (Bv : S1x3072.Idx → EReal) (t : Nat)
    (hx : ∀ (p e : Fin 1024) (r : Fin 16384), r.val = 1024 * t + p.val → x (ix2 p e) = X (ix2 r e)) (hw : w = Wb) (hb : b = Bv)
    (p q : Fin 1024) (r : Fin 16384) (hr : r.val = 1024 * t + p.val) :
    k0_pay3 (F := Ideal) x w b (ix2 p q) = specK X Wb Bv (ix2 r q) := by
  subst hw hb
  refine (pay3_apply x w b p q ⟨1024 + q.val, by omega⟩ rfl).trans ?_
  simp only [hx p _ r hr]

theorem v_point (x : S1024x1024.Idx → EReal) (w : S1024x3072.Idx → EReal) (b : S1x3072.Idx → EReal)
    (X : S16384x1024.Idx → EReal) (Wb : S1024x3072.Idx → EReal) (Bv : S1x3072.Idx → EReal) (t : Nat)
    (hx : ∀ (p e : Fin 1024) (r : Fin 16384), r.val = 1024 * t + p.val → x (ix2 p e) = X (ix2 r e)) (hw : w = Wb) (hb : b = Bv)
    (p q : Fin 1024) (r : Fin 16384) (hr : r.val = 1024 * t + p.val) :
    k0_pay4 (F := Ideal) x w b (ix2 p q) = specV X Wb Bv (ix2 r q) := by
  subst hw hb
  refine (pay4_apply x w b p q ⟨2048 + q.val, by omega⟩ rfl).trans ?_
  simp only [hx p _ r hr]

/-! ## The printed index maps over the grid -/

/-- x and the three results move down one block of rows per point; the weight and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 16 := lt_of_lt_of_eq t.isLt N_0

/-! ## The input blocks, read off the arrays the region is entered with -/

section Region
variable (V : (c : Dev nD) → (b : Ref sig .tc) → Buf (Elt Ideal) ((c : Thread nD τ).loc b))

/-- The x block at point t is rows 1024 t … 1024 t + 1023 of x. -/
theorem xblk_apply (c : Dev nD) (t : Fin cfg0.N) (p e : Fin 1024) (r : Fin 16384) (hr : r.val = 1024 * t.val + p.val) :
    (iblk0 V c 0 t : S1024x1024.Idx → EReal) (ix2 p e) = (V c main_v0 : S16384x1024.Idx → EReal) (ix2 r e) := by
  obtain ⟨h0, h1, -⟩ := idx_facts t
  show (V c main_v0 : S16384x1024.Idx → EReal) (((cfg0.win 0).blk t).view.emb (ix2 p e)) = _
  congr 1
  funext a
  apply Fin.ext
  match a with
  | ⟨0, _⟩ => show win0_0.index t (0 : Fin 2) * 1024 + 1 * p.val = r.val; rw [h0, hr]; omega
  | ⟨1, _⟩ => show win0_0.index t (1 : Fin 2) * 1024 + 1 * e.val = e.val; rw [h1]; omega

/-- The weight block at every point is the whole weight. -/
theorem wblk_eq (c : Dev nD) (t : Fin cfg0.N) :
    (iblk0 V c 1 t : S1024x3072.Idx → EReal) = (V c main_v1 : S1024x3072.Idx → EReal) := by
  obtain ⟨-, -, h0, h1, -⟩ := idx_facts t
  funext y
  show (V c main_v1 : S1024x3072.Idx → EReal) (((cfg0.win 1).blk t).view.emb y) = _
  congr 1
  funext a
  apply Fin.ext
  match a with
  | ⟨0, _⟩ => show win0_1.index t (0 : Fin 2) * 1024 + 1 * (y 0).val = (y 0).val; rw [h0]; omega
  | ⟨1, _⟩ => show win0_1.index t (1 : Fin 2) * 3072 + 1 * (y 1).val = (y 1).val; rw [h1]; omega

/-- The bias block at every point is the whole bias row. -/
theorem bblk_eq (c : Dev nD) (t : Fin cfg0.N) :
    (iblk0 V c 2 t : S1x3072.Idx → EReal) = (V c main_v2 : S1x3072.Idx → EReal) := by
  obtain ⟨-, -, -, -, h0, h1, -⟩ := idx_facts t
  funext y
  show (V c main_v2 : S1x3072.Idx → EReal) (((cfg0.win 2).blk t).view.emb y) = _
  congr 1
  funext a
  apply Fin.ext
  match a with
  | ⟨0, _⟩ => show win0_2.index t (0 : Fin 2) * 1 + 1 * (y 0).val = (y 0).val; rw [h0]; omega
  | ⟨1, _⟩ => show win0_2.index t (1 : Fin 2) * 3072 + 1 * (y 1).val = (y 1).val; rw [h1]; omega

end Region

/-! ## From a point's block to the array: the write-back's block, and the cover -/

/-- A block of the q window, written back at point t, is rows 1024 t … of the array it is cut from. -/
theorem cut3_eq (t : Fin cfg0.N) (P : S1024x1024.Idx → EReal) (G : S16384x1024.Idx → EReal)
    (h : ∀ (p q : Fin 1024) (r : Fin 16384), r.val = 1024 * t.val + p.val → P (ix2 p q) = G (ix2 r q)) :
    (cfg0.win 3).cut (grid0.coords t) P = ((cfg0.win 3).blk t).view.read (Elt Ideal) G := by
  obtain ⟨-, -, -, -, -, -, h0, h1, -⟩ := idx_facts t
  have ht := point_lt t
  funext j
  have hj0 : (j 0).val < 1024 := (j 0).isLt
  have hj1 : (j 1).val < 1024 := (j 1).isLt
  show P ((cfg0.win 3).xinj (grid0.coords t) j) = G (((cfg0.win 3).blk t).view.emb j)
  have e1 : (cfg0.win 3).xinj (grid0.coords t) j = ix2 (⟨(j 0).val, hj0⟩ : Fin 1024) (⟨(j 1).val, hj1⟩ : Fin 1024) :=
    funext fun a => match a with | ⟨0, _⟩ => rfl | ⟨1, _⟩ => rfl
  have e2 : ((cfg0.win 3).blk t).view.emb j
      = ix2 (⟨1024 * t.val + (j 0).val, by omega⟩ : Fin 16384) (⟨(j 1).val, hj1⟩ : Fin 1024) :=
    funext fun a => Fin.ext (by
      match a with
      | ⟨0, _⟩ => show win0_3.index t (0 : Fin 2) * 1024 + 1 * (j 0).val = 1024 * t.val + (j 0).val; rw [h0]; omega
      | ⟨1, _⟩ => show win0_3.index t (1 : Fin 2) * 1024 + 1 * (j 1).val = (j 1).val; rw [h1]; omega)
  rw [e1, e2]
  exact h _ _ _ rfl

/-- An index of the q array is in point t's block iff each coordinate is in the block's range on its axis. -/
theorem mem_blk3 (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3_0).slice (win0_3.rect t)).set ↔ _
  rw [View.set_slice_whole, Rect.mem_set_unit]
  exact Iff.rfl

/-- Row r of the q array is written back by point r / 1024. -/
theorem cover3 (i : S16384x1024.Idx) :
    ∃ t : Fin cfg0.N, (cfg0.win 3).flush t = true ∧ i ∈ ((cfg0.win 3).blk t).view.set := by
  have hi0 : (i 0).val < 16384 := idx2_lt0 i
  have hi1 : (i 1).val < 1024 := idx2_lt1 i
  have hN : cfg0.N = 16 := N_0
  have hlt : (i 0).val / 1024 < cfg0.N := by rw [hN]; omega
  obtain ⟨-, -, -, -, -, -, h0, h1, -⟩ := idx_facts ⟨(i 0).val / 1024, hlt⟩
  replace h0 : win0_3.index ⟨(i 0).val / 1024, hlt⟩ (0 : Fin 2) = (i 0).val / 1024 := h0
  refine ⟨⟨(i 0).val / 1024, hlt⟩, flush0_3 _, ?_⟩
  rw [mem_blk3]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [h0]; omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    rw [h1]; omega

/-- A block of the k window, written back at point t, is rows 1024 t … of the array it is cut from. -/
theorem cut4_eq (t : Fin cfg0.N) (P : S1024x1024.Idx → EReal) (G : S16384x1024.Idx → EReal)
    (h : ∀ (p q : Fin 1024) (r : Fin 16384), r.val = 1024 * t.val + p.val → P (ix2 p q) = G (ix2 r q)) :
    (cfg0.win 4).cut (grid0.coords t) P = ((cfg0.win 4).blk t).view.read (Elt Ideal) G := by
  obtain ⟨-, -, -, -, -, -, -, -, h0, h1, -⟩ := idx_facts t
  have ht := point_lt t
  funext j
  have hj0 : (j 0).val < 1024 := (j 0).isLt
  have hj1 : (j 1).val < 1024 := (j 1).isLt
  show P ((cfg0.win 4).xinj (grid0.coords t) j) = G (((cfg0.win 4).blk t).view.emb j)
  have e1 : (cfg0.win 4).xinj (grid0.coords t) j = ix2 (⟨(j 0).val, hj0⟩ : Fin 1024) (⟨(j 1).val, hj1⟩ : Fin 1024) :=
    funext fun a => match a with | ⟨0, _⟩ => rfl | ⟨1, _⟩ => rfl
  have e2 : ((cfg0.win 4).blk t).view.emb j
      = ix2 (⟨1024 * t.val + (j 0).val, by omega⟩ : Fin 16384) (⟨(j 1).val, hj1⟩ : Fin 1024) :=
    funext fun a => Fin.ext (by
      match a with
      | ⟨0, _⟩ => show win0_4.index t (0 : Fin 2) * 1024 + 1 * (j 0).val = 1024 * t.val + (j 0).val; rw [h0]; omega
      | ⟨1, _⟩ => show win0_4.index t (1 : Fin 2) * 1024 + 1 * (j 1).val = (j 1).val; rw [h1]; omega)
  rw [e1, e2]
  exact h _ _ _ rfl

/-- An index of the k array is in point t's block iff each coordinate is in the block's range on its axis. -/
theorem mem_blk4 (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3_1).slice (win0_4.rect t)).set ↔ _
  rw [View.set_slice_whole, Rect.mem_set_unit]
  exact Iff.rfl

/-- Row r of the k array is written back by point r / 1024. -/
theorem cover4 (i : S16384x1024.Idx) :
    ∃ t : Fin cfg0.N, (cfg0.win 4).flush t = true ∧ i ∈ ((cfg0.win 4).blk t).view.set := by
  have hi0 : (i 0).val < 16384 := idx2_lt0 i
  have hi1 : (i 1).val < 1024 := idx2_lt1 i
  have hN : cfg0.N = 16 := N_0
  have hlt : (i 0).val / 1024 < cfg0.N := by rw [hN]; omega
  obtain ⟨-, -, -, -, -, -, -, -, h0, h1, -⟩ := idx_facts ⟨(i 0).val / 1024, hlt⟩
  replace h0 : win0_4.index ⟨(i 0).val / 1024, hlt⟩ (0 : Fin 2) = (i 0).val / 1024 := h0
  refine ⟨⟨(i 0).val / 1024, hlt⟩, flush0_4 _, ?_⟩
  rw [mem_blk4]
  intro a
  match a with
  | ⟨0, _⟩ =>
    show win0_4.index ⟨(i 0).val / 1024, hlt⟩ (0 : Fin 2) * 1024 ≤ (i 0).val
      ∧ (i 0).val < win0_4.index ⟨(i 0).val / 1024, hlt⟩ (0 : Fin 2) * 1024 + 1024
    rw [h0]; omega
  | ⟨1, _⟩ =>
    show win0_4.index ⟨(i 0).val / 1024, hlt⟩ (1 : Fin 2) * 1024 ≤ (i 1).val
      ∧ (i 1).val < win0_4.index ⟨(i 0).val / 1024, hlt⟩ (1 : Fin 2) * 1024 + 1024
    rw [h1]; omega

/-- A block of the v window, written back at point t, is rows 1024 t … of the array it is cut from. -/
theorem cut5_eq (t : Fin cfg0.N) (P : S1024x1024.Idx → EReal) (G : S16384x1024.Idx → EReal)
    (h : ∀ (p q : Fin 1024) (r : Fin 16384), r.val = 1024 * t.val + p.val → P (ix2 p q) = G (ix2 r q)) :
    (cfg0.win 5).cut (grid0.coords t) P = ((cfg0.win 5).blk t).view.read (Elt Ideal) G := by
  obtain ⟨-, -, -, -, -, -, -, -, -, -, h0, h1⟩ := idx_facts t
  have ht := point_lt t
  funext j
  have hj0 : (j 0).val < 1024 := (j 0).isLt
  have hj1 : (j 1).val < 1024 := (j 1).isLt
  show P ((cfg0.win 5).xinj (grid0.coords t) j) = G (((cfg0.win 5).blk t).view.emb j)
  have e1 : (cfg0.win 5).xinj (grid0.coords t) j = ix2 (⟨(j 0).val, hj0⟩ : Fin 1024) (⟨(j 1).val, hj1⟩ : Fin 1024) :=
    funext fun a => match a with | ⟨0, _⟩ => rfl | ⟨1, _⟩ => rfl
  have e2 : ((cfg0.win 5).blk t).view.emb j
      = ix2 (⟨1024 * t.val + (j 0).val, by omega⟩ : Fin 16384) (⟨(j 1).val, hj1⟩ : Fin 1024) :=
    funext fun a => Fin.ext (by
      match a with
      | ⟨0, _⟩ => show win0_5.index t (0 : Fin 2) * 1024 + 1 * (j 0).val = 1024 * t.val + (j 0).val; rw [h0]; omega
      | ⟨1, _⟩ => show win0_5.index t (1 : Fin 2) * 1024 + 1 * (j 1).val = (j 1).val; rw [h1]; omega)
  rw [e1, e2]
  exact h _ _ _ rfl

/-- An index of the v array is in point t's block iff each coordinate is in the block's range on its axis. -/
theorem mem_blk5 (t : Fin cfg0.N) (i : S16384x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v3_2).slice (win0_5.rect t)).set ↔ _
  rw [View.set_slice_whole, Rect.mem_set_unit]
  exact Iff.rfl

/-- Row r of the v array is written back by point r / 1024. -/
theorem cover5 (i : S16384x1024.Idx) :
    ∃ t : Fin cfg0.N, (cfg0.win 5).flush t = true ∧ i ∈ ((cfg0.win 5).blk t).view.set := by
  have hi0 : (i 0).val < 16384 := idx2_lt0 i
  have hi1 : (i 1).val < 1024 := idx2_lt1 i
  have hN : cfg0.N = 16 := N_0
  have hlt : (i 0).val / 1024 < cfg0.N := by rw [hN]; omega
  obtain ⟨-, -, -, -, -, -, -, -, -, -, h0, h1⟩ := idx_facts ⟨(i 0).val / 1024, hlt⟩
  replace h0 : win0_5.index ⟨(i 0).val / 1024, hlt⟩ (0 : Fin 2) = (i 0).val / 1024 := h0
  refine ⟨⟨(i 0).val / 1024, hlt⟩, flush0_5 _, ?_⟩
  rw [mem_blk5]
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    rw [h0]; omega
  | ⟨1, _⟩ =>
    show win0_5.index ⟨(i 0).val / 1024, hlt⟩ (1 : Fin 2) * 1024 ≤ (i 1).val
      ∧ (i 1).val < win0_5.index ⟨(i 0).val / 1024, hlt⟩ (1 : Fin 2) * 1024 + 1024
    rw [h1]; omega

/-! ## The arrays after the region -/

section Region
variable (V : (c : Dev nD) → (b : Ref sig .tc) → Buf (Elt Ideal) ((c : Thread nD τ).loc b))

/-- What point t writes back to q is rows 1024 t … of `specQ` of the arrays as the region finds them. -/
theorem flushedQ_eq (c : Dev nD) (t : Fin cfg0.N) :
    (dat0 (F := Ideal) V c).flushed 3 t
      = ((cfg0.win 3).blk t).view.read (Elt Ideal) (specQ (V c main_v0) (V c main_v1) (V c main_v2)) := by
  show (cfg0.win 3).cut (grid0.coords t) ((dat0 V c).after 3 t) = _
  rw [after0_3]
  unfold outQ
  rw [View.canon_unit_zero hz]
  simp only [View.ld_unit_zero (S := S1024x1024) hz, View.ld_unit_zero (S := S1024x3072) hz, View.ld_unit_zero (S := S1x3072) hz]
  exact cut3_eq t _ _ fun p q r hr =>
    q_point (iblk0 V c 0 t) (iblk0 V c 1 t) (iblk0 V c 2 t) (V c main_v0) (V c main_v1) (V c main_v2) t.val
      (fun p e r h => xblk_apply V c t p e r h) (wblk_eq V c t) (bblk_eq V c t) p q r hr

/-- What point t writes back to k is rows 1024 t … of `specK`. -/
theorem flushedK_eq (c : Dev nD) (t : Fin cfg0.N) :
    (dat0 (F := Ideal) V c).flushed 4 t
      = ((cfg0.win 4).blk t).view.read (Elt Ideal) (specK (V c main_v0) (V c main_v1) (V c main_v2)) := by
  show (cfg0.win 4).cut (grid0.coords t) ((dat0 V c).after 4 t) = _
  rw [after0_4]
  unfold outK
  rw [View.canon_unit_zero hz]
  simp only [View.ld_unit_zero (S := S1024x1024) hz, View.ld_unit_zero (S := S1024x3072) hz, View.ld_unit_zero (S := S1x3072) hz]
  exact cut4_eq t _ _ fun p q r hr =>
    k_point (iblk0 V c 0 t) (iblk0 V c 1 t) (iblk0 V c 2 t) (V c main_v0) (V c main_v1) (V c main_v2) t.val
      (fun p e r h => xblk_apply V c t p e r h) (wblk_eq V c t) (bblk_eq V c t) p q r hr

/-- What point t writes back to v is rows 1024 t … of `specV`. -/
theorem flushedV_eq (c : Dev nD) (t : Fin cfg0.N) :
    (dat0 (F := Ideal) V c).flushed 5 t
      = ((cfg0.win 5).blk t).view.read (Elt Ideal) (specV (V c main_v0) (V c main_v1) (V c main_v2)) := by
  show (cfg0.win 5).cut (grid0.coords t) ((dat0 V c).after 5 t) = _
  rw [after0_5]
  unfold outV
  rw [View.canon_unit_zero hz]
  simp only [View.ld_unit_zero (S := S1024x1024) hz, View.ld_unit_zero (S := S1024x3072) hz, View.ld_unit_zero (S := S1x3072) hz]
  exact cut5_eq t _ _ fun p q r hr =>
    v_point (iblk0 V c 0 t) (iblk0 V c 1 t) (iblk0 V c 2 t) (V c main_v0) (V c main_v1) (V c main_v2) t.val
      (fun p e r h => xblk_apply V c t p e r h) (wblk_eq V c t) (bblk_eq V c t) p q r hr

/-- THE q ARRAY after the region: the first column third of x·W + b, scaled by 1/32. -/
theorem projQ (c : Dev nD) :
    (dat0 (F := Ideal) V c).arrAt 3 cfg0.N = specQ (V c main_v0) (V c main_v1) (V c main_v2) :=
  (dat0 V c).arrAt_eq_of_cover 3 (specQ (V c main_v0) (V c main_v1) (V c main_v2)) (fun t _ => flushedQ_eq V c t) cover3

/-- THE k ARRAY after the region: the middle column third of x·W + b. -/
theorem projK (c : Dev nD) :
    (dat0 (F := Ideal) V c).arrAt 4 cfg0.N = specK (V c main_v0) (V c main_v1) (V c main_v2) :=
  (dat0 V c).arrAt_eq_of_cover 4 (specK (V c main_v0) (V c main_v1) (V c main_v2)) (fun t _ => flushedK_eq V c t) cover4

/-- THE v ARRAY after the region: the last column third of x·W + b. -/
theorem projV (c : Dev nD) :
    (dat0 (F := Ideal) V c).arrAt 5 cfg0.N = specV (V c main_v0) (V c main_v1) (V c main_v2) :=
  (dat0 V c).arrAt_eq_of_cover 5 (specV (V c main_v0) (V c main_v1) (V c main_v2)) (fun t _ => flushedV_eq V c t) cover5

end Region

end Cert.KernelIdeal.ProjValue

end
-- ==== Proof.HostValue.lean ====
/-
  The host operations around the projection region, at the ideal instance: the arrays the projection is entered with are
  the arguments reshaped (x as 16384 rows, the bias as one row) and the weight unchanged in value; the arrays the attention
  region is entered with are the projection's q, k, v reshaped back to [4, 4096, 1024], and the mask as launched.
  With real arguments, these are the specification's queries, keys and values, index by index.
-/
import proofs.«117829_j39676907888059_2_alg».proof.Proof.Whole
import proofs.«117829_j39676907888059_2_alg».proof.Proof.ProjValue
import proofs.«117829_j39676907888059_2_alg».proof.Proof.AttnSpec
import proofs.«117829_j39676907888059_2_alg».proof.Proof.LibERealCoe
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostValue

open Cert.KernelIdeal Cert.KernelIdeal.Gen Cert.KernelIdeal.Proj Cert.KernelIdeal.Whole Cert.KernelIdeal.ProjValue
open Idealize.ShloMosaic Idealize.ShloMosaic.TcCoe Idealize.SL.Sem Idealize.ShloMosaic.ValueIdx
open scoped BigOperators

/-! ## The two reshapes read at an index: row r of [16384, 1024] is (r / 4096, r % 4096) of [4, 4096, 1024] -/

theorem flat_apply {α : Type} (x : S4x4096x1024.Idx → α) (h : S4x4096x1024.ShapeCasts S16384x1024)
    (r : Fin 16384) (e : Fin 1024) (b : Fin 4) (s : Fin 4096) (hr : r.val = 4096 * b.val + s.val) :
    shapeCast S16384x1024 x h (ix2 r e) = x (ix3 b s e) :=
  shapeCast_apply x h _ _ (by
    rw [Shape.rowMajor_val_three, Shape.rowMajor_val_two]
    show (b.val * 4096 + s.val) * 1024 + e.val = r.val * 1024 + e.val
    omega)

theorem unflat_apply {α : Type} (x : S16384x1024.Idx → α) (h : S16384x1024.ShapeCasts S4x4096x1024)
    (b : Fin 4) (s : Fin 4096) (e : Fin 1024) (r : Fin 16384) (hr : r.val = 4096 * b.val + s.val) :
    shapeCast S4x4096x1024 x h (ix3 b s e) = x (ix2 r e) :=
  shapeCast_apply x h _ _ (by
    rw [Shape.rowMajor_val_three, Shape.rowMajor_val_two]
    show r.val * 1024 + e.val = (b.val * 4096 + s.val) * 1024 + e.val
    omega)

/-- The literal the queries are scaled by is 1/32. -/
theorem ofBits_scale : Ideal.ofBits .f32 0x3D000000#32 = (((1 / 32 : ℝ) : ℝ) : EReal) := by
  simp [Ideal.ofBits, Ideal.ieee, -EReal.coe_mul]
  norm_num

/-! ## The projection's results at real arguments are the specification's queries, keys and values -/

theorem specQ_real (X1 : S16384x1024.Idx → EReal) (W1 : S1024x3072.Idx → EReal) (B1 : S1x3072.Idx → EReal)
    (X : Fin 4 → Fin 4096 → Fin 1024 → ℝ) (Wt : Fin 1024 → Fin 3072 → ℝ) (Bs : Fin 3072 → ℝ)
    (b : Fin 4) (s : Fin 4096) (r : Fin 16384)
    (hx : ∀ e : Fin 1024, X1 (ix2 r e) = ((X b s e : ℝ) : EReal))
    (hw : ∀ (e : Fin 1024) (k : Fin 3072), W1 (ix2 e k) = ((Wt e k : ℝ) : EReal))
    (hb : ∀ k : Fin 3072, B1 (ix2 (0 : Fin 1) k) = ((Bs k : ℝ) : EReal)) (d : Fin 1024) :
    specQ X1 W1 B1 (ix2 r d) = ((AttnSpec.Q X Wt Bs b s d : ℝ) : EReal) := by
  show ((∑ e : Fin 1024, X1 (ix2 r e) * W1 (ix2 e ⟨d.val, _⟩)) + B1 (ix2 (0 : Fin 1) ⟨d.val, _⟩))
    * Ideal.ofBits .f32 0x3D000000#32 = _
  simp only [hx, hw, hb]
  rw [ofBits_scale]
  unfold AttnSpec.Q AttnSpec.qkv
  rw [EReal.coe_mul, EReal.coe_add, ERealCoe.coe_sum]
  simp only [EReal.coe_mul]
  rfl

theorem specK_real (X1 : S16384x1024.Idx → EReal) (W1 : S1024x3072.Idx → EReal) (B1 : S1x3072.Idx → EReal)
    (X : Fin 4 → Fin 4096 → Fin 1024 → ℝ) (Wt : Fin 1024 → Fin 3072 → ℝ) (Bs : Fin 3072 → ℝ)
    (b : Fin 4) (s : Fin 4096) (r : Fin 16384)
    (hx : ∀ e : Fin 1024, X1 (ix2 r e) = ((X b s e : ℝ) : EReal))
    (hw : ∀ (e : Fin 1024) (k : Fin 3072), W1 (ix2 e k) = ((Wt e k : ℝ) : EReal))
    (hb : ∀ k : Fin 3072, B1 (ix2 (0 : Fin 1) k) = ((Bs k : ℝ) : EReal)) (d : Fin 1024) :
    specK X1 W1 B1 (ix2 r d) = ((AttnSpec.K X Wt Bs b s d : ℝ) : EReal) := by
  show (∑ e : Fin 1024, X1 (ix2 r e) * W1 (ix2 e ⟨1024 + d.val, _⟩)) + B1 (ix2 (0 : Fin 1) ⟨1024 + d.val, _⟩) = _
  simp only [hx, hw, hb]
  unfold AttnSpec.K AttnSpec.qkv
  rw [EReal.coe_add, ERealCoe.coe_sum]
  simp only [EReal.coe_mul]
  rfl

theorem specV_real (X1 : S16384x1024.Idx → EReal) (W1 : S1024x3072.Idx → EReal) (B1 : S1x3072.Idx → EReal)
    (X : Fin 4 → Fin 4096 → Fin 1024 → ℝ) (Wt : Fin 1024 → Fin 3072 → ℝ) (Bs : Fin 3072 → ℝ)
    (b : Fin 4) (s : Fin 4096) (r : Fin 16384)
    (hx : ∀ e : Fin 1024, X1 (ix2 r e) = ((X b s e : ℝ) : EReal))
    (hw : ∀ (e : Fin 1024) (k : Fin 3072), W1 (ix2 e k) = ((Wt e k : ℝ) : EReal))
    (hb : ∀ k : Fin 3072, B1 (ix2 (0 : Fin 1) k) = ((Bs k : ℝ) : EReal)) (d : Fin 1024) :
    specV X1 W1 B1 (ix2 r d) = ((AttnSpec.V X Wt Bs b s d : ℝ) : EReal) := by
  show (∑ e : Fin 1024, X1 (ix2 r e) * W1 (ix2 e ⟨2048 + d.val, _⟩)) + B1 (ix2 (0 : Fin 1) ⟨2048 + d.val, _⟩) = _
  simp only [hx, hw, hb]
  unfold AttnSpec.V AttnSpec.qkv
  rw [EReal.coe_add, ERealCoe.coe_sum]
  simp only [EReal.coe_mul]
  rfl

section Host
variable (m : (ℓ : Loc nD τ sig) → Buf (Elt Ideal) ℓ) (ρ : Dev nD → PrngReg)

/-! ## The projection region's entry contents -/

theorem V1_x (c : Dev nD) : (V1 m ρ c main_v0 : S16384x1024.Idx → EReal)
    = shapeCast S16384x1024 (m ((c : Thread nD τ).loc main_arg0) : S4x4096x1024.Idx → EReal) shapeCasts_S4x4096x1024_S16384x1024 := by
  show StableHlo.after hostOps0 (W0 m ρ c) (Proc.devRef .tc main_v0) = _
  after_results
  rfl

theorem V1_w (c : Dev nD) : (V1 m ρ c main_v1 : S1024x3072.Idx → EReal)
    = (m ((c : Thread nD τ).loc main_arg3) : S1024x3072.Idx → EReal) := by
  show StableHlo.after hostOps0 (W0 m ρ c) (Proc.devRef .tc main_v1) = _
  after_results
  rfl

theorem V1_b (c : Dev nD) : (V1 m ρ c main_v2 : S1x3072.Idx → EReal)
    = shapeCast S1x3072 (m ((c : Thread nD τ).loc main_arg4) : S3072.Idx → EReal) shapeCasts_S3072_S1x3072 := by
  show StableHlo.after hostOps0 (W0 m ρ c) (Proc.devRef .tc main_v2) = _
  after_results
  rfl

/-! ## The attention region's entry contents: the projection's results reshaped back, the mask as launched -/

theorem V3_q (c : Dev nD) : (V3 m ρ c main_v4 : S4x4096x1024.Idx → EReal)
    = shapeCast S4x4096x1024 (specQ (V1 m ρ c main_v0) (V1 m ρ c main_v1) (V1 m ρ c main_v2)) shapeCasts_S16384x1024_S4x4096x1024 := by
  have e : (V3 m ρ c main_v4 : S4x4096x1024.Idx → EReal)
      = shapeCast S4x4096x1024 (W2 m ρ c (Proc.devRef .tc main_v3_0) : S16384x1024.Idx → EReal) shapeCasts_S16384x1024_S4x4096x1024 := by
    show StableHlo.after hostOps1 (W2 m ρ c) (Proc.devRef .tc main_v4) = _
    after_results
    rfl
  rw [e, show W2 m ρ c (Proc.devRef .tc main_v3_0) = (dat0 (V1 m ρ) c).arrAt 3 cfg0.N from W2_arr m ρ c 3, projQ]

theorem V3_k (c : Dev nD) : (V3 m ρ c main_v5 : S4x4096x1024.Idx → EReal)
    = shapeCast S4x4096x1024 (specK (V1 m ρ c main_v0) (V1 m ρ c main_v1) (V1 m ρ c main_v2)) shapeCasts_S16384x1024_S4x4096x1024 := by
  have e : (V3 m ρ c main_v5 : S4x4096x1024.Idx → EReal)
      = shapeCast S4x4096x1024 (W2 m ρ c (Proc.devRef .tc main_v3_1) : S16384x1024.Idx → EReal) shapeCasts_S16384x1024_S4x4096x1024 := by
    show StableHlo.after hostOps1 (W2 m ρ c) (Proc.devRef .tc main_v5) = _
    after_results
    rfl
  rw [e, show W2 m ρ c (Proc.devRef .tc main_v3_1) = (dat0 (V1 m ρ) c).arrAt 4 cfg0.N from W2_arr m ρ c 4, projK]

theorem V3_v (c : Dev nD) : (V3 m ρ c main_v6 : S4x4096x1024.Idx → EReal)
    = shapeCast S4x4096x1024 (specV (V1 m ρ c main_v0) (V1 m ρ c main_v1) (V1 m ρ c main_v2)) shapeCasts_S16384x1024_S4x4096x1024 := by
  have e : (V3 m ρ c main_v6 : S4x4096x1024.Idx → EReal)
      = shapeCast S4x4096x1024 (W2 m ρ c (Proc.devRef .tc main_v3_2) : S16384x1024.Idx → EReal) shapeCasts_S16384x1024_S4x4096x1024 := by
    show StableHlo.after hostOps1 (W2 m ρ c) (Proc.devRef .tc main_v6) = _
    after_results
    rfl
  rw [e, show W2 m ρ c (Proc.devRef .tc main_v3_2) = (dat0 (V1 m ρ) c).arrAt 5 cfg0.N from W2_arr m ρ c 5, projV]

/-- Nothing before the attention region writes the mask. -/
theorem V3_mask (c : Dev nD) : V3 m ρ c main_arg2 = m ((c : Thread nD τ).loc main_arg2) :=
  calc W3 m ρ c (Proc.devRef .tc main_arg2)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## With real arguments -/

section Entry
variable (c : Dev nD) (X : Fin 4 → Fin 4096 → Fin 1024 → ℝ) (Mk : Fin 4 → Fin 4096 → Fin 4096 → ℝ)
  (Wt : Fin 1024 → Fin 3072 → ℝ) (Bs : Fin 3072 → ℝ)

/-- Row 4096 b + s of the projection's x is row (b, s) of the argument. -/
theorem V1_x_apply (h0 : m ((c : Thread nD τ).loc main_arg0) = fun i => ((X (i 0) (i 1) (i 2) : ℝ) : EReal))
    (r : Fin 16384) (e : Fin 1024) (b : Fin 4) (s : Fin 4096) (hr : r.val = 4096 * b.val + s.val) :
    (V1 m ρ c main_v0 : S16384x1024.Idx → EReal) (ix2 r e) = ((X b s e : ℝ) : EReal) := by
  rw [V1_x, flat_apply _ _ r e b s hr, h0]
  rfl

theorem V1_w_apply (h3 : m ((c : Thread nD τ).loc main_arg3) = fun i => ((Wt (i 0) (i 1) : ℝ) : EReal))
    (e : Fin 1024) (k : Fin 3072) :
    (V1 m ρ c main_v1 : S1024x3072.Idx → EReal) (ix2 e k) = ((Wt e k : ℝ) : EReal) := by
  rw [V1_w, h3]
  rfl

theorem V1_b_apply (h4 : m ((c : Thread nD τ).loc main_arg4) = fun i => ((Bs (i 0) : ℝ) : EReal)) (k : Fin 3072) :
    (V1 m ρ c main_v2 : S1x3072.Idx → EReal) (ix2 (0 : Fin 1) k) = ((Bs k : ℝ) : EReal) := by
  rw [V1_b, shapeCast_a_1a_apply, h4]
  rfl

/-- The attention region is entered with the specification's queries, … -/
theorem entryQ (h0 : m ((c : Thread nD τ).loc main_arg0) = fun i => ((X (i 0) (i 1) (i 2) : ℝ) : EReal))
    (h3 : m ((c : Thread nD τ).loc main_arg3) = fun i => ((Wt (i 0) (i 1) : ℝ) : EReal))
    (h4 : m ((c : Thread nD τ).loc main_arg4) = fun i => ((Bs (i 0) : ℝ) : EReal)) (i : S4x4096x1024.Idx) :
    (V3 m ρ c main_v4 : S4x4096x1024.Idx → EReal) i = ((AttnSpec.Q X Wt Bs (i 0) (i 1) (i 2) : ℝ) : EReal) := by
  obtain ⟨b, s, d, rfl⟩ : ∃ (b : Fin 4) (s : Fin 4096) (d : Fin 1024), i = ix3 b s d := ⟨i 0, i 1, i 2, eq_ix3 i⟩
  rw [V3_q, unflat_apply _ _ b s d ⟨4096 * b.val + s.val, by omega⟩ rfl]
  exact specQ_real _ _ _ X Wt Bs b s _ (fun e => V1_x_apply m ρ c X h0 _ e b s rfl)
    (fun e k => V1_w_apply m ρ c Wt h3 e k) (fun k => V1_b_apply m ρ c Bs h4 k) d

/-- … keys … -/
theorem entryK (h0 : m ((c : Thread nD τ).loc main_arg0) = fun i => ((X (i 0) (i 1) (i 2) : ℝ) : EReal))
    (h3 : m ((c : Thread nD τ).loc main_arg3) = fun i => ((Wt (i 0) (i 1) : ℝ) : EReal))
    (h4 : m ((c : Thread nD τ).loc main_arg4) = fun i => ((Bs (i 0) : ℝ) : EReal)) (i : S4x4096x1024.Idx) :
    (V3 m ρ c main_v5 : S4x4096x1024.Idx → EReal) i = ((AttnSpec.K X Wt Bs (i 0) (i 1) (i 2) : ℝ) : EReal) := by
  obtain ⟨b, s, d, rfl⟩ : ∃ (b : Fin 4) (s : Fin 4096) (d : Fin 1024), i = ix3 b s d := ⟨i 0, i 1, i 2, eq_ix3 i⟩
  rw [V3_k, unflat_apply _ _ b s d ⟨4096 * b.val + s.val, by omega⟩ rfl]
  exact specK_real _ _ _ X Wt Bs b s _ (fun e => V1_x_apply m ρ c X h0 _ e b s rfl)
    (fun e k => V1_w_apply m ρ c Wt h3 e k) (fun k => V1_b_apply m ρ c Bs h4 k) d

/-- … and values, -/
theorem entryV (h0 : m ((c : Thread nD τ).loc main_arg0) = fun i => ((X (i 0) (i 1) (i 2) : ℝ) : EReal))
    (h3 : m ((c : Thread nD τ).loc main_arg3) = fun i => ((Wt (i 0) (i 1) : ℝ) : EReal))
    (h4 : m ((c : Thread nD τ).loc main_arg4) = fun i => ((Bs (i 0) : ℝ) : EReal)) (i : S4x4096x1024.Idx) :
    (V3 m ρ c main_v6 : S4x4096x1024.Idx → EReal) i = ((AttnSpec.V X Wt Bs (i 0) (i 1) (i 2) : ℝ) : EReal) := by
  obtain ⟨b, s, d, rfl⟩ : ∃ (b : Fin 4) (s : Fin 4096) (d : Fin 1024), i = ix3 b s d := ⟨i 0, i 1, i 2, eq_ix3 i⟩
  rw [V3_v, unflat_apply _ _ b s d ⟨4096 * b.val + s.val, by omega⟩ rfl]
  exact specV_real _ _ _ X Wt Bs b s _ (fun e => V1_x_apply m ρ c X h0 _ e b s rfl)
    (fun e k => V1_w_apply m ρ c Wt h3 e k) (fun k => V1_b_apply m ρ c Bs h4 k) d

/-- and the mask as launched. -/
theorem entryM (h2 : m ((c : Thread nD τ).loc main_arg2) = fun i => ((Mk (i 0) (i 1) (i 2) : ℝ) : EReal)) (i : S4x4096x4096.Idx) :
    (V3 m ρ c main_arg2 : S4x4096x4096.Idx → EReal) i = ((Mk (i 0) (i 1) (i 2) : ℝ) : EReal) := by
  rw [V3_mask, h2]

end Entry

end Host

end Cert.KernelIdeal.HostValue

end
-- ==== Proof.RefQkv.lean ====
/-
  The reference's first stages read at an index, for argument arrays that are coercions of real arrays: the fused
  projection, and its three column blocks (the queries scaled by 1/32, the keys, the values).
-/
import proofs.«117829_j39676907888059_2_alg».proof.Proof.Gen.ReferenceIdeal.Read
import proofs.«117829_j39676907888059_2_alg».proof.Proof.AttnSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The coercion of a finite sum of reals is the sum of the coercions. -/
theorem coe_finset_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The word 0x3D000000 denotes 1/32. -/
theorem ofBits_scale : Ideal.ofBits .f32 0x3D000000#32 = (((1 : ℝ) / 32 : ℝ) : EReal) := by
  simp [Ideal.ofBits, Ideal.ieee, -EReal.coe_mul]; norm_num

/-- The word 0xFF800000 denotes -∞. -/
theorem ofBits_neg_inf : Ideal.ofBits .f32 0xFF800000#32 = (⊥ : EReal) := by
  simp [Ideal.ofBits, Ideal.ieee]

variable (X : Fin 4 → Fin 4096 → Fin 1024 → ℝ) (Wt : Fin 1024 → Fin 3072 → ℝ) (Bs : Fin 3072 → ℝ)
  (Mk : Fin 4 → Fin 4096 → Fin 4096 → ℝ)

/-- The activations, as an array of extended reals. -/
abbrev cX : (⟨S4x4096x1024, .f32⟩ : BufTy).Contents (Elt Ideal) := fun i => ((X (i 0) (i 1) (i 2) : ℝ) : EReal)
/-- The additive mask, as an array of extended reals. -/
abbrev cM : (⟨S4x4096x4096, .f32⟩ : BufTy).Contents (Elt Ideal) := fun i => ((Mk (i 0) (i 1) (i 2) : ℝ) : EReal)
/-- The fused weight, as an array of extended reals. -/
abbrev cW : (⟨S1024x3072, .f32⟩ : BufTy).Contents (Elt Ideal) := fun i => ((Wt (i 0) (i 1) : ℝ) : EReal)
/-- The fused bias, as an array of extended reals. -/
abbrev cB : (⟨S3072, .f32⟩ : BufTy).Contents (Elt Ideal) := fun i => ((Bs (i 0) : ℝ) : EReal)

/-- The fused projection at an index is the real projection. -/
theorem qkv_at (b : Fin 4) (s : Fin 4096) (e : Fin 3072) :
    val_main_v3 (F := Ideal) (cX X) (cW Wt) (cB Bs) (ix3 b s e) = ((AttnSpec.qkv X Wt Bs b s e : ℝ) : EReal) := by
  rw [val_main_v3_apply, val_main_v0_apply, val_main_v2_apply, val_main_v1_apply]
  unfold AttnSpec.qkv
  rw [EReal.coe_add, coe_finset_sum]
  simp only [EReal.coe_mul]
  rfl

/-- The scaled queries at an index. -/
theorem q_at (b : Fin 4) (s : Fin 4096) (d : Fin 1024) :
    val_main_v8 (F := Ideal) (cX X) (cW Wt) (cB Bs) (ix3 b s d) = ((AttnSpec.Q X Wt Bs b s d : ℝ) : EReal) := by
  have e : idx_main_v4 (ix3 b s d) = ix3 b s (AttnSpec.colQ d) :=
    funext fun a => by match a with | ⟨0, _⟩ => rfl | ⟨1, _⟩ => rfl | ⟨2, _⟩ => rfl
  rw [val_main_v8_apply, val_main_v4_apply, val_main_v7_apply, val_main_cst_apply, e, qkv_at]
  unfold AttnSpec.Q
  rw [Ideal.ofBits_def, ofBits_scale, Ideal.mulf_def, EReal.coe_mul]

/-- The keys at an index. -/
theorem k_at (b : Fin 4) (s : Fin 4096) (d : Fin 1024) :
    val_main_v5 (F := Ideal) (cX X) (cW Wt) (cB Bs) (ix3 b s d) = ((AttnSpec.K X Wt Bs b s d : ℝ) : EReal) := by
  have e : idx_main_v5 (ix3 b s d) = ix3 b s (AttnSpec.colK d) :=
    funext fun a => by match a with | ⟨0, _⟩ => rfl | ⟨1, _⟩ => rfl | ⟨2, _⟩ => rfl
  rw [val_main_v5_apply, e, qkv_at]
  rfl

/-- The values at an index. -/
theorem v_at (b : Fin 4) (s : Fin 4096) (d : Fin 1024) :
    val_main_v6 (F := Ideal) (cX X) (cW Wt) (cB Bs) (ix3 b s d) = ((AttnSpec.V X Wt Bs b s d : ℝ) : EReal) := by
  have e : idx_main_v6 (ix3 b s d) = ix3 b s (AttnSpec.colV d) :=
    funext fun a => by match a with | ⟨0, _⟩ => rfl | ⟨1, _⟩ => rfl | ⟨2, _⟩ => rfl
  rw [val_main_v6_apply, e, qkv_at]
  rfl

end Cert.ReferenceIdeal.RefValue
-- ==== Proof.RefScores.lean ====
/-
  The reference's masked scores read at an index, for argument arrays that are coercions of real arrays.
-/
import proofs.«117829_j39676907888059_2_alg».proof.Proof.RefQkv

noncomputable section

open scoped BigOperators

namespace Cert.ReferenceIdeal.RefValue

open Cert.ReferenceIdeal Cert.ReferenceIdeal.Gen Cert.ReferenceIdeal.Read Idealize.ShloMosaic Idealize.ShloMosaic.ValueIdx

variable (X : Fin 4 → Fin 4096 → Fin 1024 → ℝ) (Wt : Fin 1024 → Fin 3072 → ℝ) (Bs : Fin 3072 → ℝ)
  (Mk : Fin 4 → Fin 4096 → Fin 4096 → ℝ)

/-- The masked scores at an index. -/
theorem s_at (b : Fin 4) (i j : Fin 4096) :
    val_main_v10 (F := Ideal) (cX X) (cM Mk) (cW Wt) (cB Bs) (ix3 b i j) = ((AttnSpec.S X Wt Bs Mk b i j : ℝ) : EReal) := by
  have el : ∀ k, lidx_main_v9 (ix3 b i j) k = ix3 b i k := fun k =>
    funext fun a => by match a with | ⟨0, _⟩ => rfl | ⟨1, _⟩ => rfl | ⟨2, _⟩ => rfl
  have er : ∀ k, ridx_main_v9 (ix3 b i j) k = ix3 b j k := fun k =>
    funext fun a => by match a with | ⟨0, _⟩ => rfl | ⟨1, _⟩ => rfl | ⟨2, _⟩ => rfl
  rw [val_main_v10_apply, val_main_v9_apply]
  simp only [el, er, q_at, k_at]
  unfold AttnSpec.S
  rw [EReal.coe_add, coe_finset_sum]
  simp only [EReal.coe_mul]
  rfl

end Cert.ReferenceIdeal.RefValue
-- ==== Proof.RefRowMax.lean ====
/-
  The row maximum the reference subtracts before exponentiating is a real, for argument arrays that are coercions of real arrays.
-/
import proofs.«117829_j39676907888059_2_alg».proof.Proof.RefScores

noncomputable section

open scoped BigOperators

namespace Cert.ReferenceIdeal.RefValue

open Cert.ReferenceIdeal Cert.ReferenceIdeal.Gen Cert.ReferenceIdeal.Read Idealize.ShloMosaic Idealize.ShloMosaic.ValueIdx

/-- A fold of a maximum from -∞ over coercions of reals is -∞ on the empty set and the coercion of a real otherwise. -/
theorem fold_max_coe {ι : Type*} [DecidableEq ι] (op : EReal → EReal → EReal) [Std.Commutative op] [Std.Associative op]
    (hop : ∀ x y, op x y = max x y) (g : ι → ℝ) (s : Finset ι) :
    (s = ∅ ∧ s.fold op (⊥ : EReal) (fun k => (g k : EReal)) = ⊥) ∨
      ∃ r : ℝ, s.fold op (⊥ : EReal) (fun k => (g k : EReal)) = (r : EReal) := by
  induction s using Finset.induction_on with
  | empty => exact Or.inl ⟨rfl, Finset.fold_empty⟩
  | insert a s ha ih =>
    right
    rw [Finset.fold_insert ha, hop]
    rcases ih with ⟨_, h⟩ | ⟨r, h⟩
    · exact ⟨g a, by rw [h, max_eq_left bot_le]⟩
    · exact ⟨max (g a) r, by rw [h]; exact (EReal.coe_strictMono.monotone.map_max).symm⟩

/-- The scores' shape with its last axis dropped is the rows' shape. -/
theorem reduces_row : Shape.Reduces S4x4096x4096 [2] S4x4096 := by decide

/-- A row index with a column inserted on the dropped axis. -/
theorem lift_row (b : Fin 4) (i k : Fin 4096) : reduces_row.lift (ix2 b i) k = ix3 b i k :=
  funext fun a => Fin.ext (by match a with | ⟨0, _⟩ => rfl | ⟨1, _⟩ => rfl | ⟨2, _⟩ => rfl)

variable (X : Fin 4 → Fin 4096 → Fin 1024 → ℝ) (Wt : Fin 1024 → Fin 3072 → ℝ) (Bs : Fin 3072 → ℝ)
  (Mk : Fin 4 → Fin 4096 → Fin 4096 → ℝ)

/-- The scores of a row, as the reference's max-reduce reads them. -/
theorem row_scores (b : Fin 4) (i : Fin 4096) :
    (val_main_v10 (F := Ideal) (cX X) (cM Mk) (cW Wt) (cB Bs) ∘ reduces_row.lift (ix2 b i))
      = fun k => ((AttnSpec.S X Wt Bs Mk b i k : ℝ) : EReal) :=
  funext fun k => by
    rw [Function.comp_apply, lift_row b i k]
    exact s_at X Wt Bs Mk b i k

/-- The reference's max-reduce over a row is the coercion of a real. -/
theorem rowfold_real (b : Fin 4) (i : Fin 4096) :
    ∃ M0 : ℝ, val_main_v11 (F := Ideal) (cX X) (cM Mk) (cW Wt) (cB Bs) (ix2 b i) = (M0 : EReal) := by
  unfold val_main_v11
  rw [Host.reduce_eq_fold_single FloatOps.maximumf _ _ _ reduces_row h_S_, val_main_cst_0_apply, Ideal.ofBits_def,
    ofBits_neg_inf, row_scores]
  rcases fold_max_coe (FloatOps.maximumf (F := Ideal) (φ := .f32)) (fun _ _ => rfl)
    (fun k : Fin (S4x4096x4096.size 2) => AttnSpec.S X Wt Bs Mk b i k) Finset.univ with ⟨h0, _⟩ | h
  · exact absurd h0 (Finset.ne_empty_of_mem (Finset.mem_univ (⟨0, by decide⟩ : Fin (S4x4096x4096.size 2))))
  · exact h

/-- The row maximum the reference subtracts is a real. -/
theorem rowmax_real (b : Fin 4) (i : Fin 4096) :
    ∃ M0 : ℝ, val_main_v13 (F := Ideal) (cX X) (cM Mk) (cW Wt) (cB Bs) (ix2 b i) = (M0 : EReal) := by
  obtain ⟨M0, h⟩ := rowfold_real X Wt Bs Mk b i
  exact ⟨M0, by rw [val_main_v13_apply, val_main_v12_apply, val_main_cst_1_apply, Ideal.ofBits_def, ofBits_neg_inf,
    Ideal.maximumf_def, max_eq_right bot_le, h]⟩

end Cert.ReferenceIdeal.RefValue
-- ==== Proof.RefExp.lean ====
/-
  The reference's softmax stages read at an index, given that the subtracted row maximum is a real: the shifted exponentials, their row sum, and the quotient.
-/
import proofs.«117829_j39676907888059_2_alg».proof.Proof.RefScores

noncomputable section

open scoped BigOperators

namespace Cert.ReferenceIdeal.RefValue

open Cert.ReferenceIdeal Cert.ReferenceIdeal.Gen Cert.ReferenceIdeal.Read Idealize.ShloMosaic Idealize.ShloMosaic.ValueIdx

variable (X : Fin 4 → Fin 4096 → Fin 1024 → ℝ) (Wt : Fin 1024 → Fin 3072 → ℝ) (Bs : Fin 3072 → ℝ)
  (Mk : Fin 4 → Fin 4096 → Fin 4096 → ℝ)

/-- The shifted exponentials at an index. -/
theorem exp_at (b : Fin 4) (i j : Fin 4096) (M0 : ℝ)
    (hM : val_main_v13 (F := Ideal) (cX X) (cM Mk) (cW Wt) (cB Bs) (ix2 b i) = (M0 : EReal)) :
    val_main_v17 (F := Ideal) (cX X) (cM Mk) (cW Wt) (cB Bs) (ix3 b i j)
      = ((Real.exp (AttnSpec.S X Wt Bs Mk b i j - M0) : ℝ) : EReal) := by
  have e : idx_main_v14 (idx_main_v15 (ix3 b i j)) = ix2 b i :=
    funext fun a => by match a with | ⟨0, _⟩ => rfl | ⟨1, _⟩ => rfl
  rw [val_main_v17_apply, val_main_v16_apply, val_main_v15_apply, val_main_v14_apply, e, hM, s_at, Ideal.subf_def,
    Ideal.hostUnary_exp_def, ← EReal.coe_sub, Ideal.exp_coe]

/-- The row sum of the shifted exponentials. -/
theorem sumexp_at (b : Fin 4) (i : Fin 4096) (M0 : ℝ)
    (hM : val_main_v13 (F := Ideal) (cX X) (cM Mk) (cW Wt) (cB Bs) (ix2 b i) = (M0 : EReal)) :
    val_main_v18 (F := Ideal) (cX X) (cM Mk) (cW Wt) (cB Bs) (ix2 b i)
      = ((∑ j : Fin 4096, Real.exp (AttnSpec.S X Wt Bs Mk b i j - M0) : ℝ) : EReal) := by
  have e : ∀ k, idx_main_v18 (ix2 b i) k = ix3 b i k := fun k =>
    funext fun a => by match a with | ⟨0, _⟩ => rfl | ⟨1, _⟩ => rfl | ⟨2, _⟩ => rfl
  rw [val_main_v18_apply, val_main_cst_2_apply, Ideal.ofBits_def, Ideal.ofBits_zero_f32, zero_add, coe_finset_sum]
  exact Finset.sum_congr rfl fun k _ => by rw [e, exp_at X Wt Bs Mk b i k M0 hM]

/-- The softmax weights at an index. -/
theorem p_at (b : Fin 4) (i j : Fin 4096) (M0 : ℝ)
    (hM : val_main_v13 (F := Ideal) (cX X) (cM Mk) (cW Wt) (cB Bs) (ix2 b i) = (M0 : EReal)) :
    val_main_v21 (F := Ideal) (cX X) (cM Mk) (cW Wt) (cB Bs) (ix3 b i j)
      = ((Real.exp (AttnSpec.S X Wt Bs Mk b i j - M0) / ∑ j' : Fin 4096, Real.exp (AttnSpec.S X Wt Bs Mk b i j' - M0) : ℝ) : EReal) := by
  have e : idx_main_v19 (idx_main_v20 (ix3 b i j)) = ix2 b i :=
    funext fun a => by match a with | ⟨0, _⟩ => rfl | ⟨1, _⟩ => rfl
  have hpos : (∑ j' : Fin 4096, Real.exp (AttnSpec.S X Wt Bs Mk b i j' - M0)) ≠ 0 :=
    (Finset.sum_pos (fun _ _ => Real.exp_pos _) (Finset.univ_nonempty (α := Fin 4096))).ne'
  rw [val_main_v21_apply, val_main_v20_apply, val_main_v19_apply, e, exp_at X Wt Bs Mk b i j M0 hM,
    sumexp_at X Wt Bs Mk b i M0 hM, Ideal.hostDivf_def, Ideal.div_coe hpos, ← EReal.coe_mul, ← div_eq_mul_one_div]

end Cert.ReferenceIdeal.RefValue
-- ==== Proof.RefValue.lean ====
/-
  The reference's result read at an index, for argument arrays that are coercions of real arrays: the real
  attention specification, with any shift inside the exponentials.
-/
import proofs.«117829_j39676907888059_2_alg».proof.Proof.RefRowMax
import proofs.«117829_j39676907888059_2_alg».proof.Proof.RefExp

noncomputable section

open scoped BigOperators

namespace Cert.ReferenceIdeal.RefValue

open Cert.ReferenceIdeal Cert.ReferenceIdeal.Gen Cert.ReferenceIdeal.Read Idealize.ShloMosaic Idealize.ShloMosaic.ValueIdx

variable (X : Fin 4 → Fin 4096 → Fin 1024 → ℝ) (Wt : Fin 1024 → Fin 3072 → ℝ) (Bs : Fin 3072 → ℝ)
  (Mk : Fin 4 → Fin 4096 → Fin 4096 → ℝ)

/-- The reference's result at an index is the specification, whatever the shift. -/
theorem out_at (M : ℝ) (b : Fin 4) (i : Fin 4096) (d : Fin 1024) :
    val_main_v22 (F := Ideal) (cX X) (cM Mk) (cW Wt) (cB Bs) (ix3 b i d) = ((AttnSpec.O X Wt Bs Mk M b i d : ℝ) : EReal) := by
  obtain ⟨M0, hM⟩ := rowmax_real X Wt Bs Mk b i
  have el : ∀ k, lidx_main_v22 (ix3 b i d) k = ix3 b i k := fun k =>
    funext fun a => by match a with | ⟨0, _⟩ => rfl | ⟨1, _⟩ => rfl | ⟨2, _⟩ => rfl
  have er : ∀ k, ridx_main_v22 (ix3 b i d) k = ix3 b k d := fun k =>
    funext fun a => by match a with | ⟨0, _⟩ => rfl | ⟨1, _⟩ => rfl | ⟨2, _⟩ => rfl
  rw [val_main_v22_apply, AttnSpec.O_shift X Wt Bs Mk M M0]
  unfold AttnSpec.O
  rw [coe_finset_sum]
  exact Finset.sum_congr rfl fun k _ => by
    rw [el, er, p_at X Wt Bs Mk b i k M0 hM, v_at X Wt Bs b k d, EReal.coe_mul]

/-- The same with the argument arrays spelled out, as a function of the index. -/
theorem ref_value (M : ℝ) :
    val_main_v22 (F := Ideal) (fun i => ((X (i 0) (i 1) (i 2) : ℝ) : EReal)) (fun i => ((Mk (i 0) (i 1) (i 2) : ℝ) : EReal))
        (fun i => ((Wt (i 0) (i 1) : ℝ) : EReal)) (fun i => ((Bs (i 0) : ℝ) : EReal))
      = fun j => ((AttnSpec.O X Wt Bs Mk M (j 0) (j 1) (j 2) : ℝ) : EReal) := by
  funext j
  obtain ⟨b, i, d, rfl⟩ : ∃ (b : Fin 4) (i : Fin 4096) (d : Fin 1024), j = ix3 b i d := ⟨j 0, j 1, j 2, eq_ix3 j⟩
  exact out_at X Wt Bs Mk M b i d

end Cert.ReferenceIdeal.RefValue
-- ==== Proof.Finite.lean ====
/-
  The precondition read back: when the predicate "every entry of every float input is finite"
  holds at the extended reals, each of the four inputs the programs use is, entry by entry, the coercion
  of a real array.
-/
import proofs.«117829_j39676907888059_2_alg».proof.Proof.Gen.Pre_finite_inputs
import proofs.«117829_j39676907888059_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Pre_finite_inputs.Finite

open Idealize.ShloMosaic Cert.Pre_finite_inputs Cert.Pre_finite_inputs.Gen

instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is strictly below +∞ is a real. -/
theorem real_of_abs_lt (x : EReal) (h : Ideal.cmp .olt (max x (-x)) (⊤ : EReal) = 1#1) : ∃ r : ℝ, x = (r : EReal) := by
  have hlt : max x (-x) < ⊤ := by
    by_contra hn
    simp [Ideal.cmp, hn] at h
  induction x using EReal.rec with
  | bot => simp at hlt
  | coe r => exact ⟨r, rfl⟩
  | top => simp at hlt

/-- One input's test, at an index: the entry is a real. -/
theorem entry_real {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have hb' : broadcastInDim s ![] hb (constant (F := Ideal) S_ .f32 0x7F800000#32) i = (⊤ : EReal) := by
    rw [broadcastInDim_apply _ hb _ i (fun d => d.elim0) (fun d => d.elim0)]
    exact ofBits_inf
  refine real_of_abs_lt (a i) ?_
  have h' : Ideal.cmp .olt (max (a i) (-(a i))) (broadcastInDim s ![] hb (constant (F := Ideal) S_ .f32 0x7F800000#32) i) = 1#1 := h
  rwa [hb'] at h'

/-- Every input the programs read is a real array, entry by entry. -/
theorem inputs_real (a0 : FVec Ideal S4x4096x1024 .f32) (a1 : FVec Ideal S4x4096x1024 .f32) (a2 : FVec Ideal S4x4096x4096 .f32)
    (a3 : FVec Ideal S1024x3072 .f32) (a4 : FVec Ideal S3072 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal)) ∧
      (∀ i, ∃ r : ℝ, a4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', _⟩ := IntOp.andi_eq_one.1 h01
  exact ⟨fun i => entry_real a0 _ i (Host.reduce_andi_all _ _ _ _ _ h0' i),
    fun i => entry_real a2 _ i (Host.reduce_andi_all _ _ _ _ _ h2 i),
    fun i => entry_real a3 _ i (Host.reduce_andi_all _ _ _ _ _ h3 i),
    fun i => entry_real a4 _ i (Host.reduce_andi_all _ _ _ _ _ h4 i)⟩

/-- The same, with the real arrays indexed by coordinates. -/
theorem inputs_coe (a0 : FVec Ideal S4x4096x1024 .f32) (a1 : FVec Ideal S4x4096x1024 .f32) (a2 : FVec Ideal S4x4096x4096 .f32)
    (a3 : FVec Ideal S1024x3072 .f32) (a4 : FVec Ideal S3072 .f32)
    (h : Cert.Pre_finite_inputs.fn (F := Ideal) a0 a1 a2 a3 a4 = fun _ => 1#1) :
    ∃ (X : Fin 4 → Fin 4096 → Fin 1024 → ℝ) (Mk : Fin 4 → Fin 4096 → Fin 4096 → ℝ) (Wt : Fin 1024 → Fin 3072 → ℝ)
      (Bs : Fin 3072 → ℝ),
      a0 = (fun i => ((X (i 0) (i 1) (i 2) : ℝ) : EReal)) ∧ a2 = (fun i => ((Mk (i 0) (i 1) (i 2) : ℝ) : EReal)) ∧
      a3 = (fun i => ((Wt (i 0) (i 1) : ℝ) : EReal)) ∧ a4 = (fun i => ((Bs (i 0) : ℝ) : EReal)) := by
  obtain ⟨h0, h2, h3, h4⟩ := inputs_real a0 a1 a2 a3 a4 h
  choose f0 hf0 using h0
  choose f2 hf2 using h2
  choose f3 hf3 using h3
  choose f4 hf4 using h4
  refine ⟨fun b s d => f0 (ValueIdx.ix3 b s d), fun b i j => f2 (ValueIdx.ix3 b i j), fun d e => f3 (ValueIdx.ix2 d e),
    fun e => f4 (ValueIdx.ix1 e), ?_, ?_, ?_, ?_⟩
  · exact funext fun i => (hf0 i).trans (congrArg (fun j => ((f0 j : ℝ) : EReal)) (ValueIdx.eq_ix3 i))
  · exact funext fun i => (hf2 i).trans (congrArg (fun j => ((f2 j : ℝ) : EReal)) (ValueIdx.eq_ix3 i))
  · exact funext fun i => (hf3 i).trans (congrArg (fun j => ((f3 j : ℝ) : EReal)) (ValueIdx.eq_ix2 i))
  · exact funext fun i => (hf4 i).trans (congrArg (fun j => ((f4 j : ℝ) : EReal)) (ValueIdx.eq_ix1 i))

end Cert.Pre_finite_inputs.Finite
-- ==== Proof.lean ====
/-
  The certificate of a fused attention layer against its plain reference, at the extended reals.

  The program: reshape the input to [16384, 1024]; a first kernel region, on 16 row tiles, stores the three thirds of
  x·W + b — the first scaled by 1/32 — as the arrays q, k, v; after three reshapes a second region, on a grid of
  (batch, query tile, key tile) = 4 × 4 × 8, keeps per query row a running maximum m, a normaliser l and an accumulator
  row acc in three buffers carried from one key tile to the next: a first key tile resets them to a finite sentinel, 0
  and 0; every tile forms the scores s = q·kᵀ + mask of its 512 keys, takes m' = max m (max s), and replaces
  l by exp (m − m')·l + Σ exp (s − m') and acc by exp (m − m')·acc + Σ exp (s − m')·v; the last tile stores acc / l.
  The reference: einsum, the softmax of the whole row of 4096 scores (shifted by the row maximum), einsum.

  Both are the same function of finite inputs: by induction over the key tiles l and acc are the sums of
  exp (s − m)·(1, v) over the keys seen so far, for whatever sequence of shifts m (the update only uses
  exp (a)·exp (b) = exp (a + b)), so acc / l is the softmax-weighted sum of the values, in which any common shift of the
  exponent cancels — the reference's row maximum and the kernel's running maximum started from a finite sentinel
  alike. Finiteness of the inputs is used: the exponentials and the quotient are read on the reals.

  The three frames: the two kernel programs run to the end without a fault and leave their arguments unchanged — each
  region's body is run on whole staging buffers at every grid point, the attention region's invariant carrying the
  three scratch buffers from point to point — and the reference's frame is its run with the result dropped. The
  idealization rewrote nothing, so there is nothing to preserve.
-/
import proofs.«117829_j39676907888059_2_alg».proof.Defs
import proofs.«117829_j39676907888059_2_alg».proof.Proof.Gen.Kernel
import proofs.«117829_j39676907888059_2_alg».proof.Proof.Gen.KernelIdeal
import proofs.«117829_j39676907888059_2_alg».proof.Proof.Gen.ReferenceIdeal
import proofs.«117829_j39676907888059_2_alg».proof.Proof.Gen.ReferenceIdeal.Run
import proofs.«117829_j39676907888059_2_alg».proof.Proof.Gen.ReferenceIdeal.Read
import proofs.«117829_j39676907888059_2_alg».proof.Proof.Gen.Pre_finite_inputs
import proofs.«117829_j39676907888059_2_alg».proof.Proof.KWhole
import proofs.«117829_j39676907888059_2_alg».proof.Proof.Whole
import proofs.«117829_j39676907888059_2_alg».proof.Proof.AttnArray
import proofs.«117829_j39676907888059_2_alg».proof.Proof.HostValue
import proofs.«117829_j39676907888059_2_alg».proof.Proof.RefValue
import proofs.«117829_j39676907888059_2_alg».proof.Proof.Finite
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Whole.frame (F := Bits) m ρ

/-- So does the program read at the extended reals. -/
theorem frame_ki : Cert.frame_KernelIdeal := fun m ρ _ => Cert.KernelIdeal.Whole.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the same result: entry (b, i, d) is the
    softmax-weighted sum over the keys j of V b j d, the weights the exponentials of the scores S b i j over their sum. -/
theorem algebraic : Cert.algebraic_KernelIdeal_ReferenceIdeal := by
  intro m ρ m' ρ' hpre hagree
  choose X Mk Wt Bs h0 h2 h3 h4 using fun c : Dev Cert.KernelIdeal.nD =>
    Cert.Pre_finite_inputs.Finite.inputs_coe _ _ _ _ _ (hpre c)
  refine ⟨fun c => (fun i : Cert.KernelIdeal.S4x4096x1024.Idx =>
    ((AttnSpec.O (X c) (Wt c) (Bs c) (Mk c) 0 (i 0) (i 1) (i 2) : ℝ) : EReal)), ?_, ?_⟩
  · exact (θ_run Cert.KernelIdeal.defs _ _).mono (fun r h c => ⟨(h c).1.trans
        (Cert.KernelIdeal.Attn.attn_array (Cert.KernelIdeal.Whole.V3 m ρ) c (X c) (Wt c) (Bs c) (Mk c) 0
          (Cert.KernelIdeal.HostValue.entryQ m ρ c (X c) (Wt c) (Bs c) (h0 c) (h3 c) (h4 c))
          (Cert.KernelIdeal.HostValue.entryK m ρ c (X c) (Wt c) (Bs c) (h0 c) (h3 c) (h4 c))
          (Cert.KernelIdeal.HostValue.entryV m ρ c (X c) (Wt c) (Bs c) (h0 c) (h3 c) (h4 c))
          (Cert.KernelIdeal.HostValue.entryM m ρ c (Mk c) (h2 c))), (h c).2⟩)
      (Cert.KernelIdeal.Whole.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v22_eq, (hagree c).1, (hagree c).2.2.1, (hagree c).2.2.2.1,
      (hagree c).2.2.2.2, h0 c, h2 c, h3 c, h4 c]
    exact Cert.ReferenceIdeal.RefValue.ref_value (X c) (Wt c) (Bs c) (Mk c) 0

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
